-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S_ : Shape := ⟨0, ![]⟩
abbrev S1x1 : Shape := ⟨2, ![1, 1]⟩
abbrev S1x2 : Shape := ⟨2, ![1, 2]⟩
abbrev S2x2 : Shape := ⟨2, ![2, 2]⟩
abbrev S2x4 : Shape := ⟨2, ![2, 4]⟩
abbrev S4x4 : Shape := ⟨2, ![4, 4]⟩
abbrev S4x8 : Shape := ⟨2, ![4, 8]⟩
abbrev S8x8 : Shape := ⟨2, ![8, 8]⟩
abbrev S8x16 : Shape := ⟨2, ![8, 16]⟩
abbrev S16x16 : Shape := ⟨2, ![16, 16]⟩
abbrev S16x32 : Shape := ⟨2, ![16, 32]⟩
abbrev S32x32 : Shape := ⟨2, ![32, 32]⟩
abbrev S32x64 : Shape := ⟨2, ![32, 64]⟩
abbrev S64x64 : Shape := ⟨2, ![64, 64]⟩
abbrev S64x128 : Shape := ⟨2, ![64, 128]⟩
abbrev S128x128 : Shape := ⟨2, ![128, 128]⟩
abbrev S128x256 : Shape := ⟨2, ![128, 256]⟩
abbrev S256x256 : Shape := ⟨2, ![256, 256]⟩
abbrev S256x512 : Shape := ⟨2, ![256, 512]⟩
abbrev S512x512 : Shape := ⟨2, ![512, 512]⟩
abbrev S512x1024 : Shape := ⟨2, ![512, 1024]⟩
abbrev S1024x1024 : Shape := ⟨2, ![1024, 1024]⟩
abbrev S1024x2048 : Shape := ⟨2, ![1024, 2048]⟩
abbrev S2048x2048 : Shape := ⟨2, ![2048, 2048]⟩
abbrev S2048x4096 : Shape := ⟨2, ![2048, 4096]⟩
abbrev S4096x4096 : Shape := ⟨2, ![4096, 4096]⟩
abbrev S64x4096 : Shape := ⟨2, ![64, 4096]⟩

abbrev nBuf : Space → Nat
  | .hbm => 56
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S_, .f32⟩
  | .hbm, ⟨2, _⟩ => ⟨S1x1, .f32⟩
  | .hbm, ⟨3, _⟩ => ⟨S1x2, .f32⟩
  | .hbm, ⟨4, _⟩ => ⟨S1x1, .f32⟩
  | .hbm, ⟨5, _⟩ => ⟨S1x2, .f32⟩
  | .hbm, ⟨6, _⟩ => ⟨S2x2, .f32⟩
  | .hbm, ⟨7, _⟩ => ⟨S2x4, .f32⟩
  | .hbm, ⟨8, _⟩ => ⟨S2x2, .f32⟩
  | .hbm, ⟨9, _⟩ => ⟨S2x4, .f32⟩
  | .hbm, ⟨10, _⟩ => ⟨S4x4, .f32⟩
  | .hbm, ⟨11, _⟩ => ⟨S4x8, .f32⟩
  | .hbm, ⟨12, _⟩ => ⟨S4x4, .f32⟩
  | .hbm, ⟨13, _⟩ => ⟨S4x8, .f32⟩
  | .hbm, ⟨14, _⟩ => ⟨S8x8, .f32⟩
  | .hbm, ⟨15, _⟩ => ⟨S8x16, .f32⟩
  | .hbm, ⟨16, _⟩ => ⟨S8x8, .f32⟩
  | .hbm, ⟨17, _⟩ => ⟨S8x16, .f32⟩
  | .hbm, ⟨18, _⟩ => ⟨S16x16, .f32⟩
  | .hbm, ⟨19, _⟩ => ⟨S16x32, .f32⟩
  | .hbm, ⟨20, _⟩ => ⟨S16x16, .f32⟩
  | .hbm, ⟨21, _⟩ => ⟨S16x32, .f32⟩
  | .hbm, ⟨22, _⟩ => ⟨S32x32, .f32⟩
  | .hbm, ⟨23, _⟩ => ⟨S32x64, .f32⟩
  | .hbm, ⟨24, _⟩ => ⟨S32x32, .f32⟩
  | .hbm, ⟨25, _⟩ => ⟨S32x64, .f32⟩
  | .hbm, ⟨26, _⟩ => ⟨S64x64, .f32⟩
  | .hbm, ⟨27, _⟩ => ⟨S64x128, .f32⟩
  | .hbm, ⟨28, _⟩ => ⟨S64x64, .f32⟩
  | .hbm, ⟨29, _⟩ => ⟨S64x128, .f32⟩
  | .hbm, ⟨30, _⟩ => ⟨S128x128, .f32⟩
  | .hbm, ⟨31, _⟩ => ⟨S128x256, .f32⟩
  | .hbm, ⟨32, _⟩ => ⟨S128x128, .f32⟩
  | .hbm, ⟨33, _⟩ => ⟨S128x256, .f32⟩
  | .hbm, ⟨34, _⟩ => ⟨S256x256, .f32⟩
  | .hbm, ⟨35, _⟩ => ⟨S256x512, .f32⟩
  | .hbm, ⟨36, _⟩ => ⟨S256x256, .f32⟩
  | .hbm, ⟨37, _⟩ => ⟨S256x512, .f32⟩
  | .hbm, ⟨38, _⟩ => ⟨S512x512, .f32⟩
  | .hbm, ⟨39, _⟩ => ⟨S512x1024, .f32⟩
  | .hbm, ⟨40, _⟩ => ⟨S512x512, .f32⟩
  | .hbm, ⟨41, _⟩ => ⟨S512x1024, .f32⟩
  | .hbm, ⟨42, _⟩ => ⟨S1024x1024, .f32⟩
  | .hbm, ⟨43, _⟩ => ⟨S1024x2048, .f32⟩
  | .hbm, ⟨44, _⟩ => ⟨S1024x1024, .f32⟩
  | .hbm, ⟨45, _⟩ => ⟨S1024x2048, .f32⟩
  | .hbm, ⟨46, _⟩ => ⟨S2048x2048, .f32⟩
  | .hbm, ⟨47, _⟩ => ⟨S2048x4096, .f32⟩
  | .hbm, ⟨48, _⟩ => ⟨S2048x2048, .f32⟩
  | .hbm, ⟨49, _⟩ => ⟨S2048x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .bf16⟩
  | .hbm, ⟨55, _⟩ => ⟨S8192x4096, .f32⟩
  | .local _ .vmem, ⟨0, _⟩ => ⟨S64x4096, .f32⟩
  | .local _ .vmem, ⟨1, _⟩ => ⟨S64x4096, .f32⟩
  | .local _ .vmem, ⟨2, _⟩ => ⟨S4096x4096, .bf16⟩
  | .local _ .vmem, ⟨3, _⟩ => ⟨S64x4096, .f32⟩
  | .local _ .vmem, ⟨4, _⟩ => ⟨S64x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_cst_0 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1x1 : S_.BroadcastsInDim S1x1 (![] : Fin 0 → Fin S1x1.rank)
  concatenates_S1x1_S1x1_S1x2_d1 : Shape.Concatenates [S1x1, S1x1] S1x2 1
  concatenates_S1x2_S1x2_S2x2_d0 : Shape.Concatenates [S1x2, S1x2] S2x2 0
  concatenates_S2x2_S2x2_S2x4_d1 : Shape.Concatenates [S2x2, S2x2] S2x4 1
  concatenates_S2x4_S2x4_S4x4_d0 : Shape.Concatenates [S2x4, S2x4] S4x4 0
  concatenates_S4x4_S4x4_S4x8_d1 : Shape.Concatenates [S4x4, S4x4] S4x8 1
  concatenates_S4x8_S4x8_S8x8_d0 : Shape.Concatenates [S4x8, S4x8] S8x8 0
  concatenates_S8x8_S8x8_S8x16_d1 : Shape.Concatenates [S8x8, S8x8] S8x16 1
  concatenates_S8x16_S8x16_S16x16_d0 : Shape.Concatenates [S8x16, S8x16] S16x16 0
  concatenates_S16x16_S16x16_S16x32_d1 : Shape.Concatenates [S16x16, S16x16] S16x32 1
  concatenates_S16x32_S16x32_S32x32_d0 : Shape.Concatenates [S16x32, S16x32] S32x32 0
  concatenates_S32x32_S32x32_S32x64_d1 : Shape.Concatenates [S32x32, S32x32] S32x64 1
  concatenates_S32x64_S32x64_S64x64_d0 : Shape.Concatenates [S32x64, S32x64] S64x64 0
  concatenates_S64x64_S64x64_S64x128_d1 : Shape.Concatenates [S64x64, S64x64] S64x128 1
  concatenates_S64x128_S64x128_S128x128_d0 : Shape.Concatenates [S64x128, S64x128] S128x128 0
  concatenates_S128x128_S128x128_S128x256_d1 : Shape.Concatenates [S128x128, S128x128] S128x256 1
  concatenates_S128x256_S128x256_S256x256_d0 : Shape.Concatenates [S128x256, S128x256] S256x256 0
  concatenates_S256x256_S256x256_S256x512_d1 : Shape.Concatenates [S256x256, S256x256] S256x512 1
  concatenates_S256x512_S256x512_S512x512_d0 : Shape.Concatenates [S256x512, S256x512] S512x512 0
  concatenates_S512x512_S512x512_S512x1024_d1 : Shape.Concatenates [S512x512, S512x512] S512x1024 1
  concatenates_S512x1024_S512x1024_S1024x1024_d0 : Shape.Concatenates [S512x1024, S512x1024] S1024x1024 0
  concatenates_S1024x1024_S1024x1024_S1024x2048_d1 : Shape.Concatenates [S1024x1024, S1024x1024] S1024x2048 1
  concatenates_S1024x2048_S1024x2048_S2048x2048_d0 : Shape.Concatenates [S1024x2048, S1024x2048] S2048x2048 0
  concatenates_S2048x2048_S2048x2048_S2048x4096_d1 : Shape.Concatenates [S2048x2048, S2048x2048] S2048x4096 1
  concatenates_S2048x4096_S2048x4096_S4096x4096_d0 : Shape.Concatenates [S2048x4096, S2048x4096] S4096x4096 0
  bcast_S_S4096x4096 : S_.BroadcastsInDim S4096x4096 (![] : Fin 0 → Fin S4096x4096.rank)
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  dot_S64x4096_S4096x4096_S64x4096_1_0_0_1_n_n_wf : DotDims.WF S64x4096 S4096x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S8192x4096.size a
  hwx0_0 : ∀ i : grid0.Coords, EltTy.bits .f32 = 32 ∨ (Rect.block (s := S8192x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S8192x4096.size a
  hwx0_2 : ∀ i : grid0.Coords, EltTy.bits .f32 = 32 ∨ (Rect.block (s := S8192x4096) S64x4096.size (cc0_transform_2 i) (hinb0_2 i)).WholeWords (EltTy.packing .f32)

variable [Facts₀]

def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf

abbrev win0_0 : Pipeline.Window sig grid0 :=
  Pipeline.Window.ofSpec (Memref.whole main_arg0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v52) S64x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192x4096x1 : Shape := ⟨3, ![8192, 4096, 1]⟩
abbrev S8192x2048x2x1 : Shape := ⟨4, ![8192, 2048, 2, 1]⟩
abbrev S8192x2048x1x1 : Shape := ⟨4, ![8192, 2048, 1, 1]⟩
abbrev S8192x2048x1 : Shape := ⟨3, ![8192, 2048, 1]⟩
abbrev S8192x2048x2 : Shape := ⟨3, ![8192, 2048, 2]⟩
abbrev S8192x1024x2x2 : Shape := ⟨4, ![8192, 1024, 2, 2]⟩
abbrev S8192x1024x1x2 : Shape := ⟨4, ![8192, 1024, 1, 2]⟩
abbrev S8192x1024x2 : Shape := ⟨3, ![8192, 1024, 2]⟩
abbrev S8192x1024x4 : Shape := ⟨3, ![8192, 1024, 4]⟩
abbrev S8192x512x2x4 : Shape := ⟨4, ![8192, 512, 2, 4]⟩
abbrev S8192x512x1x4 : Shape := ⟨4, ![8192, 512, 1, 4]⟩
abbrev S8192x512x4 : Shape := ⟨3, ![8192, 512, 4]⟩
abbrev S8192x512x8 : Shape := ⟨3, ![8192, 512, 8]⟩
abbrev S8192x256x2x8 : Shape := ⟨4, ![8192, 256, 2, 8]⟩
abbrev S8192x256x1x8 : Shape := ⟨4, ![8192, 256, 1, 8]⟩
abbrev S8192x256x8 : Shape := ⟨3, ![8192, 256, 8]⟩
abbrev S8192x256x16 : Shape := ⟨3, ![8192, 256, 16]⟩
abbrev S8192x128x2x16 : Shape := ⟨4, ![8192, 128, 2, 16]⟩
abbrev S8192x128x1x16 : Shape := ⟨4, ![8192, 128, 1, 16]⟩
abbrev S8192x128x16 : Shape := ⟨3, ![8192, 128, 16]⟩
abbrev S8192x128x32 : Shape := ⟨3, ![8192, 128, 32]⟩
abbrev S8192x64x2x32 : Shape := ⟨4, ![8192, 64, 2, 32]⟩
abbrev S8192x64x1x32 : Shape := ⟨4, ![8192, 64, 1, 32]⟩
abbrev S8192x64x32 : Shape := ⟨3, ![8192, 64, 32]⟩
abbrev S8192x64x64 : Shape := ⟨3, ![8192, 64, 64]⟩
abbrev S8192x32x2x64 : Shape := ⟨4, ![8192, 32, 2, 64]⟩
abbrev S8192x32x1x64 : Shape := ⟨4, ![8192, 32, 1, 64]⟩
abbrev S8192x32x64 : Shape := ⟨3, ![8192, 32, 64]⟩
abbrev S8192x32x128 : Shape := ⟨3, ![8192, 32, 128]⟩
abbrev S8192x16x2x128 : Shape := ⟨4, ![8192, 16, 2, 128]⟩
abbrev S8192x16x1x128 : Shape := ⟨4, ![8192, 16, 1, 128]⟩
abbrev S8192x16x128 : Shape := ⟨3, ![8192, 16, 128]⟩
abbrev S8192x16x256 : Shape := ⟨3, ![8192, 16, 256]⟩
abbrev S8192x8x2x256 : Shape := ⟨4, ![8192, 8, 2, 256]⟩
abbrev S8192x8x1x256 : Shape := ⟨4, ![8192, 8, 1, 256]⟩
abbrev S8192x8x256 : Shape := ⟨3, ![8192, 8, 256]⟩
abbrev S8192x8x512 : Shape := ⟨3, ![8192, 8, 512]⟩
abbrev S8192x4x2x512 : Shape := ⟨4, ![8192, 4, 2, 512]⟩
abbrev S8192x4x1x512 : Shape := ⟨4, ![8192, 4, 1, 512]⟩
abbrev S8192x4x512 : Shape := ⟨3, ![8192, 4, 512]⟩
abbrev S8192x4x1024 : Shape := ⟨3, ![8192, 4, 1024]⟩
abbrev S8192x2x2x1024 : Shape := ⟨4, ![8192, 2, 2, 1024]⟩
abbrev S8192x2x1x1024 : Shape := ⟨4, ![8192, 2, 1, 1024]⟩
abbrev S8192x2x1024 : Shape := ⟨3, ![8192, 2, 1024]⟩
abbrev S8192x2x2048 : Shape := ⟨3, ![8192, 2, 2048]⟩
abbrev S8192x1x2x2048 : Shape := ⟨4, ![8192, 1, 2, 2048]⟩
abbrev S8192x1x1x2048 : Shape := ⟨4, ![8192, 1, 1, 2048]⟩
abbrev S8192x1x2048 : Shape := ⟨3, ![8192, 1, 2048]⟩
abbrev S8192x1x4096 : Shape := ⟨3, ![8192, 1, 4096]⟩
abbrev S_ : Shape := ⟨0, ![]⟩

abbrev nBuf : Space → Nat
  | .hbm => 102
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096x1, .f32⟩
  | .hbm, ⟨2, _⟩ => ⟨S8192x2048x2x1, .f32⟩
  | .hbm, ⟨3, _⟩ => ⟨S8192x2048x1x1, .f32⟩
  | .hbm, ⟨4, _⟩ => ⟨S8192x2048x1, .f32⟩
  | .hbm, ⟨5, _⟩ => ⟨S8192x2048x1x1, .f32⟩
  | .hbm, ⟨6, _⟩ => ⟨S8192x2048x1, .f32⟩
  | .hbm, ⟨7, _⟩ => ⟨S8192x2048x1, .f32⟩
  | .hbm, ⟨8, _⟩ => ⟨S8192x2048x1, .f32⟩
  | .hbm, ⟨9, _⟩ => ⟨S8192x2048x2, .f32⟩
  | .hbm, ⟨10, _⟩ => ⟨S8192x1024x2x2, .f32⟩
  | .hbm, ⟨11, _⟩ => ⟨S8192x1024x1x2, .f32⟩
  | .hbm, ⟨12, _⟩ => ⟨S8192x1024x2, .f32⟩
  | .hbm, ⟨13, _⟩ => ⟨S8192x1024x1x2, .f32⟩
  | .hbm, ⟨14, _⟩ => ⟨S8192x1024x2, .f32⟩
  | .hbm, ⟨15, _⟩ => ⟨S8192x1024x2, .f32⟩
  | .hbm, ⟨16, _⟩ => ⟨S8192x1024x2, .f32⟩
  | .hbm, ⟨17, _⟩ => ⟨S8192x1024x4, .f32⟩
  | .hbm, ⟨18, _⟩ => ⟨S8192x512x2x4, .f32⟩
  | .hbm, ⟨19, _⟩ => ⟨S8192x512x1x4, .f32⟩
  | .hbm, ⟨20, _⟩ => ⟨S8192x512x4, .f32⟩
  | .hbm, ⟨21, _⟩ => ⟨S8192x512x1x4, .f32⟩
  | .hbm, ⟨22, _⟩ => ⟨S8192x512x4, .f32⟩
  | .hbm, ⟨23, _⟩ => ⟨S8192x512x4, .f32⟩
  | .hbm, ⟨24, _⟩ => ⟨S8192x512x4, .f32⟩
  | .hbm, ⟨25, _⟩ => ⟨S8192x512x8, .f32⟩
  | .hbm, ⟨26, _⟩ => ⟨S8192x256x2x8, .f32⟩
  | .hbm, ⟨27, _⟩ => ⟨S8192x256x1x8, .f32⟩
  | .hbm, ⟨28, _⟩ => ⟨S8192x256x8, .f32⟩
  | .hbm, ⟨29, _⟩ => ⟨S8192x256x1x8, .f32⟩
  | .hbm, ⟨30, _⟩ => ⟨S8192x256x8, .f32⟩
  | .hbm, ⟨31, _⟩ => ⟨S8192x256x8, .f32⟩
  | .hbm, ⟨32, _⟩ => ⟨S8192x256x8, .f32⟩
  | .hbm, ⟨33, _⟩ => ⟨S8192x256x16, .f32⟩
  | .hbm, ⟨34, _⟩ => ⟨S8192x128x2x16, .f32⟩
  | .hbm, ⟨35, _⟩ => ⟨S8192x128x1x16, .f32⟩
  | .hbm, ⟨36, _⟩ => ⟨S8192x128x16, .f32⟩
  | .hbm, ⟨37, _⟩ => ⟨S8192x128x1x16, .f32⟩
  | .hbm, ⟨38, _⟩ => ⟨S8192x128x16, .f32⟩
  | .hbm, ⟨39, _⟩ => ⟨S8192x128x16, .f32⟩
  | .hbm, ⟨40, _⟩ => ⟨S8192x128x16, .f32⟩
  | .hbm, ⟨41, _⟩ => ⟨S8192x128x32, .f32⟩
  | .hbm, ⟨42, _⟩ => ⟨S8192x64x2x32, .f32⟩
  | .hbm, ⟨43, _⟩ => ⟨S8192x64x1x32, .f32⟩
  | .hbm, ⟨44, _⟩ => ⟨S8192x64x32, .f32⟩
  | .hbm, ⟨45, _⟩ => ⟨S8192x64x1x32, .f32⟩
  | .hbm, ⟨46, _⟩ => ⟨S8192x64x32, .f32⟩
  | .hbm, ⟨47, _⟩ => ⟨S8192x64x32, .f32⟩
  | .hbm, ⟨48, _⟩ => ⟨S8192x64x32, .f32⟩
  | .hbm, ⟨49, _⟩ => ⟨S8192x64x64, .f32⟩
  | .hbm, ⟨50, _⟩ => ⟨S8192x32x2x64, .f32⟩
  | .hbm, ⟨51, _⟩ => ⟨S8192x32x1x64, .f32⟩
  | .hbm, ⟨52, _⟩ => ⟨S8192x32x64, .f32⟩
  | .hbm, ⟨53, _⟩ => ⟨S8192x32x1x64, .f32⟩
  | .hbm, ⟨54, _⟩ => ⟨S8192x32x64, .f32⟩
  | .hbm, ⟨55, _⟩ => ⟨S8192x32x64, .f32⟩
  | .hbm, ⟨56, _⟩ => ⟨S8192x32x64, .f32⟩
  | .hbm, ⟨57, _⟩ => ⟨S8192x32x128, .f32⟩
  | .hbm, ⟨58, _⟩ => ⟨S8192x16x2x128, .f32⟩
  | .hbm, ⟨59, _⟩ => ⟨S8192x16x1x128, .f32⟩
  | .hbm, ⟨60, _⟩ => ⟨S8192x16x128, .f32⟩
  | .hbm, ⟨61, _⟩ => ⟨S8192x16x1x128, .f32⟩
  | .hbm, ⟨62, _⟩ => ⟨S8192x16x128, .f32⟩
  | .hbm, ⟨63, _⟩ => ⟨S8192x16x128, .f32⟩
  | .hbm, ⟨64, _⟩ => ⟨S8192x16x128, .f32⟩
  | .hbm, ⟨65, _⟩ => ⟨S8192x16x256, .f32⟩
  | .hbm, ⟨66, _⟩ => ⟨S8192x8x2x256, .f32⟩
  | .hbm, ⟨67, _⟩ => ⟨S8192x8x1x256, .f32⟩
  | .hbm, ⟨68, _⟩ => ⟨S8192x8x256, .f32⟩
  | .hbm, ⟨69, _⟩ => ⟨S8192x8x1x256, .f32⟩
  | .hbm, ⟨70, _⟩ => ⟨S8192x8x256, .f32⟩
  | .hbm, ⟨71, _⟩ => ⟨S8192x8x256, .f32⟩
  | .hbm, ⟨72, _⟩ => ⟨S8192x8x256, .f32⟩
  | .hbm, ⟨73, _⟩ => ⟨S8192x8x512, .f32⟩
  | .hbm, ⟨74, _⟩ => ⟨S8192x4x2x512, .f32⟩
  | .hbm, ⟨75, _⟩ => ⟨S8192x4x1x512, .f32⟩
  | .hbm, ⟨76, _⟩ => ⟨S8192x4x512, .f32⟩
  | .hbm, ⟨77, _⟩ => ⟨S8192x4x1x512, .f32⟩
  | .hbm, ⟨78, _⟩ => ⟨S8192x4x512, .f32⟩
  | .hbm, ⟨79, _⟩ => ⟨S8192x4x512, .f32⟩
  | .hbm, ⟨80, _⟩ => ⟨S8192x4x512, .f32⟩
  | .hbm, ⟨81, _⟩ => ⟨S8192x4x1024, .f32⟩
  | .hbm, ⟨82, _⟩ => ⟨S8192x2x2x1024, .f32⟩
  | .hbm, ⟨83, _⟩ => ⟨S8192x2x1x1024, .f32⟩
  | .hbm, ⟨84, _⟩ => ⟨S8192x2x1024, .f32⟩
  | .hbm, ⟨85, _⟩ => ⟨S8192x2x1x1024, .f32⟩
  | .hbm, ⟨86, _⟩ => ⟨S8192x2x1024, .f32⟩
  | .hbm, ⟨87, _⟩ => ⟨S8192x2x1024, .f32⟩
  | .hbm, ⟨88, _⟩ => ⟨S8192x2x1024, .f32⟩
  | .hbm, ⟨89, _⟩ => ⟨S8192x2x2048, .f32⟩
  | .hbm, ⟨90, _⟩ => ⟨S8192x1x2x2048, .f32⟩
  | .hbm, ⟨91, _⟩ => ⟨S8192x1x1x2048, .f32⟩
  | .hbm, ⟨92, _⟩ => ⟨S8192x1x2048, .f32⟩
  | .hbm, ⟨93, _⟩ => ⟨S8192x1x1x2048, .f32⟩
  | .hbm, ⟨94, _⟩ => ⟨S8192x1x2048, .f32⟩
  | .hbm, ⟨95, _⟩ => ⟨S8192x1x2048, .f32⟩
  | .hbm, ⟨96, _⟩ => ⟨S8192x1x2048, .f32⟩
  | .hbm, ⟨97, _⟩ => ⟨S8192x1x4096, .f32⟩
  | .hbm, ⟨98, _⟩ => ⟨S8192x4096, .f32⟩
  | .hbm, ⟨99, _⟩ => ⟨S_, .f32⟩
  | .hbm, ⟨100, _⟩ => ⟨S8192x4096, .f32⟩
  | .hbm, ⟨101, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩
abbrev main_v82 : Ref sig .tc := ⟨.hbm, 83, rfl⟩
abbrev main_v83 : Ref sig .tc := ⟨.hbm, 84, rfl⟩
abbrev main_v84 : Ref sig .tc := ⟨.hbm, 85, rfl⟩
abbrev main_v85 : Ref sig .tc := ⟨.hbm, 86, rfl⟩
abbrev main_v86 : Ref sig .tc := ⟨.hbm, 87, rfl⟩
abbrev main_v87 : Ref sig .tc := ⟨.hbm, 88, rfl⟩
abbrev main_v88 : Ref sig .tc := ⟨.hbm, 89, rfl⟩
abbrev main_v89 : Ref sig .tc := ⟨.hbm, 90, rfl⟩
abbrev main_v90 : Ref sig .tc := ⟨.hbm, 91, rfl⟩
abbrev main_v91 : Ref sig .tc := ⟨.hbm, 92, rfl⟩
abbrev main_v92 : Ref sig .tc := ⟨.hbm, 93, rfl⟩
abbrev main_v93 : Ref sig .tc := ⟨.hbm, 94, rfl⟩
abbrev main_v94 : Ref sig .tc := ⟨.hbm, 95, rfl⟩
abbrev main_v95 : Ref sig .tc := ⟨.hbm, 96, rfl⟩
abbrev main_v96 : Ref sig .tc := ⟨.hbm, 97, rfl⟩
abbrev main_v97 : Ref sig .tc := ⟨.hbm, 98, rfl⟩
abbrev main_cst : Ref sig .tc := ⟨.hbm, 99, rfl⟩
abbrev main_v98 : Ref sig .tc := ⟨.hbm, 100, rfl⟩
abbrev main_v99 : Ref sig .tc := ⟨.hbm, 101, rfl⟩

abbrev nD : Nat := 1
abbrev τ : Topo := Topo.v7x

variable {F : FTy → Type} [FloatOps F]

class Facts₀ : Prop where
  bcast_S8192x4096_S8192x4096x1_0_1 : S8192x4096.BroadcastsInDim S8192x4096x1 (![0, 1] : Fin 2 → Fin S8192x4096x1.rank)
  shapeCasts_S8192x4096x1_S8192x2048x2x1 : S8192x4096x1.ShapeCasts S8192x2048x2x1
  slices_S8192x2048x2x1_S8192x2048x1x1_0_0_0_0 : S8192x2048x2x1.Slices ![0, 0, 0, 0] S8192x2048x1x1
  shapeCasts_S8192x2048x1x1_S8192x2048x1 : S8192x2048x1x1.ShapeCasts S8192x2048x1
  slices_S8192x2048x2x1_S8192x2048x1x1_0_0_1_0 : S8192x2048x2x1.Slices ![0, 0, 1, 0] S8192x2048x1x1
  concatenates_S8192x2048x1_S8192x2048x1_S8192x2048x2_d2 : Shape.Concatenates [S8192x2048x1, S8192x2048x1] S8192x2048x2 2
  shapeCasts_S8192x2048x2_S8192x1024x2x2 : S8192x2048x2.ShapeCasts S8192x1024x2x2
  slices_S8192x1024x2x2_S8192x1024x1x2_0_0_0_0 : S8192x1024x2x2.Slices ![0, 0, 0, 0] S8192x1024x1x2
  shapeCasts_S8192x1024x1x2_S8192x1024x2 : S8192x1024x1x2.ShapeCasts S8192x1024x2
  slices_S8192x1024x2x2_S8192x1024x1x2_0_0_1_0 : S8192x1024x2x2.Slices ![0, 0, 1, 0] S8192x1024x1x2
  concatenates_S8192x1024x2_S8192x1024x2_S8192x1024x4_d2 : Shape.Concatenates [S8192x1024x2, S8192x1024x2] S8192x1024x4 2
  shapeCasts_S8192x1024x4_S8192x512x2x4 : S8192x1024x4.ShapeCasts S8192x512x2x4
  slices_S8192x512x2x4_S8192x512x1x4_0_0_0_0 : S8192x512x2x4.Slices ![0, 0, 0, 0] S8192x512x1x4
  shapeCasts_S8192x512x1x4_S8192x512x4 : S8192x512x1x4.ShapeCasts S8192x512x4
  slices_S8192x512x2x4_S8192x512x1x4_0_0_1_0 : S8192x512x2x4.Slices ![0, 0, 1, 0] S8192x512x1x4
  concatenates_S8192x512x4_S8192x512x4_S8192x512x8_d2 : Shape.Concatenates [S8192x512x4, S8192x512x4] S8192x512x8 2
  shapeCasts_S8192x512x8_S8192x256x2x8 : S8192x512x8.ShapeCasts S8192x256x2x8
  slices_S8192x256x2x8_S8192x256x1x8_0_0_0_0 : S8192x256x2x8.Slices ![0, 0, 0, 0] S8192x256x1x8
  shapeCasts_S8192x256x1x8_S8192x256x8 : S8192x256x1x8.ShapeCasts S8192x256x8
  slices_S8192x256x2x8_S8192x256x1x8_0_0_1_0 : S8192x256x2x8.Slices ![0, 0, 1, 0] S8192x256x1x8
  concatenates_S8192x256x8_S8192x256x8_S8192x256x16_d2 : Shape.Concatenates [S8192x256x8, S8192x256x8] S8192x256x16 2
  shapeCasts_S8192x256x16_S8192x128x2x16 : S8192x256x16.ShapeCasts S8192x128x2x16
  slices_S8192x128x2x16_S8192x128x1x16_0_0_0_0 : S8192x128x2x16.Slices ![0, 0, 0, 0] S8192x128x1x16
  shapeCasts_S8192x128x1x16_S8192x128x16 : S8192x128x1x16.ShapeCasts S8192x128x16
  slices_S8192x128x2x16_S8192x128x1x16_0_0_1_0 : S8192x128x2x16.Slices ![0, 0, 1, 0] S8192x128x1x16
  concatenates_S8192x128x16_S8192x128x16_S8192x128x32_d2 : Shape.Concatenates [S8192x128x16, S8192x128x16] S8192x128x32 2
  shapeCasts_S8192x128x32_S8192x64x2x32 : S8192x128x32.ShapeCasts S8192x64x2x32
  slices_S8192x64x2x32_S8192x64x1x32_0_0_0_0 : S8192x64x2x32.Slices ![0, 0, 0, 0] S8192x64x1x32
  shapeCasts_S8192x64x1x32_S8192x64x32 : S8192x64x1x32.ShapeCasts S8192x64x32
  slices_S8192x64x2x32_S8192x64x1x32_0_0_1_0 : S8192x64x2x32.Slices ![0, 0, 1, 0] S8192x64x1x32
  concatenates_S8192x64x32_S8192x64x32_S8192x64x64_d2 : Shape.Concatenates [S8192x64x32, S8192x64x32] S8192x64x64 2
  shapeCasts_S8192x64x64_S8192x32x2x64 : S8192x64x64.ShapeCasts S8192x32x2x64
  slices_S8192x32x2x64_S8192x32x1x64_0_0_0_0 : S8192x32x2x64.Slices ![0, 0, 0, 0] S8192x32x1x64
  shapeCasts_S8192x32x1x64_S8192x32x64 : S8192x32x1x64.ShapeCasts S8192x32x64
  slices_S8192x32x2x64_S8192x32x1x64_0_0_1_0 : S8192x32x2x64.Slices ![0, 0, 1, 0] S8192x32x1x64
  concatenates_S8192x32x64_S8192x32x64_S8192x32x128_d2 : Shape.Concatenates [S8192x32x64, S8192x32x64] S8192x32x128 2
  shapeCasts_S8192x32x128_S8192x16x2x128 : S8192x32x128.ShapeCasts S8192x16x2x128
  slices_S8192x16x2x128_S8192x16x1x128_0_0_0_0 : S8192x16x2x128.Slices ![0, 0, 0, 0] S8192x16x1x128
  shapeCasts_S8192x16x1x128_S8192x16x128 : S8192x16x1x128.ShapeCasts S8192x16x128
  slices_S8192x16x2x128_S8192x16x1x128_0_0_1_0 : S8192x16x2x128.Slices ![0, 0, 1, 0] S8192x16x1x128
  concatenates_S8192x16x128_S8192x16x128_S8192x16x256_d2 : Shape.Concatenates [S8192x16x128, S8192x16x128] S8192x16x256 2
  shapeCasts_S8192x16x256_S8192x8x2x256 : S8192x16x256.ShapeCasts S8192x8x2x256
  slices_S8192x8x2x256_S8192x8x1x256_0_0_0_0 : S8192x8x2x256.Slices ![0, 0, 0, 0] S8192x8x1x256
  shapeCasts_S8192x8x1x256_S8192x8x256 : S8192x8x1x256.ShapeCasts S8192x8x256
  slices_S8192x8x2x256_S8192x8x1x256_0_0_1_0 : S8192x8x2x256.Slices ![0, 0, 1, 0] S8192x8x1x256
  concatenates_S8192x8x256_S8192x8x256_S8192x8x512_d2 : Shape.Concatenates [S8192x8x256, S8192x8x256] S8192x8x512 2
  shapeCasts_S8192x8x512_S8192x4x2x512 : S8192x8x512.ShapeCasts S8192x4x2x512
  slices_S8192x4x2x512_S8192x4x1x512_0_0_0_0 : S8192x4x2x512.Slices ![0, 0, 0, 0] S8192x4x1x512
  shapeCasts_S8192x4x1x512_S8192x4x512 : S8192x4x1x512.ShapeCasts S8192x4x512
  slices_S8192x4x2x512_S8192x4x1x512_0_0_1_0 : S8192x4x2x512.Slices ![0, 0, 1, 0] S8192x4x1x512
  concatenates_S8192x4x512_S8192x4x512_S8192x4x1024_d2 : Shape.Concatenates [S8192x4x512, S8192x4x512] S8192x4x1024 2
  shapeCasts_S8192x4x1024_S8192x2x2x1024 : S8192x4x1024.ShapeCasts S8192x2x2x1024
  slices_S8192x2x2x1024_S8192x2x1x1024_0_0_0_0 : S8192x2x2x1024.Slices ![0, 0, 0, 0] S8192x2x1x1024
  shapeCasts_S8192x2x1x1024_S8192x2x1024 : S8192x2x1x1024.ShapeCasts S8192x2x1024
  slices_S8192x2x2x1024_S8192x2x1x1024_0_0_1_0 : S8192x2x2x1024.Slices ![0, 0, 1, 0] S8192x2x1x1024
  concatenates_S8192x2x1024_S8192x2x1024_S8192x2x2048_d2 : Shape.Concatenates [S8192x2x1024, S8192x2x1024] S8192x2x2048 2
  shapeCasts_S8192x2x2048_S8192x1x2x2048 : S8192x2x2048.ShapeCasts S8192x1x2x2048
  slices_S8192x1x2x2048_S8192x1x1x2048_0_0_0_0 : S8192x1x2x2048.Slices ![0, 0, 0, 0] S8192x1x1x2048
  shapeCasts_S8192x1x1x2048_S8192x1x2048 : S8192x1x1x2048.ShapeCasts S8192x1x2048
  slices_S8192x1x2x2048_S8192x1x1x2048_0_0_1_0 : S8192x1x2x2048.Slices ![0, 0, 1, 0] S8192x1x1x2048
  concatenates_S8192x1x2048_S8192x1x2048_S8192x1x4096_d2 : Shape.Concatenates [S8192x1x2048, S8192x1x2048] S8192x1x4096 2
  shapeCasts_S8192x1x4096_S8192x4096 : S8192x1x4096.ShapeCasts S8192x4096
  bcast_S_S8192x4096 : S_.BroadcastsInDim S8192x4096 (![] : Fin 0 → Fin S8192x4096.rank)

variable [Facts₀]

class Facts : Prop extends Facts₀ where

variable [Facts]
-- ==== Proof.LibFinite.lean ====
/-
  Finite extended reals and the operations that keep them finite.

  An extended real is FINITE when it is the cast of a real number. The laws that fail at the infinities
  (distributivity, cancelling a subtraction, moving a factor across a sum) hold between finite values, so a proof that
  needs one of them first shows that the values it is applied to are finite. Finite values are closed under sums,
  differences, products, finite sums, maxima, the quotient by a nonzero finite value, and the reciprocal square root of
  a positive one; a scatter that ADDS finite updates into a finite array leaves it finite, whatever the indices say
  (an entry receives the sum of the updates that land on it, a finite sum, possibly empty).
-/
import Mathlib.Data.EReal.Operations
import Mathlib.Algebra.BigOperators.Ring.Finset
import Idealize.ShloMosaic.PureOps.Ideal

namespace Cert.Finite

open Idealize.ShloMosaic

/-- The extended real `x` is the cast of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Finite is: neither infinity. -/
theorem isReal_iff {x : EReal} : IsReal x ↔ x ≠ ⊤ ∧ x ≠ ⊥ := by
  refine ⟨fun h => ⟨h.ne_top, h.ne_bot⟩, fun ⟨ht, hb⟩ => ?_⟩
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero finite one is finite. -/
theorem IsReal.div_coe {x : EReal} (hx : IsReal x) {y : ℝ} (hy : y ≠ 0) : IsReal (Ideal.div x (y : EReal)) := by
  rw [Ideal.div_coe hy]; exact hx.mul (isReal_coe _)

/-- In particular by a finite value that is at least one (a count of neighbours clamped from below at one). -/
theorem IsReal.div_of_one_le {x y : EReal} (hx : IsReal x) (hy : IsReal y) (h1 : 1 ≤ y) : IsReal (Ideal.div x y) := by
  obtain ⟨b, rfl⟩ := hy
  have hb : (1 : ℝ) ≤ b := by exact_mod_cast h1
  exact hx.div_coe (by linarith : b ≠ 0)

/-- The reciprocal square root of a positive finite value is finite. -/
theorem isReal_rsqrt_of_pos {r : ℝ} (hr : 0 < r) : IsReal (Ideal.rsqrt (r : EReal)) := by
  rw [Ideal.rsqrt_coe, if_neg (not_lt.2 hr.le), if_neg hr.ne']
  exact isReal_coe _

/-- A row of a matrix product: the sum of the products of finite entries is finite. -/
theorem isReal_dot {K : Type*} [Fintype K] (a b : K → EReal) (ha : ∀ k, IsReal (a k)) (hb : ∀ k, IsReal (b k)) :
    IsReal (∑ k, a k * b k) :=
  IsReal.sum _ _ fun k _ => (ha k).mul (hb k)

/-- A scatter that adds finite updates into a finite array leaves every entry finite, whatever the indices are. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

end Cert.Finite
-- ==== Proof.LibAllFinite.lean ====
/-
  A precondition's "every entry is finite" test, read back at an entry.

  A printed precondition tests an array by comparing each entry's absolute value against the value of the word
  0x7F800000, which is +inf, and folding the comparisons with "and" into one bit. When that bit is 1 every comparison
  is 1; an extended real whose absolute value is strictly below +inf is neither infinity, so it is the cast of a
  real number. Stated for an array of any shape reduced over any axes into a single bit.
-/
import proofs.«106674_j83476984365427_1_alg».proof.Proof.LibFinite
import Idealize.ShloMosaic.Lib.ReduceAll
import Idealize.ShloMosaic.Lib.ValueIdx
import Idealize.ShloMosaic.Lib.Pipeline.Value
import Idealize.ShloMosaic.PureOps.Ideal.Laws

noncomputable section

namespace Cert.Lib.AllFinite

open Idealize.ShloMosaic Idealize.ShloMosaic.ValueIdx Cert.Finite

/-- The shape of a single bit has one index. -/
instance : Subsingleton (⟨0, ![]⟩ : Shape).Idx := ⟨fun a b => funext fun d => d.elim0⟩

/-- The word 0x7F800000 denotes +inf. -/
theorem inf_word : Ideal.ofBits .f32 0x7F800000#32 = ⊤ := by
  simp [Ideal.ofBits, Ideal.ieee]

/-- An extended real whose absolute value compares below +inf is the cast of a real. -/
theorem isReal_of_abs_lt (x : EReal) (h : Ideal.cmp .olt (max x (-x)) (Ideal.ofBits .f32 0x7F800000#32) = 1#1) :
    IsReal x := by
  rw [inf_word] at h
  induction x using EReal.rec with
  | bot => simp [Ideal.cmp] at h
  | coe r => exact ⟨r, rfl⟩
  | top => simp [Ideal.cmp] at h

/-- One array's test, read at an index: if the fold by "and" of the comparisons |a_i| < +inf, started from 1, is 1,
    then every entry of the array is the cast of a real. -/
theorem entry_of_all {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi
        (cmpf .olt (Host.absf a) (broadcastInDim s ![] hb (constant (F := Ideal) ⟨0, ![]⟩ .f32 0x7F800000#32)))
        (constantI ⟨0, ![]⟩ 1 1#1) hr hu j = 1#1) (i : s.Idx) : IsReal (a i) := by
  have h := Host.reduce_andi_all _ _ hr hu j e i
  refine isReal_of_abs_lt (a i) ?_
  rw [cmpf_apply, broadcastInDim_apply _ hb _ i (fun d => d.elim0) (fun d => d.elim0)] at h
  exact h

end Cert.Lib.AllFinite

end
-- ==== Proof.Finite.lean ====
/-
  Every entry of an input that passes the finiteness test is the cast of a real number.

  The precondition compares each entry's absolute value with +inf and folds the comparisons with "and" into one
  bit; when the bit is one every entry is finite, hence a real. The reals are then named by one sequence
  xr : ℕ → ℕ → ℝ (zero outside the array), the form in which the transform's algebra is stated.
-/
import proofs.«106674_j83476984365427_1_alg».proof.Defs
import proofs.«106674_j83476984365427_1_alg».proof.Proof.LibAllFinite

noncomputable section

namespace Cert.Fwht

open Idealize.ShloMosaic Idealize.ShloMosaic.ValueIdx Cert.Finite

/-- The precondition's bit being one makes every entry of the array a real. -/
theorem entry_real [hPre : Cert.Pre_finite_inputs.Facts] (a : FVec Ideal Cert.Pre_finite_inputs.S8192x4096 .f32)
    (h : Cert.Pre_finite_inputs.fn (F := Ideal) a = fun _ => 1#1) (i : Cert.Pre_finite_inputs.S8192x4096.Idx) :
    IsReal (a i) := by
  have e := congrFun h ix0
  dsimp only [Cert.Pre_finite_inputs.fn] at e
  exact Cert.Lib.AllFinite.entry_of_all a _ _ _ ix0 e i

/-- The reals an all-finite array holds, as one sequence over the naturals (zero outside the array). -/
def realsOf (a : (⟨2, ![8192, 4096]⟩ : Shape).Idx → EReal) (b n : ℕ) : ℝ :=
  if h : b < 8192 ∧ n < 4096 then (a (ix2 ⟨b, h.1⟩ ⟨n, h.2⟩)).toReal else 0

theorem realsOf_spec (a : (⟨2, ![8192, 4096]⟩ : Shape).Idx → EReal) (ha : ∀ i, IsReal (a i))
    (b : Fin 8192) (n : Fin 4096) : a (ix2 b n) = ((realsOf a b.val n.val : ℝ) : EReal) := by
  unfold realsOf
  rw [dif_pos ⟨b.isLt, n.isLt⟩]
  obtain ⟨r, hr⟩ := ha (ix2 b n)
  show a (ix2 b n) = (((a (ix2 b n)).toReal : ℝ) : EReal)
  rw [hr, EReal.toReal_coe]

end Cert.Fwht

end
-- ==== Proof.Spec.lean ====
/-
  The Sylvester–Hadamard signs and the butterfly law.

  `had s t j` is the entry (t, j) of the 2^s × 2^s Sylvester matrix, by the doubling rule
  H_{2k} = [[H_k, H_k], [H_k, -H_k]]: the entry of the four quadrants is the entry of H_k at the
  coordinates reduced below k, negated in the lower right quadrant only.

  The butterfly law: a row vector x cut in two halves a, b of length k satisfies
  (a·H_k + b·H_k , a·H_k − b·H_k) = x·H_{2k}; stated here for the slice of a long sequence
  that starts at r·2k, which is how one stage of the fast transform meets it.
-/
import Mathlib

noncomputable section

namespace Cert.Fwht

open Finset

/-- Entry (t, j) of the 2^s × 2^s Sylvester–Hadamard matrix (coordinates below 2^s). -/
def had : ℕ → ℕ → ℕ → ℝ
  | 0, _, _ => 1
  | s + 1, t, j =>
    if t < 2 ^ s then (if j < 2 ^ s then had s t j else had s t (j - 2 ^ s))
    else (if j < 2 ^ s then had s (t - 2 ^ s) j else - had s (t - 2 ^ s) (j - 2 ^ s))

theorem had_zero (t j : ℕ) : had 0 t j = 1 := rfl

theorem had_succ (s t j : ℕ) : had (s + 1) t j =
    if t < 2 ^ s then (if j < 2 ^ s then had s t j else had s t (j - 2 ^ s))
    else (if j < 2 ^ s then had s (t - 2 ^ s) j else - had s (t - 2 ^ s) (j - 2 ^ s)) := rfl

/-- Upper left quadrant. -/
theorem had_succ_ll (s t j : ℕ) (ht : t < 2 ^ s) (hj : j < 2 ^ s) : had (s + 1) t j = had s t j := by
  rw [had_succ, if_pos ht, if_pos hj]

/-- Upper right quadrant. -/
theorem had_succ_lr (s t j : ℕ) (ht : t < 2 ^ s) (hj : 2 ^ s ≤ j) : had (s + 1) t j = had s t (j - 2 ^ s) := by
  rw [had_succ, if_pos ht, if_neg (Nat.not_lt.2 hj)]

/-- Lower left quadrant. -/
theorem had_succ_rl (s t j : ℕ) (ht : 2 ^ s ≤ t) (hj : j < 2 ^ s) : had (s + 1) t j = had s (t - 2 ^ s) j := by
  rw [had_succ, if_neg (Nat.not_lt.2 ht), if_pos hj]

/-- Lower right quadrant: the one negated block. -/
theorem had_succ_rr (s t j : ℕ) (ht : 2 ^ s ≤ t) (hj : 2 ^ s ≤ j) :
    had (s + 1) t j = - had s (t - 2 ^ s) (j - 2 ^ s) := by
  rw [had_succ, if_neg (Nat.not_lt.2 ht), if_neg (Nat.not_lt.2 hj)]

/-- The butterfly's SUM half: for a column j of the left half, the products of the two halves of the
    slice at r·2^(s+1) with H_{2^s} add up to the product of the whole slice with H_{2^(s+1)}. -/
theorem butterfly_add (s : ℕ) (x : ℕ → ℝ) (r j : ℕ) (hj : j < 2 ^ s) :
    (∑ t ∈ range (2 ^ s), x ((2 * r + 0) * 2 ^ s + t) * had s t j)
      + (∑ t ∈ range (2 ^ s), x ((2 * r + 1) * 2 ^ s + t) * had s t j)
    = ∑ t ∈ range (2 ^ (s + 1)), x (r * 2 ^ (s + 1) + t) * had (s + 1) t j := by
  have e : 2 ^ (s + 1) = 2 ^ s + 2 ^ s := by rw [pow_succ]; ring
  rw [e, Finset.sum_range_add]
  congr 1
  · refine Finset.sum_congr rfl fun t ht => ?_
    have ht' : t < 2 ^ s := Finset.mem_range.1 ht
    rw [had_succ_ll s t j ht' hj]
    congr 2
    ring
  · refine Finset.sum_congr rfl fun t _ => ?_
    rw [had_succ_rl s (2 ^ s + t) j (Nat.le_add_right _ _) hj, Nat.add_sub_cancel_left]
    congr 2
    ring

/-- The butterfly's DIFFERENCE half: for a column j + 2^s of the right half, the difference of the two
    halves' products is the product of the whole slice with H_{2^(s+1)}. -/
theorem butterfly_sub (s : ℕ) (x : ℕ → ℝ) (r j : ℕ) (hj : j < 2 ^ s) :
    (∑ t ∈ range (2 ^ s), x ((2 * r + 0) * 2 ^ s + t) * had s t j)
      - (∑ t ∈ range (2 ^ s), x ((2 * r + 1) * 2 ^ s + t) * had s t j)
    = ∑ t ∈ range (2 ^ (s + 1)), x (r * 2 ^ (s + 1) + t) * had (s + 1) t (j + 2 ^ s) := by
  have e : 2 ^ (s + 1) = 2 ^ s + 2 ^ s := by rw [pow_succ]; ring
  rw [e, Finset.sum_range_add, sub_eq_add_neg, ← Finset.sum_neg_distrib]
  congr 1
  · refine Finset.sum_congr rfl fun t ht => ?_
    have ht' : t < 2 ^ s := Finset.mem_range.1 ht
    rw [had_succ_lr s t (j + 2 ^ s) ht' (Nat.le_add_left _ _), Nat.add_sub_cancel]
    congr 2
    ring
  · refine Finset.sum_congr rfl fun t _ => ?_
    rw [had_succ_rr s (2 ^ s + t) (j + 2 ^ s) (Nat.le_add_right _ _) (Nat.le_add_left _ _),
      Nat.add_sub_cancel_left, Nat.add_sub_cancel, mul_neg]
    congr 3
    ring

end Cert.Fwht

end
-- ==== Proof.LibRealSums.lean ====
/-
  Finite sums of real numbers read in the extended reals.

  The extended reals are a commutative monoid under addition, so a finite sum may be regrouped and reordered at will, the
  infinities included; what fails at the infinities is distributivity, and with it the associativity of a product of three
  matrices. Here: the cast of a finite real sum is the sum of the casts; for REAL-valued factors the two ways of
  associating a triple product agree entry by entry; and a sum over `Fin (m + d)` whose last `d` terms vanish is the sum
  of its first `m` terms (a contraction padded with zeros, or cut by a mask, is the unpadded contraction).
-/
import Mathlib.Data.EReal.Operations
import Mathlib.Algebra.BigOperators.Fin
import Mathlib.Algebra.BigOperators.Ring.Finset

namespace Cert.RealSums

open Finset

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: `∑ₖ (∑ⱼ aⱼ bⱼₖ) cₖ = ∑ⱼ aⱼ (∑ₖ bⱼₖ cₖ)`, one row `a` of the left factor against one column `c`
    of the right one. -/
theorem assoc_row_col {J K : Type*} [Fintype J] [Fintype K] (a : J → ℝ) (b : J → K → ℝ) (c : K → ℝ) :
    (∑ k, (∑ j, a j * b j k) * c k) = ∑ j, a j * ∑ k, b j k * c k := by
  simp only [Finset.sum_mul, Finset.mul_sum]
  rw [Finset.sum_comm]
  exact Finset.sum_congr rfl fun j _ => Finset.sum_congr rfl fun k _ => by ring

/-- The same read in the extended reals, each factor the cast of a real: `(A·B)·C` and `A·(B·C)` have equal entries
    when `A`'s row, `B` and `C`'s column are finite. -/
theorem assoc_row_col_coe {J K : Type*} [Fintype J] [Fintype K] (a : J → ℝ) (b : J → K → ℝ) (c : K → ℝ) :
    (∑ k, (∑ j, (a j : EReal) * (b j k : EReal)) * (c k : EReal))
      = ∑ j, (a j : EReal) * ∑ k, (b j k : EReal) * (c k : EReal) := by
  simp only [← EReal.coe_mul, ← coe_sum]
  rw [assoc_row_col]

/-- A sum over `Fin (m + d)` whose last `d` terms vanish is the sum of its first `m` terms. -/
theorem sum_castAdd_of_tail_zero {M : Type*} [AddCommMonoid M] {m d : ℕ} (f : Fin (m + d) → M)
    (hz : ∀ i : Fin d, f (Fin.natAdd m i) = 0) : ∑ i, f i = ∑ i : Fin m, f (Fin.castAdd d i) := by
  rw [Fin.sum_univ_add, Finset.sum_eq_zero (fun i _ => hz i), add_zero]

/-- A sum over `Fin (m + d)` is the sum of its first `m` terms plus the sum of its last `d` (a contraction done as a head
    product and a tail product). -/
theorem sum_head_add_tail {M : Type*} [AddCommMonoid M] {m d : ℕ} (f : Fin (m + d) → M) :
    ∑ i, f i = (∑ i : Fin m, f (Fin.castAdd d i)) + ∑ i : Fin d, f (Fin.natAdd m i) :=
  Fin.sum_univ_add f

end Cert.RealSums
-- ==== Proof.Join.lean ====
/-
  The law that joins the two sides.

  The kernel multiplies x by the matrix whose entries are the Sylvester signs times the scale c; the reference
  transforms x first and multiplies by c afterwards. For real entries and a real scale,
  Σ_k x_k · (h_k · c) = (Σ_k x_k · h_k) · c: the factor c moves across the finite sum. On the extended reals this
  needs every term finite, which is why the entries are taken as casts of reals and the scale's word is first
  shown to denote a real.
-/
import proofs.«106674_j83476984365427_1_alg».proof.Proof.Spec
import proofs.«106674_j83476984365427_1_alg».proof.Proof.LibRealSums
import proofs.«106674_j83476984365427_1_alg».proof.Proof.LibFinite
import Idealize.ShloMosaic.PureOps.Ideal

noncomputable section

namespace Cert.Fwht

open Idealize.ShloMosaic Cert.Finite

/-- The scale's word 0x3C800000 (the float 2^-6) denotes a real number. -/
theorem scale_real : IsReal (Ideal.ofBits .f32 0x3C800000#32) := by
  have h1 : ((0x3C800000#32 : BitVec 32).extractLsb' 23 8).toNat ≠ 2 ^ 8 - 1 := by decide
  have h2 : ((0x3C800000#32 : BitVec 32).extractLsb' 23 8).toNat ≠ 0 := by decide
  show IsReal (Ideal.ieee 8 23 (0x3C800000#32 : BitVec 32))
  unfold Ideal.ieee
  simp only [if_neg h1, if_neg h2]
  exact ⟨_, rfl⟩

/-- The scale moves across the sum: Σ_k x_k · (h_k · c) = (Σ_t x_t · h_t) · c for real x, h and a real-valued c,
    the left sum over `Fin n` and the right one over `range n`. -/
theorem scale_out (n : ℕ) (x h : ℕ → ℝ) (c : EReal) (hc : IsReal c) :
    (∑ k : Fin n, ((x k.val : ℝ) : EReal) * (((h k.val : ℝ) : EReal) * c))
      = ((∑ t ∈ Finset.range n, x t * h t : ℝ) : EReal) * c := by
  obtain ⟨cr, rfl⟩ := hc
  have e : ∀ k : Fin n, ((x k.val : ℝ) : EReal) * (((h k.val : ℝ) : EReal) * (cr : EReal))
      = ((x k.val * h k.val * cr : ℝ) : EReal) := fun k => by
    rw [EReal.coe_mul, EReal.coe_mul, mul_assoc]
  rw [Finset.sum_congr rfl fun k _ => e k, ← Cert.RealSums.coe_sum, ← EReal.coe_mul, Finset.sum_mul,
    Finset.sum_range fun t => x t * h t * cr]

end Cert.Fwht

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.KernelValue.lean ====
/-
  The kernel's result array as one function of the argument array and of the matrix the host prepared.

  At grid point t the body multiplies rows 64·t … 64·t+63 of x (its cast to bf16 is the identity on the extended
  reals) by the whole 4096 × 4096 matrix, into a zero accumulator: entry (p, q) of the block is
  Σ_k x (64·t + p, k) · H (k, q). The 128 blocks tile the 8192 rows, so the array ends as the product
  X · H, entry by entry.
-/
import proofs.«106674_j83476984365427_1_alg».proof.Proof.Gen.KernelIdeal.Value
import proofs.«106674_j83476984365427_1_alg».proof.Proof.LibPlainDot
import Idealize.ShloMosaic.Lib.ValueIdx
import Idealize.ShloMosaic.Lib.Pipeline.Value

noncomputable section

namespace Cert.Fwht.Kern

open Cert.KernelIdeal Cert.KernelIdeal.Gen Idealize.ShloMosaic Idealize.ShloMosaic.TcCoe Idealize.SL.Sem
open Idealize.ShloMosaic.ValueIdx
open Idealize.ShloMosaic.Pipeline (Dat)

/-- The product of a [8192, 4096] array by a [4096, 4096] matrix, entry by entry. -/
def prodArr (x : S8192x4096.Idx → EReal) (h : S4096x4096.Idx → EReal) : S8192x4096.Idx → EReal :=
  fun i => ∑ k : Fin 4096, x (ix2 (n0 := 8192) (i 0) k) * h (ix2 (n1 := 4096) k (i 1))

/-- The printed record of the contraction is the plain one. -/
theorem dot_plain : dot_S64x4096_S4096x4096_S64x4096_1_0_0_1_n_n = DotDims.plain 64 4096 4096 := rfl

/-- The body's payload at an entry: the row of the left block against the column of the matrix. -/
theorem pay_entry (x0 : FVec Ideal S64x4096 .f32) (x1 : FVec Ideal S4096x4096 .bf16) (p : Fin 64) (q : Fin 4096) :
    k0_pay1 (F := Ideal) x0 x1 (ix2 p q) = ∑ k : Fin 4096, x0 (ix2 p k) * x1 (ix2 k q) := by
  unfold k0_pay1
  rw [shapeCast_self, dot_plain]
  exact Cert.PlainDot.matmul_zero_plain_apply none (truncf .bf16 x0 bitsLt_bf16_f32) x1 p q

/-! ## From the blocks to the array -/

section Blocks

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row block of x and of the result is the grid point, every other
    block index is zero (the matrix is one block). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the block of x at point t is row 64·t + p of the array. -/
theorem read_x (c : Dev nD) (t : Fin cfg0.N) (p : Fin 64) (k : Fin 4096) (i : S8192x4096.Idx)
    (h0 : (i 0).val = t.val * 64 + p.val) (h1 : (i 1).val = k.val) :
    iblk m c 0 t (ix2 p k) = V m c main_arg0 i := by
  obtain ⟨e00, e01, -, -, -, -⟩ := idx_facts t
  show V m c main_arg0 (((cfg0.win 0).blk t).view.emb (ix2 p k)) = V m c main_arg0 i
  refine congrArg (V m c main_arg0) (funext fun a => Fin.ext ?_)
  match a with
  | ⟨0, _⟩ => show win0_0.index t (0 : Fin 2) * 64 + 1 * p.val = (i 0).val; omega
  | ⟨1, _⟩ => show win0_0.index t (1 : Fin 2) * 4096 + 1 * k.val = (i 1).val; omega

/-- The one block of the matrix is the matrix. -/
theorem read_h (c : Dev nD) (t : Fin cfg0.N) (k : Fin 4096) (q : Fin 4096) (i : S4096x4096.Idx)
    (h0 : (i 0).val = k.val) (h1 : (i 1).val = q.val) :
    iblk m c 1 t (ix2 k q) = V m c main_v51 i := by
  obtain ⟨-, -, e10, e11, -, -⟩ := idx_facts t
  show V m c main_v51 (((cfg0.win 1).blk t).view.emb (ix2 k q)) = V m c main_v51 i
  refine congrArg (V m c main_v51) (funext fun a => Fin.ext ?_)
  match a with
  | ⟨0, _⟩ => show win0_1.index t (0 : Fin 2) * 4096 + 1 * k.val = (i 0).val; omega
  | ⟨1, _⟩ => show win0_1.index t (1 : Fin 2) * 4096 + 1 * q.val = (i 1).val; omega

/-- WHAT POINT t WRITES BACK is block t of the product of the array x by the matrix, as the region finds them. -/
theorem flushed_eq (c : Dev nD) (t : Fin cfg0.N) :
    (dats m 0 c).flushed 2 t
      = ((cfg0.win 2).blk t).view.read (Elt Ideal) (prodArr (V m c main_arg0) (V m c main_v51)) := by
  rw [Cert.KernelIdeal.Value.flushed2]
  unfold out0_2
  rw [View.canon_unit_zero hz]
  simp only [View.ld_unit_zero (S := S64x4096) hz, View.ld_unit_zero (S := S4096x4096) hz]
  obtain ⟨-, -, -, -, e20, e21⟩ := idx_facts t
  funext j
  obtain ⟨p, q, rfl⟩ : ∃ (p : Fin 64) (q : Fin 4096), j = ix2 p q := ⟨j 0, j 1, eq_ix2 j⟩
  show k0_pay1 (iblk m c 0 t) (iblk m c 1 t) (ix2 p q)
    = prodArr (V m c main_arg0) (V m c main_v51) (((cfg0.win 2).blk t).view.emb (ix2 p q))
  refine (pay_entry (iblk m c 0 t) (iblk m c 1 t) p q).trans ?_
  unfold prodArr
  refine Finset.sum_congr rfl fun k _ => ?_
  have hx := read_x m c t p k (ix2 (n0 := 8192) ((((cfg0.win 2).blk t).view.emb (ix2 p q)) 0) k)
    (by show win0_2.index t (0 : Fin 2) * 64 + 1 * p.val = t.val * 64 + p.val; omega) rfl
  have hh := read_h m c t k q (ix2 (n1 := 4096) k ((((cfg0.win 2).blk t).view.emb (ix2 p q)) 1)) rfl
    (by show win0_2.index t (1 : Fin 2) * 4096 + 1 * q.val = q.val; omega)
  rw [hx, hh]

/-- An index of the array is in point t's block iff each coordinate is in the block's range on its axis. -/
theorem mem_blk (t : Fin cfg0.N) (i : S8192x4096.Idx) :
    i ∈ ((cfg0.win 2).blk t).view.set ↔ ∀ a : Fin 2, win0_2.index t a * S64x4096.size a ≤ (i a).val
      ∧ (i a).val < win0_2.index t a * S64x4096.size a + S64x4096.size a := by
  show i ∈ ((View.whole main_v52).slice (win0_2.rect t)).set ↔ _
  rw [View.set_slice_whole, Rect.mem_set_unit]
  exact Iff.rfl

/-- The 128 blocks of 64 rows cover the 8192 rows: row r is in the block of point r / 64. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hlt : (i 0).val / 64 < 128 := by omega
  refine ⟨⟨(i 0).val / 64, hlt⟩, flush0_2 _, ?_⟩
  rw [mem_blk]
  obtain ⟨-, -, -, -, e20, e21⟩ := idx_facts ⟨(i 0).val / 64, hlt⟩
  intro a
  match a with
  | ⟨0, _⟩ =>
    show win0_2.index ⟨(i 0).val / 64, hlt⟩ (0 : Fin 2) * 64 ≤ (i 0).val
      ∧ (i 0).val < win0_2.index ⟨(i 0).val / 64, hlt⟩ (0 : Fin 2) * 64 + 64
    rw [e20]; show (i 0).val / 64 * 64 ≤ (i 0).val ∧ (i 0).val < (i 0).val / 64 * 64 + 64; omega
  | ⟨1, _⟩ =>
    show win0_2.index ⟨(i 0).val / 64, hlt⟩ (1 : Fin 2) * 4096 ≤ (i 1).val
      ∧ (i 1).val < win0_2.index ⟨(i 0).val / 64, hlt⟩ (1 : Fin 2) * 4096 + 4096
    rw [e21]; omega

/-- THE ARRAY after the run is the product of x by the matrix the host prepared. -/
theorem final (c : Dev nD) :
    (dats m 0 c).arrAt 2 cfg0.N = prodArr (V m c main_arg0) (V m c main_v51) :=
  (dats m 0 c).arrAt_eq_of_cover 2 (prodArr (V m c main_arg0) (V m c main_v51))
    (fun t _ => flushed_eq m c t) cover

/-- The kernel's run: the result array ends as the product of the launched x by the prepared matrix,
    the argument unchanged. -/
theorem run : θ_run defs (onTc (τ := τ) (main (F := Ideal))) ⟨m, fun _ => 0, ρ⟩ fun r => ∀ c : Dev nD,
      r.2.mem ((c : Thread nD τ).loc main_v52) = prodArr (m ((c : Thread nD τ).loc main_arg0)) (V m c main_v51)
      ∧ r.2.mem ((c : Thread nD τ).loc main_arg0) = m ((c : Thread nD τ).loc main_arg0) :=
  (θ_run defs _ _).mono (fun r h c => ⟨(h c).1.trans ((final m c).trans (by rw [V_main_arg0])), (h c).2⟩)
    (Cert.KernelIdeal.Value.run_blocks m ρ)

end Blocks

end Cert.Fwht.Kern

end
-- ==== Proof.HadDouble.lean ====
/-
  One Sylvester doubling of a host array, read at an entry.

  If a k × k array h holds the signs of the 2^s × 2^s Sylvester matrix (k = 2^s), then the array
  [[h, h], [h, −h]], built as the program builds it — the two rows [h, h] and [h, −h] each a
  concatenation along the columns, the two rows then laid one over the other — holds the signs of
  the 2^(s+1) × 2^(s+1) matrix: each of the four quadrants is one case of the four-quadrant
  recursion, and only the lower right one is negated.
-/
import Idealize.ShloMosaic.Lib.Pipeline.Value
import Idealize.ShloMosaic.Lib.ValueIdx
import Idealize.ShloMosaic.Lib.IdealHost
import proofs.«106674_j83476984365427_1_alg».proof.Proof.Spec

noncomputable section

namespace Cert.Fwht.Kern

open Idealize.ShloMosaic Idealize.ShloMosaic.ValueIdx

/-- The host's negation at an index, at the ideal instance, is the negation of the element. -/
theorem hostNegf_apply {s : Shape} {φ : FTy} (a : FVec Ideal s φ) (i : s.Idx) : Host.negf a i = -(a i) := rfl

/-- A row [x, y] of two k × k blocks read in its LEFT block. -/
theorem row_left {k k2 : ℕ}
    (c1 : Shape.Concatenates [(⟨2, ![k, k]⟩ : Shape), ⟨2, ![k, k]⟩] ⟨2, ![k, k2]⟩ 1)
    (x y : (⟨2, ![k, k]⟩ : Shape).Idx → EReal) (i : Fin k) (j : Fin k2) (hj : j.val < k) :
    concatenate ⟨2, ![k, k2]⟩ 1 [⟨⟨2, ![k, k]⟩, x⟩, ⟨⟨2, ![k, k]⟩, y⟩] c1 (ix2 i j) = x (ix2 i ⟨j.val, hj⟩) :=
  concatenate_pair_apply_left (t := ⟨2, ![k, k2]⟩) (s₁ := ⟨2, ![k, k]⟩) (s₂ := ⟨2, ![k, k]⟩) (1 : Fin 2) x y c1 _ rfl
    (ix2 i (⟨j.val, hj⟩ : Fin k)) (by
      intro b
      match b with
      | ⟨0, _⟩ => rfl
      | ⟨1, _⟩ => rfl)

/-- A row [x, y] of two k × k blocks read in its RIGHT block. -/
theorem row_right {k k2 : ℕ}
    (c1 : Shape.Concatenates [(⟨2, ![k, k]⟩ : Shape), ⟨2, ![k, k]⟩] ⟨2, ![k, k2]⟩ 1)
    (x y : (⟨2, ![k, k]⟩ : Shape).Idx → EReal) (i : Fin k) (j : Fin k2) (hj : k ≤ j.val) (hj' : j.val - k < k) :
    concatenate ⟨2, ![k, k2]⟩ 1 [⟨⟨2, ![k, k]⟩, x⟩, ⟨⟨2, ![k, k]⟩, y⟩] c1 (ix2 i j) = y (ix2 i ⟨j.val - k, hj'⟩) :=
  concatenate_pair_apply_right (t := ⟨2, ![k, k2]⟩) (s₁ := ⟨2, ![k, k]⟩) (s₂ := ⟨2, ![k, k]⟩) (1 : Fin 2) x y c1 _ rfl rfl
    (ix2 i (⟨j.val - k, hj'⟩ : Fin k)) (by
      intro b hb
      match b with
      | ⟨0, _⟩ => rfl
      | ⟨1, _⟩ => exact absurd rfl hb) (by
      show j.val - k + k = j.val; omega)

/-- Two rows of width k2, one over the other, read in the UPPER row. -/
theorem col_upper {k k2 : ℕ}
    (c0 : Shape.Concatenates [(⟨2, ![k, k2]⟩ : Shape), ⟨2, ![k, k2]⟩] ⟨2, ![k2, k2]⟩ 0)
    (x y : (⟨2, ![k, k2]⟩ : Shape).Idx → EReal) (i : Fin k2) (j : Fin k2) (hi : i.val < k) :
    concatenate ⟨2, ![k2, k2]⟩ 0 [⟨⟨2, ![k, k2]⟩, x⟩, ⟨⟨2, ![k, k2]⟩, y⟩] c0 (ix2 i j) = x (ix2 ⟨i.val, hi⟩ j) :=
  concatenate_pair_apply_left (t := ⟨2, ![k2, k2]⟩) (s₁ := ⟨2, ![k, k2]⟩) (s₂ := ⟨2, ![k, k2]⟩) (0 : Fin 2) x y c0 _ rfl
    (ix2 (⟨i.val, hi⟩ : Fin k) j) (by
      intro b
      match b with
      | ⟨0, _⟩ => rfl
      | ⟨1, _⟩ => rfl)

/-- Two rows of width k2, one over the other, read in the LOWER row. -/
theorem col_lower {k k2 : ℕ}
    (c0 : Shape.Concatenates [(⟨2, ![k, k2]⟩ : Shape), ⟨2, ![k, k2]⟩] ⟨2, ![k2, k2]⟩ 0)
    (x y : (⟨2, ![k, k2]⟩ : Shape).Idx → EReal) (i : Fin k2) (j : Fin k2) (hi : k ≤ i.val) (hi' : i.val - k < k) :
    concatenate ⟨2, ![k2, k2]⟩ 0 [⟨⟨2, ![k, k2]⟩, x⟩, ⟨⟨2, ![k, k2]⟩, y⟩] c0 (ix2 i j) = y (ix2 ⟨i.val - k, hi'⟩ j) :=
  concatenate_pair_apply_right (t := ⟨2, ![k2, k2]⟩) (s₁ := ⟨2, ![k, k2]⟩) (s₂ := ⟨2, ![k, k2]⟩) (0 : Fin 2) x y c0 _ rfl rfl
    (ix2 (⟨i.val - k, hi'⟩ : Fin k) j) (by
      intro b hb
      match b with
      | ⟨0, _⟩ => exact absurd rfl hb
      | ⟨1, _⟩ => rfl) (by
      show i.val - k + k = i.val; omega)

/-- ONE DOUBLING: from the signs of H_{2^s} in a k × k array (k = 2^s) to the signs of H_{2^(s+1)} in
    [[h, h], [h, −h]]. -/
theorem double_entry (s k k2 : ℕ) (hk : k = 2 ^ s) (hk2 : k2 = 2 * k)
    (c1 : Shape.Concatenates [(⟨2, ![k, k]⟩ : Shape), ⟨2, ![k, k]⟩] ⟨2, ![k, k2]⟩ 1)
    (c0 : Shape.Concatenates [(⟨2, ![k, k2]⟩ : Shape), ⟨2, ![k, k2]⟩] ⟨2, ![k2, k2]⟩ 0)
    (h : FVec Ideal ⟨2, ![k, k]⟩ .f32)
    (hh : ∀ i j : Fin k, h (ix2 i j) = ((had s i.val j.val : ℝ) : EReal))
    (i j : Fin k2) :
    concatenate ⟨2, ![k2, k2]⟩ 0
        [⟨⟨2, ![k, k2]⟩, concatenate ⟨2, ![k, k2]⟩ 1 [⟨⟨2, ![k, k]⟩, h⟩, ⟨⟨2, ![k, k]⟩, h⟩] c1⟩,
         ⟨⟨2, ![k, k2]⟩, concatenate ⟨2, ![k, k2]⟩ 1 [⟨⟨2, ![k, k]⟩, h⟩, ⟨⟨2, ![k, k]⟩, Host.negf h⟩] c1⟩] c0 (ix2 i j)
      = ((had (s + 1) i.val j.val : ℝ) : EReal) := by
  have hi2 : i.val < 2 * k := hk2 ▸ i.isLt
  have hj2 : j.val < 2 * k := hk2 ▸ j.isLt
  by_cases hi : i.val < k
  · rw [col_upper c0 _ _ i j hi]
    by_cases hj : j.val < k
    · rw [row_left c1 h h _ j hj, hh, had_succ_ll s i.val j.val (hk ▸ hi) (hk ▸ hj)]
    · have hj' : k ≤ j.val := Nat.not_lt.1 hj
      rw [row_right c1 h h _ j hj' (by omega), hh, had_succ_lr s i.val j.val (hk ▸ hi) (hk ▸ hj'), ← hk]
  · have hi' : k ≤ i.val := Nat.not_lt.1 hi
    rw [col_lower c0 _ _ i j hi' (by omega)]
    by_cases hj : j.val < k
    · rw [row_left c1 h _ _ j hj, hh, had_succ_rl s i.val j.val (hk ▸ hi') (hk ▸ hj), ← hk]
    · have hj' : k ≤ j.val := Nat.not_lt.1 hj
      rw [row_right c1 h _ _ j hj' (by omega), hostNegf_apply, hh,
        had_succ_rr s i.val j.val (hk ▸ hi') (hk ▸ hj'), ← hk, EReal.coe_neg]

/-- The doubled array [[h, h], [h, −h]], as the program spells it. -/
def dbl {k k2 : ℕ}
    (c1 : Shape.Concatenates [(⟨2, ![k, k]⟩ : Shape), ⟨2, ![k, k]⟩] ⟨2, ![k, k2]⟩ 1)
    (c0 : Shape.Concatenates [(⟨2, ![k, k2]⟩ : Shape), ⟨2, ![k, k2]⟩] ⟨2, ![k2, k2]⟩ 0)
    (h : FVec Ideal ⟨2, ![k, k]⟩ .f32) : FVec Ideal ⟨2, ![k2, k2]⟩ .f32 :=
  concatenate ⟨2, ![k2, k2]⟩ 0
    [⟨⟨2, ![k, k2]⟩, concatenate ⟨2, ![k, k2]⟩ 1 [⟨⟨2, ![k, k]⟩, h⟩, ⟨⟨2, ![k, k]⟩, h⟩] c1⟩,
     ⟨⟨2, ![k, k2]⟩, concatenate ⟨2, ![k, k2]⟩ 1 [⟨⟨2, ![k, k]⟩, h⟩, ⟨⟨2, ![k, k]⟩, Host.negf h⟩] c1⟩] c0

/-- `double_entry` for the named array. -/
theorem dbl_entry (s k k2 : ℕ) (hk : k = 2 ^ s) (hk2 : k2 = 2 * k)
    (c1 : Shape.Concatenates [(⟨2, ![k, k]⟩ : Shape), ⟨2, ![k, k]⟩] ⟨2, ![k, k2]⟩ 1)
    (c0 : Shape.Concatenates [(⟨2, ![k, k2]⟩ : Shape), ⟨2, ![k, k2]⟩] ⟨2, ![k2, k2]⟩ 0)
    (h : FVec Ideal ⟨2, ![k, k]⟩ .f32)
    (hh : ∀ i j : Fin k, h (ix2 i j) = ((had s i.val j.val : ℝ) : EReal))
    (i j : Fin k2) : dbl c1 c0 h (ix2 i j) = ((had (s + 1) i.val j.val : ℝ) : EReal) :=
  double_entry s k k2 hk hk2 c1 c0 h hh i j

end Cert.Fwht.Kern

end
-- ==== Proof.HadArray.lean ====
/-
  The kernel's host-built Hadamard matrix, read at an entry.

  Before the region, @main builds the 4096 × 4096 matrix it multiplies by: the 1 × 1 array of ones, doubled
  twelve times by h ↦ [[h, h], [h, −h]], then multiplied by the splat of the word 0x3C800000 and
  converted to bf16 (the identity on extended reals). Entry (t, q) of the result is therefore the sign
  had 12 t q of the Sylvester matrix times the scale.

  The buffers' contents at the region's entry are a fold of the 54 host operations over the launch memory.
  The fold is read one doubling at a time: the list is cut into the two opening operations, twelve blocks of four
  and the four closing operations; each block is read over an ARBITRARY valuation (so nothing earlier is ever
  unfolded), and its result satisfies the four-quadrant recursion by the doubling lemma.
-/
import proofs.«106674_j83476984365427_1_alg».proof.Proof.Gen.KernelIdeal.Frame
import proofs.«106674_j83476984365427_1_alg».proof.Proof.HadDouble
import Idealize.ShloMosaic.Lib.IdealHost

noncomputable section

namespace Cert.Fwht.Kern

open Idealize.ShloMosaic Idealize.ShloMosaic.ValueIdx Idealize.ShloMosaic.TcCoe
open Cert.KernelIdeal Cert.KernelIdeal.Gen

/-! ## The host operations, cut into blocks -/

/-- The four operations of one doubling of the array in `h` (a k × k array, shape `S1`): the row [h, h] into `v1`, −h into
    `v2`, the row [h, −h] into `v3` (both of shape `S2`), the two rows one over the other into `v4` (shape `S3`). -/
local macro "dblOps% " h:ident v1:ident v2:ident v3:ident v4:ident S1:ident S2:ident S3:ident c1:ident c0:ident : term => `(
  ([ StableHlo.binary $h $h $v1 ((fun a b => concatenate $S2 1 [⟨$S1, a⟩, ⟨$S1, b⟩] $c1) : (⟨$S1, .f32⟩ : BufTy).Contents (Elt Ideal) → (⟨$S1, .f32⟩ : BufTy).Contents (Elt Ideal) → (⟨$S2, .f32⟩ : BufTy).Contents (Elt Ideal)),
     StableHlo.unary $h $v2 (Host.negf (F := Ideal) (s := $S1) (φ := .f32) : (⟨$S1, .f32⟩ : BufTy).Contents (Elt Ideal) → (⟨$S1, .f32⟩ : BufTy).Contents (Elt Ideal)),
     StableHlo.binary $h $v2 $v3 ((fun a b => concatenate $S2 1 [⟨$S1, a⟩, ⟨$S1, b⟩] $c1) : (⟨$S1, .f32⟩ : BufTy).Contents (Elt Ideal) → (⟨$S1, .f32⟩ : BufTy).Contents (Elt Ideal) → (⟨$S2, .f32⟩ : BufTy).Contents (Elt Ideal)),
     StableHlo.binary $v1 $v3 $v4 ((fun a b => concatenate $S3 0 [⟨$S2, a⟩, ⟨$S2, b⟩] $c0) : (⟨$S2, .f32⟩ : BufTy).Contents (Elt Ideal) → (⟨$S2, .f32⟩ : BufTy).Contents (Elt Ideal) → (⟨$S3, .f32⟩ : BufTy).Contents (Elt Ideal)) ]
    : List (HloOp τ sig (Elt Ideal))))

/-- The two opening operations: the constant one and its broadcast to the 1 × 1 array. -/
abbrev opsPre : List (HloOp τ sig (Elt Ideal)) :=
  [ StableHlo.nullary main_cst (constant (F := Ideal) S_ .f32 0x3F800000#32),
    StableHlo.unary main_cst main_v0 (broadcastInDim S1x1 ![] bcast_S_S1x1 : (⟨S_, .f32⟩ : BufTy).Contents (Elt Ideal) → (⟨S1x1, .f32⟩ : BufTy).Contents (Elt Ideal)) ]

/-- Doubling 0: from the 1 × 1 array to the 2 × 2 one. -/
abbrev ops0 : List (HloOp τ sig (Elt Ideal)) :=
  dblOps% main_v0 main_v1 main_v2 main_v3 main_v4 S1x1 S1x2 S2x2 concatenates_S1x1_S1x1_S1x2_d1 concatenates_S1x2_S1x2_S2x2_d0
/-- Doubling 1: from the 2 × 2 array to the 4 × 4 one. -/
abbrev ops1 : List (HloOp τ sig (Elt Ideal)) :=
  dblOps% main_v4 main_v5 main_v6 main_v7 main_v8 S2x2 S2x4 S4x4 concatenates_S2x2_S2x2_S2x4_d1 concatenates_S2x4_S2x4_S4x4_d0
/-- Doubling 2: from the 4 × 4 array to the 8 × 8 one. -/
abbrev ops2 : List (HloOp τ sig (Elt Ideal)) :=
  dblOps% main_v8 main_v9 main_v10 main_v11 main_v12 S4x4 S4x8 S8x8 concatenates_S4x4_S4x4_S4x8_d1 concatenates_S4x8_S4x8_S8x8_d0
/-- Doubling 3: from the 8 × 8 array to the 16 × 16 one. -/
abbrev ops3 : List (HloOp τ sig (Elt Ideal)) :=
  dblOps% main_v12 main_v13 main_v14 main_v15 main_v16 S8x8 S8x16 S16x16 concatenates_S8x8_S8x8_S8x16_d1 concatenates_S8x16_S8x16_S16x16_d0
/-- Doubling 4: from the 16 × 16 array to the 32 × 32 one. -/
abbrev ops4 : List (HloOp τ sig (Elt Ideal)) :=
  dblOps% main_v16 main_v17 main_v18 main_v19 main_v20 S16x16 S16x32 S32x32 concatenates_S16x16_S16x16_S16x32_d1 concatenates_S16x32_S16x32_S32x32_d0
/-- Doubling 5: from the 32 × 32 array to the 64 × 64 one. -/
abbrev ops5 : List (HloOp τ sig (Elt Ideal)) :=
  dblOps% main_v20 main_v21 main_v22 main_v23 main_v24 S32x32 S32x64 S64x64 concatenates_S32x32_S32x32_S32x64_d1 concatenates_S32x64_S32x64_S64x64_d0
/-- Doubling 6: from the 64 × 64 array to the 128 × 128 one. -/
abbrev ops6 : List (HloOp τ sig (Elt Ideal)) :=
  dblOps% main_v24 main_v25 main_v26 main_v27 main_v28 S64x64 S64x128 S128x128 concatenates_S64x64_S64x64_S64x128_d1 concatenates_S64x128_S64x128_S128x128_d0
/-- Doubling 7: from the 128 × 128 array to the 256 × 256 one. -/
abbrev ops7 : List (HloOp τ sig (Elt Ideal)) :=
  dblOps% main_v28 main_v29 main_v30 main_v31 main_v32 S128x128 S128x256 S256x256 concatenates_S128x128_S128x128_S128x256_d1 concatenates_S128x256_S128x256_S256x256_d0
/-- Doubling 8: from the 256 × 256 array to the 512 × 512 one. -/
abbrev ops8 : List (HloOp τ sig (Elt Ideal)) :=
  dblOps% main_v32 main_v33 main_v34 main_v35 main_v36 S256x256 S256x512 S512x512 concatenates_S256x256_S256x256_S256x512_d1 concatenates_S256x512_S256x512_S512x512_d0
/-- Doubling 9: from the 512 × 512 array to the 1024 × 1024 one. -/
abbrev ops9 : List (HloOp τ sig (Elt Ideal)) :=
  dblOps% main_v36 main_v37 main_v38 main_v39 main_v40 S512x512 S512x1024 S1024x1024 concatenates_S512x512_S512x512_S512x1024_d1 concatenates_S512x1024_S512x1024_S1024x1024_d0
/-- Doubling 10: from the 1024 × 1024 array to the 2048 × 2048 one. -/
abbrev ops10 : List (HloOp τ sig (Elt Ideal)) :=
  dblOps% main_v40 main_v41 main_v42 main_v43 main_v44 S1024x1024 S1024x2048 S2048x2048 concatenates_S1024x1024_S1024x1024_S1024x2048_d1 concatenates_S1024x2048_S1024x2048_S2048x2048_d0
/-- Doubling 11: from the 2048 × 2048 array to the 4096 × 4096 one. -/
abbrev ops11 : List (HloOp τ sig (Elt Ideal)) :=
  dblOps% main_v44 main_v45 main_v46 main_v47 main_v48 S2048x2048 S2048x4096 S4096x4096 concatenates_S2048x2048_S2048x2048_S2048x4096_d1 concatenates_S2048x4096_S2048x4096_S4096x4096_d0

/-- The four closing operations: the scale constant, its broadcast, the product and the conversion to bf16. -/
abbrev opsPost : List (HloOp τ sig (Elt Ideal)) :=
  [ StableHlo.nullary main_cst_0 (constant (F := Ideal) S_ .f32 0x3C800000#32),
    StableHlo.unary main_cst_0 main_v49 (broadcastInDim S4096x4096 ![] bcast_S_S4096x4096 : (⟨S_, .f32⟩ : BufTy).Contents (Elt Ideal) → (⟨S4096x4096, .f32⟩ : BufTy).Contents (Elt Ideal)),
    StableHlo.binary main_v48 main_v49 main_v50 (mulf (F := Ideal) (s := S4096x4096) (φ := .f32) : (⟨S4096x4096, .f32⟩ : BufTy).Contents (Elt Ideal) → (⟨S4096x4096, .f32⟩ : BufTy).Contents (Elt Ideal) → (⟨S4096x4096, .f32⟩ : BufTy).Contents (Elt Ideal)),
    StableHlo.unary main_v50 main_v51 ((truncf (F := Ideal) (s := S4096x4096) (φ := .f32) .bf16 · bitsLt_bf16_f32) : (⟨S4096x4096, .f32⟩ : BufTy).Contents (Elt Ideal) → (⟨S4096x4096, .bf16⟩ : BufTy).Contents (Elt Ideal)) ]

/-- The program's list of host operations is the blocks in order. -/
theorem hostOps0_blocks : (hostOps0 : List (HloOp τ sig (Elt Ideal)))
    = opsPre ++ (ops0 ++ (ops1 ++ (ops2 ++ (ops3 ++ (ops4 ++ (ops5 ++ (ops6 ++ (ops7 ++ (ops8 ++ (ops9 ++ (ops10 ++ (ops11 ++ opsPost)))))))))))) := rfl

/-! ## One block at a time, over an arbitrary valuation -/

/-- After the opening operations the 1 × 1 array holds one, the sign of the 1 × 1 Sylvester matrix. -/
theorem pre_entry (W : Valuation τ sig (Elt Ideal)) (i j : Fin 1) :
    (StableHlo.after opsPre W (Proc.devRef .tc main_v0) : S1x1.Idx → EReal) (ix2 i j) = ((had 0 i.val j.val : ℝ) : EReal) := by
  have e : StableHlo.after opsPre W (Proc.devRef .tc main_v0)
      = broadcastInDim S1x1 ![] bcast_S_S1x1 (constant (F := Ideal) S_ .f32 0x3F800000#32) := by
    after_results
  rw [e, broadcastInDim_scalar_apply, constant_apply, Ideal.ofBits_one_f32, had_zero, EReal.coe_one]

/-- One doubling block: if the array in `h` holds the signs of H_{2^s} when the block starts, the array in `v4` holds
    those of H_{2^(s+1)} when it ends. The block's result is the doubled array by reading the four operations off
    (each result buffer at its own operation's value, every other buffer as it was); the doubling lemma does the rest. -/
local macro "dbl_step " name:ident ops:ident s:num s1:num k:num k2:num h:ident v4:ident S1:ident S3:ident c1:ident c0:ident : command => `(
  theorem $name (W : Valuation τ sig (Elt Ideal))
      (hW : ∀ i j : Fin $k, (W (Proc.devRef .tc $h) : Shape.Idx $S1 → EReal) (ix2 i j) = ((had $s i.val j.val : ℝ) : EReal))
      (i j : Fin $k2) :
      (StableHlo.after $ops W (Proc.devRef .tc $v4) : Shape.Idx $S3 → EReal) (ix2 i j) = ((had $s1 i.val j.val : ℝ) : EReal) := by
    have e : StableHlo.after $ops W (Proc.devRef .tc $v4) = dbl (k := $k) (k2 := $k2) $c1 $c0 (W (Proc.devRef .tc $h)) := by
      after_results
      rfl
    rw [e]
    exact dbl_entry $s $k $k2 (by norm_num) (by norm_num) $c1 $c0 _ hW i j)

dbl_step step0 ops0 0 1 1 2 main_v0 main_v4 S1x1 S2x2 concatenates_S1x1_S1x1_S1x2_d1 concatenates_S1x2_S1x2_S2x2_d0
dbl_step step1 ops1 1 2 2 4 main_v4 main_v8 S2x2 S4x4 concatenates_S2x2_S2x2_S2x4_d1 concatenates_S2x4_S2x4_S4x4_d0
dbl_step step2 ops2 2 3 4 8 main_v8 main_v12 S4x4 S8x8 concatenates_S4x4_S4x4_S4x8_d1 concatenates_S4x8_S4x8_S8x8_d0
dbl_step step3 ops3 3 4 8 16 main_v12 main_v16 S8x8 S16x16 concatenates_S8x8_S8x8_S8x16_d1 concatenates_S8x16_S8x16_S16x16_d0
dbl_step step4 ops4 4 5 16 32 main_v16 main_v20 S16x16 S32x32 concatenates_S16x16_S16x16_S16x32_d1 concatenates_S16x32_S16x32_S32x32_d0
dbl_step step5 ops5 5 6 32 64 main_v20 main_v24 S32x32 S64x64 concatenates_S32x32_S32x32_S32x64_d1 concatenates_S32x64_S32x64_S64x64_d0
dbl_step step6 ops6 6 7 64 128 main_v24 main_v28 S64x64 S128x128 concatenates_S64x64_S64x64_S64x128_d1 concatenates_S64x128_S64x128_S128x128_d0
dbl_step step7 ops7 7 8 128 256 main_v28 main_v32 S128x128 S256x256 concatenates_S128x128_S128x128_S128x256_d1 concatenates_S128x256_S128x256_S256x256_d0
dbl_step step8 ops8 8 9 256 512 main_v32 main_v36 S256x256 S512x512 concatenates_S256x256_S256x256_S256x512_d1 concatenates_S256x512_S256x512_S512x512_d0
dbl_step step9 ops9 9 10 512 1024 main_v36 main_v40 S512x512 S1024x1024 concatenates_S512x512_S512x512_S512x1024_d1 concatenates_S512x1024_S512x1024_S1024x1024_d0
dbl_step step10 ops10 10 11 1024 2048 main_v40 main_v44 S1024x1024 S2048x2048 concatenates_S1024x1024_S1024x1024_S1024x2048_d1 concatenates_S1024x2048_S1024x2048_S2048x2048_d0
dbl_step step11 ops11 11 12 2048 4096 main_v44 main_v48 S2048x2048 S4096x4096 concatenates_S2048x2048_S2048x2048_S2048x4096_d1 concatenates_S2048x4096_S2048x4096_S4096x4096_d0

/-- The closing operations: the product with the splat of the scale, converted to bf16 (the identity on extended reals). -/
theorem post_entry (W : Valuation τ sig (Elt Ideal)) (t q : Fin 4096) (x : EReal)
    (hx : (W (Proc.devRef .tc main_v48) : S4096x4096.Idx → EReal) (ix2 t q) = x) :
    (StableHlo.after opsPost W (Proc.devRef .tc main_v51) : S4096x4096.Idx → EReal) (ix2 t q)
      = x * Ideal.ofBits .f32 0x3C800000#32 := by
  have e : StableHlo.after opsPost W (Proc.devRef .tc main_v51)
      = truncf (F := Ideal) (s := S4096x4096) (φ := .f32) .bf16
          (mulf (F := Ideal) (s := S4096x4096) (φ := .f32) (W (Proc.devRef .tc main_v48))
            (broadcastInDim S4096x4096 ![] bcast_S_S4096x4096 (constant (F := Ideal) S_ .f32 0x3C800000#32))) bitsLt_bf16_f32 := by
    after_results
  rw [e, truncf_apply, mulf_apply, broadcastInDim_scalar_apply, constant_apply, hx]

/-! ## The matrix at the region's entry -/

/-- ENTRY (t, q) OF THE MATRIX THE KERNEL MULTIPLIES BY: the Sylvester sign had 12 t q times the scale word's value. -/
theorem hmat_entry (m : (ℓ : Loc nD τ sig) → Buf (Elt Ideal) ℓ) (c : Dev nD) (t q : Fin 4096) :
    (V (F := Ideal) m c main_v51 : S4096x4096.Idx → EReal) (ix2 t q)
      = ((had 12 t.val q.val : ℝ) : EReal) * Ideal.ofBits .f32 0x3C800000#32 := by
  show (StableHlo.after (hostOps0 : List (HloOp τ sig (Elt Ideal))) (fun b => m (c, b)) (Proc.devRef .tc main_v51) : S4096x4096.Idx → EReal) (ix2 t q) = _
  rw [hostOps0_blocks]
  simp only [StableHlo.after_append]
  refine post_entry _ t q _ ?_
  refine step11 _ (fun i j => ?_) t q
  refine step10 _ (fun i j => ?_) i j
  refine step9 _ (fun i j => ?_) i j
  refine step8 _ (fun i j => ?_) i j
  refine step7 _ (fun i j => ?_) i j
  refine step6 _ (fun i j => ?_) i j
  refine step5 _ (fun i j => ?_) i j
  refine step4 _ (fun i j => ?_) i j
  refine step3 _ (fun i j => ?_) i j
  refine step2 _ (fun i j => ?_) i j
  refine step1 _ (fun i j => ?_) i j
  refine step0 _ (fun i j => ?_) i j
  exact pre_entry _ i j

end Cert.Fwht.Kern

end
-- ==== Proof.RefStages.lean ====
/-
  The reference program's stages as pure functions.

  @main views its argument x : [8192, 4096] as [8192, 2048, 2, 1], runs twelve butterfly stages — each cuts the
  array [8192, m, 2, k] into its two halves a, b along axis 2, forms [a + b, a − b] along the last axis and views
  the result as [8192, m/2, 2, 2k] (the last one as [8192, 4096]) — and multiplies by the splat of the scale.
  Each stage is named here as a function of its input array, spelt operation by operation as the program spells
  it, and `composed` is their composition.
-/
import proofs.«106674_j83476984365427_1_alg».proof.Proof.Gen.ReferenceIdeal

noncomputable section

namespace Cert.Fwht.RefRun

open Cert.ReferenceIdeal Cert.ReferenceIdeal.Gen Idealize.ShloMosaic Idealize.ShloMosaic.TcCoe

variable {F : FTy → Type} [FloatOps F]

/-! ## The stages as pure functions -/

/-- The opening: the argument with a unit axis appended, viewed as [8192, 2048, 2, 1]. -/
def pre (x : FVec F S8192x4096 .f32) : FVec F S8192x2048x2x1 .f32 :=
  shapeCast S8192x2048x2x1 (broadcastInDim S8192x4096x1 ![0, 1] bcast_S8192x4096_S8192x4096x1_0_1 x) shapeCasts_S8192x4096x1_S8192x2048x2x1

/-- Butterfly stage 0: the two halves a, b of each pair (axis 2 of [8192, 2048, 2, 1]), then [a + b, a − b] along the last
    axis, viewed as [8192, 1024, 2, 2]. -/
def stage0 (U : FVec F S8192x2048x2x1 .f32) : FVec F S8192x1024x2x2 .f32 :=
  shapeCast S8192x1024x2x2
    (concatenate S8192x2048x2 2
      [⟨S8192x2048x1, addf (shapeCast S8192x2048x1 (extractStridedSlice S8192x2048x1x1 ![0, 0, 0, 0] U slices_S8192x2048x2x1_S8192x2048x1x1_0_0_0_0) shapeCasts_S8192x2048x1x1_S8192x2048x1)
          (shapeCast S8192x2048x1 (extractStridedSlice S8192x2048x1x1 ![0, 0, 1, 0] U slices_S8192x2048x2x1_S8192x2048x1x1_0_0_1_0) shapeCasts_S8192x2048x1x1_S8192x2048x1)⟩,
       ⟨S8192x2048x1, subf (shapeCast S8192x2048x1 (extractStridedSlice S8192x2048x1x1 ![0, 0, 0, 0] U slices_S8192x2048x2x1_S8192x2048x1x1_0_0_0_0) shapeCasts_S8192x2048x1x1_S8192x2048x1)
          (shapeCast S8192x2048x1 (extractStridedSlice S8192x2048x1x1 ![0, 0, 1, 0] U slices_S8192x2048x2x1_S8192x2048x1x1_0_0_1_0) shapeCasts_S8192x2048x1x1_S8192x2048x1)⟩]
      concatenates_S8192x2048x1_S8192x2048x1_S8192x2048x2_d2)
    shapeCasts_S8192x2048x2_S8192x1024x2x2

/-- Butterfly stage 1: the two halves a, b of each pair (axis 2 of [8192, 1024, 2, 2]), then [a + b, a − b] along the last
    axis, viewed as [8192, 512, 2, 4]. -/
def stage1 (U : FVec F S8192x1024x2x2 .f32) : FVec F S8192x512x2x4 .f32 :=
  shapeCast S8192x512x2x4
    (concatenate S8192x1024x4 2
      [⟨S8192x1024x2, addf (shapeCast S8192x1024x2 (extractStridedSlice S8192x1024x1x2 ![0, 0, 0, 0] U slices_S8192x1024x2x2_S8192x1024x1x2_0_0_0_0) shapeCasts_S8192x1024x1x2_S8192x1024x2)
          (shapeCast S8192x1024x2 (extractStridedSlice S8192x1024x1x2 ![0, 0, 1, 0] U slices_S8192x1024x2x2_S8192x1024x1x2_0_0_1_0) shapeCasts_S8192x1024x1x2_S8192x1024x2)⟩,
       ⟨S8192x1024x2, subf (shapeCast S8192x1024x2 (extractStridedSlice S8192x1024x1x2 ![0, 0, 0, 0] U slices_S8192x1024x2x2_S8192x1024x1x2_0_0_0_0) shapeCasts_S8192x1024x1x2_S8192x1024x2)
          (shapeCast S8192x1024x2 (extractStridedSlice S8192x1024x1x2 ![0, 0, 1, 0] U slices_S8192x1024x2x2_S8192x1024x1x2_0_0_1_0) shapeCasts_S8192x1024x1x2_S8192x1024x2)⟩]
      concatenates_S8192x1024x2_S8192x1024x2_S8192x1024x4_d2)
    shapeCasts_S8192x1024x4_S8192x512x2x4

/-- Butterfly stage 2: the two halves a, b of each pair (axis 2 of [8192, 512, 2, 4]), then [a + b, a − b] along the last
    axis, viewed as [8192, 256, 2, 8]. -/
def stage2 (U : FVec F S8192x512x2x4 .f32) : FVec F S8192x256x2x8 .f32 :=
  shapeCast S8192x256x2x8
    (concatenate S8192x512x8 2
      [⟨S8192x512x4, addf (shapeCast S8192x512x4 (extractStridedSlice S8192x512x1x4 ![0, 0, 0, 0] U slices_S8192x512x2x4_S8192x512x1x4_0_0_0_0) shapeCasts_S8192x512x1x4_S8192x512x4)
          (shapeCast S8192x512x4 (extractStridedSlice S8192x512x1x4 ![0, 0, 1, 0] U slices_S8192x512x2x4_S8192x512x1x4_0_0_1_0) shapeCasts_S8192x512x1x4_S8192x512x4)⟩,
       ⟨S8192x512x4, subf (shapeCast S8192x512x4 (extractStridedSlice S8192x512x1x4 ![0, 0, 0, 0] U slices_S8192x512x2x4_S8192x512x1x4_0_0_0_0) shapeCasts_S8192x512x1x4_S8192x512x4)
          (shapeCast S8192x512x4 (extractStridedSlice S8192x512x1x4 ![0, 0, 1, 0] U slices_S8192x512x2x4_S8192x512x1x4_0_0_1_0) shapeCasts_S8192x512x1x4_S8192x512x4)⟩]
      concatenates_S8192x512x4_S8192x512x4_S8192x512x8_d2)
    shapeCasts_S8192x512x8_S8192x256x2x8

/-- Butterfly stage 3: the two halves a, b of each pair (axis 2 of [8192, 256, 2, 8]), then [a + b, a − b] along the last
    axis, viewed as [8192, 128, 2, 16]. -/
def stage3 (U : FVec F S8192x256x2x8 .f32) : FVec F S8192x128x2x16 .f32 :=
  shapeCast S8192x128x2x16
    (concatenate S8192x256x16 2
      [⟨S8192x256x8, addf (shapeCast S8192x256x8 (extractStridedSlice S8192x256x1x8 ![0, 0, 0, 0] U slices_S8192x256x2x8_S8192x256x1x8_0_0_0_0) shapeCasts_S8192x256x1x8_S8192x256x8)
          (shapeCast S8192x256x8 (extractStridedSlice S8192x256x1x8 ![0, 0, 1, 0] U slices_S8192x256x2x8_S8192x256x1x8_0_0_1_0) shapeCasts_S8192x256x1x8_S8192x256x8)⟩,
       ⟨S8192x256x8, subf (shapeCast S8192x256x8 (extractStridedSlice S8192x256x1x8 ![0, 0, 0, 0] U slices_S8192x256x2x8_S8192x256x1x8_0_0_0_0) shapeCasts_S8192x256x1x8_S8192x256x8)
          (shapeCast S8192x256x8 (extractStridedSlice S8192x256x1x8 ![0, 0, 1, 0] U slices_S8192x256x2x8_S8192x256x1x8_0_0_1_0) shapeCasts_S8192x256x1x8_S8192x256x8)⟩]
      concatenates_S8192x256x8_S8192x256x8_S8192x256x16_d2)
    shapeCasts_S8192x256x16_S8192x128x2x16

/-- Butterfly stage 4: the two halves a, b of each pair (axis 2 of [8192, 128, 2, 16]), then [a + b, a − b] along the last
    axis, viewed as [8192, 64, 2, 32]. -/
def stage4 (U : FVec F S8192x128x2x16 .f32) : FVec F S8192x64x2x32 .f32 :=
  shapeCast S8192x64x2x32
    (concatenate S8192x128x32 2
      [⟨S8192x128x16, addf (shapeCast S8192x128x16 (extractStridedSlice S8192x128x1x16 ![0, 0, 0, 0] U slices_S8192x128x2x16_S8192x128x1x16_0_0_0_0) shapeCasts_S8192x128x1x16_S8192x128x16)
          (shapeCast S8192x128x16 (extractStridedSlice S8192x128x1x16 ![0, 0, 1, 0] U slices_S8192x128x2x16_S8192x128x1x16_0_0_1_0) shapeCasts_S8192x128x1x16_S8192x128x16)⟩,
       ⟨S8192x128x16, subf (shapeCast S8192x128x16 (extractStridedSlice S8192x128x1x16 ![0, 0, 0, 0] U slices_S8192x128x2x16_S8192x128x1x16_0_0_0_0) shapeCasts_S8192x128x1x16_S8192x128x16)
          (shapeCast S8192x128x16 (extractStridedSlice S8192x128x1x16 ![0, 0, 1, 0] U slices_S8192x128x2x16_S8192x128x1x16_0_0_1_0) shapeCasts_S8192x128x1x16_S8192x128x16)⟩]
      concatenates_S8192x128x16_S8192x128x16_S8192x128x32_d2)
    shapeCasts_S8192x128x32_S8192x64x2x32

/-- Butterfly stage 5: the two halves a, b of each pair (axis 2 of [8192, 64, 2, 32]), then [a + b, a − b] along the last
    axis, viewed as [8192, 32, 2, 64]. -/
def stage5 (U : FVec F S8192x64x2x32 .f32) : FVec F S8192x32x2x64 .f32 :=
  shapeCast S8192x32x2x64
    (concatenate S8192x64x64 2
      [⟨S8192x64x32, addf (shapeCast S8192x64x32 (extractStridedSlice S8192x64x1x32 ![0, 0, 0, 0] U slices_S8192x64x2x32_S8192x64x1x32_0_0_0_0) shapeCasts_S8192x64x1x32_S8192x64x32)
          (shapeCast S8192x64x32 (extractStridedSlice S8192x64x1x32 ![0, 0, 1, 0] U slices_S8192x64x2x32_S8192x64x1x32_0_0_1_0) shapeCasts_S8192x64x1x32_S8192x64x32)⟩,
       ⟨S8192x64x32, subf (shapeCast S8192x64x32 (extractStridedSlice S8192x64x1x32 ![0, 0, 0, 0] U slices_S8192x64x2x32_S8192x64x1x32_0_0_0_0) shapeCasts_S8192x64x1x32_S8192x64x32)
          (shapeCast S8192x64x32 (extractStridedSlice S8192x64x1x32 ![0, 0, 1, 0] U slices_S8192x64x2x32_S8192x64x1x32_0_0_1_0) shapeCasts_S8192x64x1x32_S8192x64x32)⟩]
      concatenates_S8192x64x32_S8192x64x32_S8192x64x64_d2)
    shapeCasts_S8192x64x64_S8192x32x2x64

/-- Butterfly stage 6: the two halves a, b of each pair (axis 2 of [8192, 32, 2, 64]), then [a + b, a − b] along the last
    axis, viewed as [8192, 16, 2, 128]. -/
def stage6 (U : FVec F S8192x32x2x64 .f32) : FVec F S8192x16x2x128 .f32 :=
  shapeCast S8192x16x2x128
    (concatenate S8192x32x128 2
      [⟨S8192x32x64, addf (shapeCast S8192x32x64 (extractStridedSlice S8192x32x1x64 ![0, 0, 0, 0] U slices_S8192x32x2x64_S8192x32x1x64_0_0_0_0) shapeCasts_S8192x32x1x64_S8192x32x64)
          (shapeCast S8192x32x64 (extractStridedSlice S8192x32x1x64 ![0, 0, 1, 0] U slices_S8192x32x2x64_S8192x32x1x64_0_0_1_0) shapeCasts_S8192x32x1x64_S8192x32x64)⟩,
       ⟨S8192x32x64, subf (shapeCast S8192x32x64 (extractStridedSlice S8192x32x1x64 ![0, 0, 0, 0] U slices_S8192x32x2x64_S8192x32x1x64_0_0_0_0) shapeCasts_S8192x32x1x64_S8192x32x64)
          (shapeCast S8192x32x64 (extractStridedSlice S8192x32x1x64 ![0, 0, 1, 0] U slices_S8192x32x2x64_S8192x32x1x64_0_0_1_0) shapeCasts_S8192x32x1x64_S8192x32x64)⟩]
      concatenates_S8192x32x64_S8192x32x64_S8192x32x128_d2)
    shapeCasts_S8192x32x128_S8192x16x2x128

/-- Butterfly stage 7: the two halves a, b of each pair (axis 2 of [8192, 16, 2, 128]), then [a + b, a − b] along the last
    axis, viewed as [8192, 8, 2, 256]. -/
def stage7 (U : FVec F S8192x16x2x128 .f32) : FVec F S8192x8x2x256 .f32 :=
  shapeCast S8192x8x2x256
    (concatenate S8192x16x256 2
      [⟨S8192x16x128, addf (shapeCast S8192x16x128 (extractStridedSlice S8192x16x1x128 ![0, 0, 0, 0] U slices_S8192x16x2x128_S8192x16x1x128_0_0_0_0) shapeCasts_S8192x16x1x128_S8192x16x128)
          (shapeCast S8192x16x128 (extractStridedSlice S8192x16x1x128 ![0, 0, 1, 0] U slices_S8192x16x2x128_S8192x16x1x128_0_0_1_0) shapeCasts_S8192x16x1x128_S8192x16x128)⟩,
       ⟨S8192x16x128, subf (shapeCast S8192x16x128 (extractStridedSlice S8192x16x1x128 ![0, 0, 0, 0] U slices_S8192x16x2x128_S8192x16x1x128_0_0_0_0) shapeCasts_S8192x16x1x128_S8192x16x128)
          (shapeCast S8192x16x128 (extractStridedSlice S8192x16x1x128 ![0, 0, 1, 0] U slices_S8192x16x2x128_S8192x16x1x128_0_0_1_0) shapeCasts_S8192x16x1x128_S8192x16x128)⟩]
      concatenates_S8192x16x128_S8192x16x128_S8192x16x256_d2)
    shapeCasts_S8192x16x256_S8192x8x2x256

/-- Butterfly stage 8: the two halves a, b of each pair (axis 2 of [8192, 8, 2, 256]), then [a + b, a − b] along the last
    axis, viewed as [8192, 4, 2, 512]. -/
def stage8 (U : FVec F S8192x8x2x256 .f32) : FVec F S8192x4x2x512 .f32 :=
  shapeCast S8192x4x2x512
    (concatenate S8192x8x512 2
      [⟨S8192x8x256, addf (shapeCast S8192x8x256 (extractStridedSlice S8192x8x1x256 ![0, 0, 0, 0] U slices_S8192x8x2x256_S8192x8x1x256_0_0_0_0) shapeCasts_S8192x8x1x256_S8192x8x256)
          (shapeCast S8192x8x256 (extractStridedSlice S8192x8x1x256 ![0, 0, 1, 0] U slices_S8192x8x2x256_S8192x8x1x256_0_0_1_0) shapeCasts_S8192x8x1x256_S8192x8x256)⟩,
       ⟨S8192x8x256, subf (shapeCast S8192x8x256 (extractStridedSlice S8192x8x1x256 ![0, 0, 0, 0] U slices_S8192x8x2x256_S8192x8x1x256_0_0_0_0) shapeCasts_S8192x8x1x256_S8192x8x256)
          (shapeCast S8192x8x256 (extractStridedSlice S8192x8x1x256 ![0, 0, 1, 0] U slices_S8192x8x2x256_S8192x8x1x256_0_0_1_0) shapeCasts_S8192x8x1x256_S8192x8x256)⟩]
      concatenates_S8192x8x256_S8192x8x256_S8192x8x512_d2)
    shapeCasts_S8192x8x512_S8192x4x2x512

/-- Butterfly stage 9: the two halves a, b of each pair (axis 2 of [8192, 4, 2, 512]), then [a + b, a − b] along the last
    axis, viewed as [8192, 2, 2, 1024]. -/
def stage9 (U : FVec F S8192x4x2x512 .f32) : FVec F S8192x2x2x1024 .f32 :=
  shapeCast S8192x2x2x1024
    (concatenate S8192x4x1024 2
      [⟨S8192x4x512, addf (shapeCast S8192x4x512 (extractStridedSlice S8192x4x1x512 ![0, 0, 0, 0] U slices_S8192x4x2x512_S8192x4x1x512_0_0_0_0) shapeCasts_S8192x4x1x512_S8192x4x512)
          (shapeCast S8192x4x512 (extractStridedSlice S8192x4x1x512 ![0, 0, 1, 0] U slices_S8192x4x2x512_S8192x4x1x512_0_0_1_0) shapeCasts_S8192x4x1x512_S8192x4x512)⟩,
       ⟨S8192x4x512, subf (shapeCast S8192x4x512 (extractStridedSlice S8192x4x1x512 ![0, 0, 0, 0] U slices_S8192x4x2x512_S8192x4x1x512_0_0_0_0) shapeCasts_S8192x4x1x512_S8192x4x512)
          (shapeCast S8192x4x512 (extractStridedSlice S8192x4x1x512 ![0, 0, 1, 0] U slices_S8192x4x2x512_S8192x4x1x512_0_0_1_0) shapeCasts_S8192x4x1x512_S8192x4x512)⟩]
      concatenates_S8192x4x512_S8192x4x512_S8192x4x1024_d2)
    shapeCasts_S8192x4x1024_S8192x2x2x1024

/-- Butterfly stage 10: the two halves a, b of each pair (axis 2 of [8192, 2, 2, 1024]), then [a + b, a − b] along the last
    axis, viewed as [8192, 1, 2, 2048]. -/
def stage10 (U : FVec F S8192x2x2x1024 .f32) : FVec F S8192x1x2x2048 .f32 :=
  shapeCast S8192x1x2x2048
    (concatenate S8192x2x2048 2
      [⟨S8192x2x1024, addf (shapeCast S8192x2x1024 (extractStridedSlice S8192x2x1x1024 ![0, 0, 0, 0] U slices_S8192x2x2x1024_S8192x2x1x1024_0_0_0_0) shapeCasts_S8192x2x1x1024_S8192x2x1024)
          (shapeCast S8192x2x1024 (extractStridedSlice S8192x2x1x1024 ![0, 0, 1, 0] U slices_S8192x2x2x1024_S8192x2x1x1024_0_0_1_0) shapeCasts_S8192x2x1x1024_S8192x2x1024)⟩,
       ⟨S8192x2x1024, subf (shapeCast S8192x2x1024 (extractStridedSlice S8192x2x1x1024 ![0, 0, 0, 0] U slices_S8192x2x2x1024_S8192x2x1x1024_0_0_0_0) shapeCasts_S8192x2x1x1024_S8192x2x1024)
          (shapeCast S8192x2x1024 (extractStridedSlice S8192x2x1x1024 ![0, 0, 1, 0] U slices_S8192x2x2x1024_S8192x2x1x1024_0_0_1_0) shapeCasts_S8192x2x1x1024_S8192x2x1024)⟩]
      concatenates_S8192x2x1024_S8192x2x1024_S8192x2x2048_d2)
    shapeCasts_S8192x2x2048_S8192x1x2x2048

/-- Butterfly stage 11: the two halves a, b of each pair (axis 2 of [8192, 1, 2, 2048]), then [a + b, a − b] along the last
    axis, viewed as [8192, 4096]. -/
def stage11 (U : FVec F S8192x1x2x2048 .f32) : FVec F S8192x4096 .f32 :=
  shapeCast S8192x4096
    (concatenate S8192x1x4096 2
      [⟨S8192x1x2048, addf (shapeCast S8192x1x2048 (extractStridedSlice S8192x1x1x2048 ![0, 0, 0, 0] U slices_S8192x1x2x2048_S8192x1x1x2048_0_0_0_0) shapeCasts_S8192x1x1x2048_S8192x1x2048)
          (shapeCast S8192x1x2048 (extractStridedSlice S8192x1x1x2048 ![0, 0, 1, 0] U slices_S8192x1x2x2048_S8192x1x1x2048_0_0_1_0) shapeCasts_S8192x1x1x2048_S8192x1x2048)⟩,
       ⟨S8192x1x2048, subf (shapeCast S8192x1x2048 (extractStridedSlice S8192x1x1x2048 ![0, 0, 0, 0] U slices_S8192x1x2x2048_S8192x1x1x2048_0_0_0_0) shapeCasts_S8192x1x1x2048_S8192x1x2048)
          (shapeCast S8192x1x2048 (extractStridedSlice S8192x1x1x2048 ![0, 0, 1, 0] U slices_S8192x1x2x2048_S8192x1x1x2048_0_0_1_0) shapeCasts_S8192x1x1x2048_S8192x1x2048)⟩]
      concatenates_S8192x1x2048_S8192x1x2048_S8192x1x4096_d2)
    shapeCasts_S8192x1x4096_S8192x4096

/-- The closing: the product with the splat of the scale word. -/
def post (y : FVec F S8192x4096 .f32) : FVec F S8192x4096 .f32 :=
  mulf y (broadcastInDim S8192x4096 ![] bcast_S_S8192x4096 (constant (F := F) S_ .f32 0x3C800000#32))

/-- The reference's result as a function of its argument: the opening, the twelve stages in order, the closing. -/
def composed (x : FVec F S8192x4096 .f32) : FVec F S8192x4096 .f32 :=
  post (stage11 (stage10 (stage9 (stage8 (stage7 (stage6 (stage5 (stage4 (stage3 (stage2 (stage1 (stage0 (pre x)))))))))))))

end Cert.Fwht.RefRun

end
-- ==== Proof.RefChunks.lean ====
/-
  The reference program's run, read one stage at a time.

  @main is 101 host operations: the argument x : [8192, 4096] viewed as [8192, 2048, 2, 1]; twelve butterfly
  stages, each cutting the array [8192, m, 2, k] into its two halves a, b along axis 2, forming [a + b, a − b]
  along the last axis and viewing the result as [8192, m/2, 2, 2k]; the product with the splat of the scale.
  The stages are named here as pure functions of their input array, and the run of @main is read as their
  composition: the list of operations is cut into the opening, the twelve stages and the closing, and each
  block is read over an ARBITRARY valuation, so no block's term is ever unfolded inside another's.
-/
import proofs.«106674_j83476984365427_1_alg».proof.Proof.Gen.ReferenceIdeal
import proofs.«106674_j83476984365427_1_alg».proof.Proof.RefStages
import Idealize.ShloMosaic.Lib.StableHlo.Run
import Idealize.ShloMosaic.PureOps.Ideal

noncomputable section

namespace Cert.Fwht.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main as a list of operations -/

/-- @main's 101 operations, in order. -/
abbrev ops : List (HloOp τ sig (Elt F)) :=
  [ unary main_arg0 main_v0 (broadcastInDim S8192x4096x1 ![0, 1] bcast_S8192x4096_S8192x4096x1_0_1 : (⟨S8192x4096, .f32⟩ : BufTy).Contents (Elt F) → (⟨S8192x4096x1, .f32⟩ : BufTy).Contents (Elt F)),
    reshape main_v0 main_v1 rfl shapeCasts_S8192x4096x1_S8192x2048x2x1,
    unary main_v1 main_v2 ((extractStridedSlice S8192x2048x1x1 ![0, 0, 0, 0] · slices_S8192x2048x2x1_S8192x2048x1x1_0_0_0_0) : (⟨S8192x2048x2x1, .f32⟩ : BufTy).Contents (Elt F) → (⟨S8192x2048x1x1, .f32⟩ : BufTy).Contents (Elt F)),
    reshape main_v2 main_v3 rfl shapeCasts_S8192x2048x1x1_S8192x2048x1,
    unary main_v1 main_v4 ((extractStridedSlice S8192x2048x1x1 ![0, 0, 1, 0] · slices_S8192x2048x2x1_S8192x2048x1x1_0_0_1_0) : (⟨S8192x2048x2x1, .f32⟩ : BufTy).Contents (Elt F) → (⟨S8192x2048x1x1, .f32⟩ : BufTy).Contents (Elt F)),
    reshape main_v4 main_v5 rfl shapeCasts_S8192x2048x1x1_S8192x2048x1,
    binary main_v3 main_v5 main_v6 (addf : (⟨S8192x2048x1, .f32⟩ : BufTy).Contents (Elt F) → (⟨S8192x2048x1, .f32⟩ : BufTy).Contents (Elt F) → (⟨S8192x2048x1, .f32⟩ : BufTy).Contents (Elt F)),
    binary main_v3 main_v5 main_v7 (subf : (⟨S8192x2048x1, .f32⟩ : BufTy).Contents (Elt F) → (⟨S8192x2048x1, .f32⟩ : BufTy).Contents (Elt F) → (⟨S8192x2048x1, .f32⟩ : BufTy).Contents (Elt F)),
    binary main_v6 main_v7 main_v8 ((fun a b => concatenate S8192x2048x2 2 [⟨S8192x2048x1, a⟩, ⟨S8192x2048x1, b⟩] concatenates_S8192x2048x1_S8192x2048x1_S8192x2048x2_d2) : (⟨S8192x2048x1, .f32⟩ : BufTy).Contents (Elt F) → (⟨S8192x2048x1, .f32⟩ : BufTy).Contents (Elt F) → (⟨S8192x2048x2, .f32⟩ : BufTy).Contents (Elt F)),
    reshape main_v8 main_v9 rfl shapeCasts_S8192x2048x2_S8192x1024x2x2,
    unary main_v9 main_v10 ((extractStridedSlice S8192x1024x1x2 ![0, 0, 0, 0] · slices_S8192x1024x2x2_S8192x1024x1x2_0_0_0_0) : (⟨S8192x1024x2x2, .f32⟩ : BufTy).Contents (Elt F) → (⟨S8192x1024x1x2, .f32⟩ : BufTy).Contents (Elt F)),
    reshape main_v10 main_v11 rfl shapeCasts_S8192x1024x1x2_S8192x1024x2,
    unary main_v9 main_v12 ((extractStridedSlice S8192x1024x1x2 ![0, 0, 1, 0] · slices_S8192x1024x2x2_S8192x1024x1x2_0_0_1_0) : (⟨S8192x1024x2x2, .f32⟩ : BufTy).Contents (Elt F) → (⟨S8192x1024x1x2, .f32⟩ : BufTy).Contents (Elt F)),
    reshape main_v12 main_v13 rfl shapeCasts_S8192x1024x1x2_S8192x1024x2,
    binary main_v11 main_v13 main_v14 (addf : (⟨S8192x1024x2, .f32⟩ : BufTy).Contents (Elt F) → (⟨S8192x1024x2, .f32⟩ : BufTy).Contents (Elt F) → (⟨S8192x1024x2, .f32⟩ : BufTy).Contents (Elt F)),
    binary main_v11 main_v13 main_v15 (subf : (⟨S8192x1024x2, .f32⟩ : BufTy).Contents (Elt F) → (⟨S8192x1024x2, .f32⟩ : BufTy).Contents (Elt F) → (⟨S8192x1024x2, .f32⟩ : BufTy).Contents (Elt F)),
    binary main_v14 main_v15 main_v16 ((fun a b => concatenate S8192x1024x4 2 [⟨S8192x1024x2, a⟩, ⟨S8192x1024x2, b⟩] concatenates_S8192x1024x2_S8192x1024x2_S8192x1024x4_d2) : (⟨S8192x1024x2, .f32⟩ : BufTy).Contents (Elt F) → (⟨S8192x1024x2, .f32⟩ : BufTy).Contents (Elt F) → (⟨S8192x1024x4, .f32⟩ : BufTy).Contents (Elt F)),
    reshape main_v16 main_v17 rfl shapeCasts_S8192x1024x4_S8192x512x2x4,
    unary main_v17 main_v18 ((extractStridedSlice S8192x512x1x4 ![0, 0, 0, 0] · slices_S8192x512x2x4_S8192x512x1x4_0_0_0_0) : (⟨S8192x512x2x4, .f32⟩ : BufTy).Contents (Elt F) → (⟨S8192x512x1x4, .f32⟩ : BufTy).Contents (Elt F)),
    reshape main_v18 main_v19 rfl shapeCasts_S8192x512x1x4_S8192x512x4,
    unary main_v17 main_v20 ((extractStridedSlice S8192x512x1x4 ![0, 0, 1, 0] · slices_S8192x512x2x4_S8192x512x1x4_0_0_1_0) : (⟨S8192x512x2x4, .f32⟩ : BufTy).Contents (Elt F) → (⟨S8192x512x1x4, .f32⟩ : BufTy).Contents (Elt F)),
    reshape main_v20 main_v21 rfl shapeCasts_S8192x512x1x4_S8192x512x4,
    binary main_v19 main_v21 main_v22 (addf : (⟨S8192x512x4, .f32⟩ : BufTy).Contents (Elt F) → (⟨S8192x512x4, .f32⟩ : BufTy).Contents (Elt F) → (⟨S8192x512x4, .f32⟩ : BufTy).Contents (Elt F)),
    binary main_v19 main_v21 main_v23 (subf : (⟨S8192x512x4, .f32⟩ : BufTy).Contents (Elt F) → (⟨S8192x512x4, .f32⟩ : BufTy).Contents (Elt F) → (⟨S8192x512x4, .f32⟩ : BufTy).Contents (Elt F)),
    binary main_v22 main_v23 main_v24 ((fun a b => concatenate S8192x512x8 2 [⟨S8192x512x4, a⟩, ⟨S8192x512x4, b⟩] concatenates_S8192x512x4_S8192x512x4_S8192x512x8_d2) : (⟨S8192x512x4, .f32⟩ : BufTy).Contents (Elt F) → (⟨S8192x512x4, .f32⟩ : BufTy).Contents (Elt F) → (⟨S8192x512x8, .f32⟩ : BufTy).Contents (Elt F)),
    reshape main_v24 main_v25 rfl shapeCasts_S8192x512x8_S8192x256x2x8,
    unary main_v25 main_v26 ((extractStridedSlice S8192x256x1x8 ![0, 0, 0, 0] · slices_S8192x256x2x8_S8192x256x1x8_0_0_0_0) : (⟨S8192x256x2x8, .f32⟩ : BufTy).Contents (Elt F) → (⟨S8192x256x1x8, .f32⟩ : BufTy).Contents (Elt F)),
    reshape main_v26 main_v27 rfl shapeCasts_S8192x256x1x8_S8192x256x8,
    unary main_v25 main_v28 ((extractStridedSlice S8192x256x1x8 ![0, 0, 1, 0] · slices_S8192x256x2x8_S8192x256x1x8_0_0_1_0) : (⟨S8192x256x2x8, .f32⟩ : BufTy).Contents (Elt F) → (⟨S8192x256x1x8, .f32⟩ : BufTy).Contents (Elt F)),
    reshape main_v28 main_v29 rfl shapeCasts_S8192x256x1x8_S8192x256x8,
    binary main_v27 main_v29 main_v30 (addf : (⟨S8192x256x8, .f32⟩ : BufTy).Contents (Elt F) → (⟨S8192x256x8, .f32⟩ : BufTy).Contents (Elt F) → (⟨S8192x256x8, .f32⟩ : BufTy).Contents (Elt F)),
    binary main_v27 main_v29 main_v31 (subf : (⟨S8192x256x8, .f32⟩ : BufTy).Contents (Elt F) → (⟨S8192x256x8, .f32⟩ : BufTy).Contents (Elt F) → (⟨S8192x256x8, .f32⟩ : BufTy).Contents (Elt F)),
    binary main_v30 main_v31 main_v32 ((fun a b => concatenate S8192x256x16 2 [⟨S8192x256x8, a⟩, ⟨S8192x256x8, b⟩] concatenates_S8192x256x8_S8192x256x8_S8192x256x16_d2) : (⟨S8192x256x8, .f32⟩ : BufTy).Contents (Elt F) → (⟨S8192x256x8, .f32⟩ : BufTy).Contents (Elt F) → (⟨S8192x256x16, .f32⟩ : BufTy).Contents (Elt F)),
    reshape main_v32 main_v33 rfl shapeCasts_S8192x256x16_S8192x128x2x16,
    unary main_v33 main_v34 ((extractStridedSlice S8192x128x1x16 ![0, 0, 0, 0] · slices_S8192x128x2x16_S8192x128x1x16_0_0_0_0) : (⟨S8192x128x2x16, .f32⟩ : BufTy).Contents (Elt F) → (⟨S8192x128x1x16, .f32⟩ : BufTy).Contents (Elt F)),
    reshape main_v34 main_v35 rfl shapeCasts_S8192x128x1x16_S8192x128x16,
    unary main_v33 main_v36 ((extractStridedSlice S8192x128x1x16 ![0, 0, 1, 0] · slices_S8192x128x2x16_S8192x128x1x16_0_0_1_0) : (⟨S8192x128x2x16, .f32⟩ : BufTy).Contents (Elt F) → (⟨S8192x128x1x16, .f32⟩ : BufTy).Contents (Elt F)),
    reshape main_v36 main_v37 rfl shapeCasts_S8192x128x1x16_S8192x128x16,
    binary main_v35 main_v37 main_v38 (addf : (⟨S8192x128x16, .f32⟩ : BufTy).Contents (Elt F) → (⟨S8192x128x16, .f32⟩ : BufTy).Contents (Elt F) → (⟨S8192x128x16, .f32⟩ : BufTy).Contents (Elt F)),
    binary main_v35 main_v37 main_v39 (subf : (⟨S8192x128x16, .f32⟩ : BufTy).Contents (Elt F) → (⟨S8192x128x16, .f32⟩ : BufTy).Contents (Elt F) → (⟨S8192x128x16, .f32⟩ : BufTy).Contents (Elt F)),
    binary main_v38 main_v39 main_v40 ((fun a b => concatenate S8192x128x32 2 [⟨S8192x128x16, a⟩, ⟨S8192x128x16, b⟩] concatenates_S8192x128x16_S8192x128x16_S8192x128x32_d2) : (⟨S8192x128x16, .f32⟩ : BufTy).Contents (Elt F) → (⟨S8192x128x16, .f32⟩ : BufTy).Contents (Elt F) → (⟨S8192x128x32, .f32⟩ : BufTy).Contents (Elt F)),
    reshape main_v40 main_v41 rfl shapeCasts_S8192x128x32_S8192x64x2x32,
    unary main_v41 main_v42 ((extractStridedSlice S8192x64x1x32 ![0, 0, 0, 0] · slices_S8192x64x2x32_S8192x64x1x32_0_0_0_0) : (⟨S8192x64x2x32, .f32⟩ : BufTy).Contents (Elt F) → (⟨S8192x64x1x32, .f32⟩ : BufTy).Contents (Elt F)),
    reshape main_v42 main_v43 rfl shapeCasts_S8192x64x1x32_S8192x64x32,
    unary main_v41 main_v44 ((extractStridedSlice S8192x64x1x32 ![0, 0, 1, 0] · slices_S8192x64x2x32_S8192x64x1x32_0_0_1_0) : (⟨S8192x64x2x32, .f32⟩ : BufTy).Contents (Elt F) → (⟨S8192x64x1x32, .f32⟩ : BufTy).Contents (Elt F)),
    reshape main_v44 main_v45 rfl shapeCasts_S8192x64x1x32_S8192x64x32,
    binary main_v43 main_v45 main_v46 (addf : (⟨S8192x64x32, .f32⟩ : BufTy).Contents (Elt F) → (⟨S8192x64x32, .f32⟩ : BufTy).Contents (Elt F) → (⟨S8192x64x32, .f32⟩ : BufTy).Contents (Elt F)),
    binary main_v43 main_v45 main_v47 (subf : (⟨S8192x64x32, .f32⟩ : BufTy).Contents (Elt F) → (⟨S8192x64x32, .f32⟩ : BufTy).Contents (Elt F) → (⟨S8192x64x32, .f32⟩ : BufTy).Contents (Elt F)),
    binary main_v46 main_v47 main_v48 ((fun a b => concatenate S8192x64x64 2 [⟨S8192x64x32, a⟩, ⟨S8192x64x32, b⟩] concatenates_S8192x64x32_S8192x64x32_S8192x64x64_d2) : (⟨S8192x64x32, .f32⟩ : BufTy).Contents (Elt F) → (⟨S8192x64x32, .f32⟩ : BufTy).Contents (Elt F) → (⟨S8192x64x64, .f32⟩ : BufTy).Contents (Elt F)),
    reshape main_v48 main_v49 rfl shapeCasts_S8192x64x64_S8192x32x2x64,
    unary main_v49 main_v50 ((extractStridedSlice S8192x32x1x64 ![0, 0, 0, 0] · slices_S8192x32x2x64_S8192x32x1x64_0_0_0_0) : (⟨S8192x32x2x64, .f32⟩ : BufTy).Contents (Elt F) → (⟨S8192x32x1x64, .f32⟩ : BufTy).Contents (Elt F)),
    reshape main_v50 main_v51 rfl shapeCasts_S8192x32x1x64_S8192x32x64,
    unary main_v49 main_v52 ((extractStridedSlice S8192x32x1x64 ![0, 0, 1, 0] · slices_S8192x32x2x64_S8192x32x1x64_0_0_1_0) : (⟨S8192x32x2x64, .f32⟩ : BufTy).Contents (Elt F) → (⟨S8192x32x1x64, .f32⟩ : BufTy).Contents (Elt F)),
    reshape main_v52 main_v53 rfl shapeCasts_S8192x32x1x64_S8192x32x64,
    binary main_v51 main_v53 main_v54 (addf : (⟨S8192x32x64, .f32⟩ : BufTy).Contents (Elt F) → (⟨S8192x32x64, .f32⟩ : BufTy).Contents (Elt F) → (⟨S8192x32x64, .f32⟩ : BufTy).Contents (Elt F)),
    binary main_v51 main_v53 main_v55 (subf : (⟨S8192x32x64, .f32⟩ : BufTy).Contents (Elt F) → (⟨S8192x32x64, .f32⟩ : BufTy).Contents (Elt F) → (⟨S8192x32x64, .f32⟩ : BufTy).Contents (Elt F)),
    binary main_v54 main_v55 main_v56 ((fun a b => concatenate S8192x32x128 2 [⟨S8192x32x64, a⟩, ⟨S8192x32x64, b⟩] concatenates_S8192x32x64_S8192x32x64_S8192x32x128_d2) : (⟨S8192x32x64, .f32⟩ : BufTy).Contents (Elt F) → (⟨S8192x32x64, .f32⟩ : BufTy).Contents (Elt F) → (⟨S8192x32x128, .f32⟩ : BufTy).Contents (Elt F)),
    reshape main_v56 main_v57 rfl shapeCasts_S8192x32x128_S8192x16x2x128,
    unary main_v57 main_v58 ((extractStridedSlice S8192x16x1x128 ![0, 0, 0, 0] · slices_S8192x16x2x128_S8192x16x1x128_0_0_0_0) : (⟨S8192x16x2x128, .f32⟩ : BufTy).Contents (Elt F) → (⟨S8192x16x1x128, .f32⟩ : BufTy).Contents (Elt F)),
    reshape main_v58 main_v59 rfl shapeCasts_S8192x16x1x128_S8192x16x128,
    unary main_v57 main_v60 ((extractStridedSlice S8192x16x1x128 ![0, 0, 1, 0] · slices_S8192x16x2x128_S8192x16x1x128_0_0_1_0) : (⟨S8192x16x2x128, .f32⟩ : BufTy).Contents (Elt F) → (⟨S8192x16x1x128, .f32⟩ : BufTy).Contents (Elt F)),
    reshape main_v60 main_v61 rfl shapeCasts_S8192x16x1x128_S8192x16x128,
    binary main_v59 main_v61 main_v62 (addf : (⟨S8192x16x128, .f32⟩ : BufTy).Contents (Elt F) → (⟨S8192x16x128, .f32⟩ : BufTy).Contents (Elt F) → (⟨S8192x16x128, .f32⟩ : BufTy).Contents (Elt F)),
    binary main_v59 main_v61 main_v63 (subf : (⟨S8192x16x128, .f32⟩ : BufTy).Contents (Elt F) → (⟨S8192x16x128, .f32⟩ : BufTy).Contents (Elt F) → (⟨S8192x16x128, .f32⟩ : BufTy).Contents (Elt F)),
    binary main_v62 main_v63 main_v64 ((fun a b => concatenate S8192x16x256 2 [⟨S8192x16x128, a⟩, ⟨S8192x16x128, b⟩] concatenates_S8192x16x128_S8192x16x128_S8192x16x256_d2) : (⟨S8192x16x128, .f32⟩ : BufTy).Contents (Elt F) → (⟨S8192x16x128, .f32⟩ : BufTy).Contents (Elt F) → (⟨S8192x16x256, .f32⟩ : BufTy).Contents (Elt F)),
    reshape main_v64 main_v65 rfl shapeCasts_S8192x16x256_S8192x8x2x256,
    unary main_v65 main_v66 ((extractStridedSlice S8192x8x1x256 ![0, 0, 0, 0] · slices_S8192x8x2x256_S8192x8x1x256_0_0_0_0) : (⟨S8192x8x2x256, .f32⟩ : BufTy).Contents (Elt F) → (⟨S8192x8x1x256, .f32⟩ : BufTy).Contents (Elt F)),
    reshape main_v66 main_v67 rfl shapeCasts_S8192x8x1x256_S8192x8x256,
    unary main_v65 main_v68 ((extractStridedSlice S8192x8x1x256 ![0, 0, 1, 0] · slices_S8192x8x2x256_S8192x8x1x256_0_0_1_0) : (⟨S8192x8x2x256, .f32⟩ : BufTy).Contents (Elt F) → (⟨S8192x8x1x256, .f32⟩ : BufTy).Contents (Elt F)),
    reshape main_v68 main_v69 rfl shapeCasts_S8192x8x1x256_S8192x8x256,
    binary main_v67 main_v69 main_v70 (addf : (⟨S8192x8x256, .f32⟩ : BufTy).Contents (Elt F) → (⟨S8192x8x256, .f32⟩ : BufTy).Contents (Elt F) → (⟨S8192x8x256, .f32⟩ : BufTy).Contents (Elt F)),
    binary main_v67 main_v69 main_v71 (subf : (⟨S8192x8x256, .f32⟩ : BufTy).Contents (Elt F) → (⟨S8192x8x256, .f32⟩ : BufTy).Contents (Elt F) → (⟨S8192x8x256, .f32⟩ : BufTy).Contents (Elt F)),
    binary main_v70 main_v71 main_v72 ((fun a b => concatenate S8192x8x512 2 [⟨S8192x8x256, a⟩, ⟨S8192x8x256, b⟩] concatenates_S8192x8x256_S8192x8x256_S8192x8x512_d2) : (⟨S8192x8x256, .f32⟩ : BufTy).Contents (Elt F) → (⟨S8192x8x256, .f32⟩ : BufTy).Contents (Elt F) → (⟨S8192x8x512, .f32⟩ : BufTy).Contents (Elt F)),
    reshape main_v72 main_v73 rfl shapeCasts_S8192x8x512_S8192x4x2x512,
    unary main_v73 main_v74 ((extractStridedSlice S8192x4x1x512 ![0, 0, 0, 0] · slices_S8192x4x2x512_S8192x4x1x512_0_0_0_0) : (⟨S8192x4x2x512, .f32⟩ : BufTy).Contents (Elt F) → (⟨S8192x4x1x512, .f32⟩ : BufTy).Contents (Elt F)),
    reshape main_v74 main_v75 rfl shapeCasts_S8192x4x1x512_S8192x4x512,
    unary main_v73 main_v76 ((extractStridedSlice S8192x4x1x512 ![0, 0, 1, 0] · slices_S8192x4x2x512_S8192x4x1x512_0_0_1_0) : (⟨S8192x4x2x512, .f32⟩ : BufTy).Contents (Elt F) → (⟨S8192x4x1x512, .f32⟩ : BufTy).Contents (Elt F)),
    reshape main_v76 main_v77 rfl shapeCasts_S8192x4x1x512_S8192x4x512,
    binary main_v75 main_v77 main_v78 (addf : (⟨S8192x4x512, .f32⟩ : BufTy).Contents (Elt F) → (⟨S8192x4x512, .f32⟩ : BufTy).Contents (Elt F) → (⟨S8192x4x512, .f32⟩ : BufTy).Contents (Elt F)),
    binary main_v75 main_v77 main_v79 (subf : (⟨S8192x4x512, .f32⟩ : BufTy).Contents (Elt F) → (⟨S8192x4x512, .f32⟩ : BufTy).Contents (Elt F) → (⟨S8192x4x512, .f32⟩ : BufTy).Contents (Elt F)),
    binary main_v78 main_v79 main_v80 ((fun a b => concatenate S8192x4x1024 2 [⟨S8192x4x512, a⟩, ⟨S8192x4x512, b⟩] concatenates_S8192x4x512_S8192x4x512_S8192x4x1024_d2) : (⟨S8192x4x512, .f32⟩ : BufTy).Contents (Elt F) → (⟨S8192x4x512, .f32⟩ : BufTy).Contents (Elt F) → (⟨S8192x4x1024, .f32⟩ : BufTy).Contents (Elt F)),
    reshape main_v80 main_v81 rfl shapeCasts_S8192x4x1024_S8192x2x2x1024,
    unary main_v81 main_v82 ((extractStridedSlice S8192x2x1x1024 ![0, 0, 0, 0] · slices_S8192x2x2x1024_S8192x2x1x1024_0_0_0_0) : (⟨S8192x2x2x1024, .f32⟩ : BufTy).Contents (Elt F) → (⟨S8192x2x1x1024, .f32⟩ : BufTy).Contents (Elt F)),
    reshape main_v82 main_v83 rfl shapeCasts_S8192x2x1x1024_S8192x2x1024,
    unary main_v81 main_v84 ((extractStridedSlice S8192x2x1x1024 ![0, 0, 1, 0] · slices_S8192x2x2x1024_S8192x2x1x1024_0_0_1_0) : (⟨S8192x2x2x1024, .f32⟩ : BufTy).Contents (Elt F) → (⟨S8192x2x1x1024, .f32⟩ : BufTy).Contents (Elt F)),
    reshape main_v84 main_v85 rfl shapeCasts_S8192x2x1x1024_S8192x2x1024,
    binary main_v83 main_v85 main_v86 (addf : (⟨S8192x2x1024, .f32⟩ : BufTy).Contents (Elt F) → (⟨S8192x2x1024, .f32⟩ : BufTy).Contents (Elt F) → (⟨S8192x2x1024, .f32⟩ : BufTy).Contents (Elt F)),
    binary main_v83 main_v85 main_v87 (subf : (⟨S8192x2x1024, .f32⟩ : BufTy).Contents (Elt F) → (⟨S8192x2x1024, .f32⟩ : BufTy).Contents (Elt F) → (⟨S8192x2x1024, .f32⟩ : BufTy).Contents (Elt F)),
    binary main_v86 main_v87 main_v88 ((fun a b => concatenate S8192x2x2048 2 [⟨S8192x2x1024, a⟩, ⟨S8192x2x1024, b⟩] concatenates_S8192x2x1024_S8192x2x1024_S8192x2x2048_d2) : (⟨S8192x2x1024, .f32⟩ : BufTy).Contents (Elt F) → (⟨S8192x2x1024, .f32⟩ : BufTy).Contents (Elt F) → (⟨S8192x2x2048, .f32⟩ : BufTy).Contents (Elt F)),
    reshape main_v88 main_v89 rfl shapeCasts_S8192x2x2048_S8192x1x2x2048,
    unary main_v89 main_v90 ((extractStridedSlice S8192x1x1x2048 ![0, 0, 0, 0] · slices_S8192x1x2x2048_S8192x1x1x2048_0_0_0_0) : (⟨S8192x1x2x2048, .f32⟩ : BufTy).Contents (Elt F) → (⟨S8192x1x1x2048, .f32⟩ : BufTy).Contents (Elt F)),
    reshape main_v90 main_v91 rfl shapeCasts_S8192x1x1x2048_S8192x1x2048,
    unary main_v89 main_v92 ((extractStridedSlice S8192x1x1x2048 ![0, 0, 1, 0] · slices_S8192x1x2x2048_S8192x1x1x2048_0_0_1_0) : (⟨S8192x1x2x2048, .f32⟩ : BufTy).Contents (Elt F) → (⟨S8192x1x1x2048, .f32⟩ : BufTy).Contents (Elt F)),
    reshape main_v92 main_v93 rfl shapeCasts_S8192x1x1x2048_S8192x1x2048,
    binary main_v91 main_v93 main_v94 (addf : (⟨S8192x1x2048, .f32⟩ : BufTy).Contents (Elt F) → (⟨S8192x1x2048, .f32⟩ : BufTy).Contents (Elt F) → (⟨S8192x1x2048, .f32⟩ : BufTy).Contents (Elt F)),
    binary main_v91 main_v93 main_v95 (subf : (⟨S8192x1x2048, .f32⟩ : BufTy).Contents (Elt F) → (⟨S8192x1x2048, .f32⟩ : BufTy).Contents (Elt F) → (⟨S8192x1x2048, .f32⟩ : BufTy).Contents (Elt F)),
    binary main_v94 main_v95 main_v96 ((fun a b => concatenate S8192x1x4096 2 [⟨S8192x1x2048, a⟩, ⟨S8192x1x2048, b⟩] concatenates_S8192x1x2048_S8192x1x2048_S8192x1x4096_d2) : (⟨S8192x1x2048, .f32⟩ : BufTy).Contents (Elt F) → (⟨S8192x1x2048, .f32⟩ : BufTy).Contents (Elt F) → (⟨S8192x1x4096, .f32⟩ : BufTy).Contents (Elt F)),
    reshape main_v96 main_v97 rfl shapeCasts_S8192x1x4096_S8192x4096,
    nullary main_cst (constant S_ .f32 0x3C800000#32),
    unary main_cst main_v98 (broadcastInDim S8192x4096 ![] bcast_S_S8192x4096 : (⟨S_, .f32⟩ : BufTy).Contents (Elt F) → (⟨S8192x4096, .f32⟩ : BufTy).Contents (Elt F)),
    binary main_v97 main_v98 main_v99 (mulf : (⟨S8192x4096, .f32⟩ : BufTy).Contents (Elt F) → (⟨S8192x4096, .f32⟩ : BufTy).Contents (Elt F) → (⟨S8192x4096, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., unary_bufs_sub .., reshape_bufs_sub .., unary_bufs_sub .., reshape_bufs_sub .., binary_bufs_sub .., binary_bufs_sub .., binary_bufs_sub .., reshape_bufs_sub .., nullary_bufs_sub .., unary_bufs_sub .., binary_bufs_sub ..⟩

/-! ## The list cut into the opening, the twelve stages and the closing -/

/-- The opening's two operations. -/
abbrev opsPre : List (HloOp τ sig (Elt F)) :=
  [ unary main_arg0 main_v0 (broadcastInDim S8192x4096x1 ![0, 1] bcast_S8192x4096_S8192x4096x1_0_1 : (⟨S8192x4096, .f32⟩ : BufTy).Contents (Elt F) → (⟨S8192x4096x1, .f32⟩ : BufTy).Contents (Elt F)),
    reshape main_v0 main_v1 rfl shapeCasts_S8192x4096x1_S8192x2048x2x1 ]

/-- Stage 0's eight operations. -/
abbrev st0 : List (HloOp τ sig (Elt F)) :=
  [ unary main_v1 main_v2 ((extractStridedSlice S8192x2048x1x1 ![0, 0, 0, 0] · slices_S8192x2048x2x1_S8192x2048x1x1_0_0_0_0) : (⟨S8192x2048x2x1, .f32⟩ : BufTy).Contents (Elt F) → (⟨S8192x2048x1x1, .f32⟩ : BufTy).Contents (Elt F)),
    reshape main_v2 main_v3 rfl shapeCasts_S8192x2048x1x1_S8192x2048x1,
    unary main_v1 main_v4 ((extractStridedSlice S8192x2048x1x1 ![0, 0, 1, 0] · slices_S8192x2048x2x1_S8192x2048x1x1_0_0_1_0) : (⟨S8192x2048x2x1, .f32⟩ : BufTy).Contents (Elt F) → (⟨S8192x2048x1x1, .f32⟩ : BufTy).Contents (Elt F)),
    reshape main_v4 main_v5 rfl shapeCasts_S8192x2048x1x1_S8192x2048x1,
    binary main_v3 main_v5 main_v6 (addf : (⟨S8192x2048x1, .f32⟩ : BufTy).Contents (Elt F) → (⟨S8192x2048x1, .f32⟩ : BufTy).Contents (Elt F) → (⟨S8192x2048x1, .f32⟩ : BufTy).Contents (Elt F)),
    binary main_v3 main_v5 main_v7 (subf : (⟨S8192x2048x1, .f32⟩ : BufTy).Contents (Elt F) → (⟨S8192x2048x1, .f32⟩ : BufTy).Contents (Elt F) → (⟨S8192x2048x1, .f32⟩ : BufTy).Contents (Elt F)),
    binary main_v6 main_v7 main_v8 ((fun a b => concatenate S8192x2048x2 2 [⟨S8192x2048x1, a⟩, ⟨S8192x2048x1, b⟩] concatenates_S8192x2048x1_S8192x2048x1_S8192x2048x2_d2) : (⟨S8192x2048x1, .f32⟩ : BufTy).Contents (Elt F) → (⟨S8192x2048x1, .f32⟩ : BufTy).Contents (Elt F) → (⟨S8192x2048x2, .f32⟩ : BufTy).Contents (Elt F)),
    reshape main_v8 main_v9 rfl shapeCasts_S8192x2048x2_S8192x1024x2x2 ]

/-- Stage 1's eight operations. -/
abbrev st1 : List (HloOp τ sig (Elt F)) :=
  [ unary main_v9 main_v10 ((extractStridedSlice S8192x1024x1x2 ![0, 0, 0, 0] · slices_S8192x1024x2x2_S8192x1024x1x2_0_0_0_0) : (⟨S8192x1024x2x2, .f32⟩ : BufTy).Contents (Elt F) → (⟨S8192x1024x1x2, .f32⟩ : BufTy).Contents (Elt F)),
    reshape main_v10 main_v11 rfl shapeCasts_S8192x1024x1x2_S8192x1024x2,
    unary main_v9 main_v12 ((extractStridedSlice S8192x1024x1x2 ![0, 0, 1, 0] · slices_S8192x1024x2x2_S8192x1024x1x2_0_0_1_0) : (⟨S8192x1024x2x2, .f32⟩ : BufTy).Contents (Elt F) → (⟨S8192x1024x1x2, .f32⟩ : BufTy).Contents (Elt F)),
    reshape main_v12 main_v13 rfl shapeCasts_S8192x1024x1x2_S8192x1024x2,
    binary main_v11 main_v13 main_v14 (addf : (⟨S8192x1024x2, .f32⟩ : BufTy).Contents (Elt F) → (⟨S8192x1024x2, .f32⟩ : BufTy).Contents (Elt F) → (⟨S8192x1024x2, .f32⟩ : BufTy).Contents (Elt F)),
    binary main_v11 main_v13 main_v15 (subf : (⟨S8192x1024x2, .f32⟩ : BufTy).Contents (Elt F) → (⟨S8192x1024x2, .f32⟩ : BufTy).Contents (Elt F) → (⟨S8192x1024x2, .f32⟩ : BufTy).Contents (Elt F)),
    binary main_v14 main_v15 main_v16 ((fun a b => concatenate S8192x1024x4 2 [⟨S8192x1024x2, a⟩, ⟨S8192x1024x2, b⟩] concatenates_S8192x1024x2_S8192x1024x2_S8192x1024x4_d2) : (⟨S8192x1024x2, .f32⟩ : BufTy).Contents (Elt F) → (⟨S8192x1024x2, .f32⟩ : BufTy).Contents (Elt F) → (⟨S8192x1024x4, .f32⟩ : BufTy).Contents (Elt F)),
    reshape main_v16 main_v17 rfl shapeCasts_S8192x1024x4_S8192x512x2x4 ]

/-- Stage 2's eight operations. -/
abbrev st2 : List (HloOp τ sig (Elt F)) :=
  [ unary main_v17 main_v18 ((extractStridedSlice S8192x512x1x4 ![0, 0, 0, 0] · slices_S8192x512x2x4_S8192x512x1x4_0_0_0_0) : (⟨S8192x512x2x4, .f32⟩ : BufTy).Contents (Elt F) → (⟨S8192x512x1x4, .f32⟩ : BufTy).Contents (Elt F)),
    reshape main_v18 main_v19 rfl shapeCasts_S8192x512x1x4_S8192x512x4,
    unary main_v17 main_v20 ((extractStridedSlice S8192x512x1x4 ![0, 0, 1, 0] · slices_S8192x512x2x4_S8192x512x1x4_0_0_1_0) : (⟨S8192x512x2x4, .f32⟩ : BufTy).Contents (Elt F) → (⟨S8192x512x1x4, .f32⟩ : BufTy).Contents (Elt F)),
    reshape main_v20 main_v21 rfl shapeCasts_S8192x512x1x4_S8192x512x4,
    binary main_v19 main_v21 main_v22 (addf : (⟨S8192x512x4, .f32⟩ : BufTy).Contents (Elt F) → (⟨S8192x512x4, .f32⟩ : BufTy).Contents (Elt F) → (⟨S8192x512x4, .f32⟩ : BufTy).Contents (Elt F)),
    binary main_v19 main_v21 main_v23 (subf : (⟨S8192x512x4, .f32⟩ : BufTy).Contents (Elt F) → (⟨S8192x512x4, .f32⟩ : BufTy).Contents (Elt F) → (⟨S8192x512x4, .f32⟩ : BufTy).Contents (Elt F)),
    binary main_v22 main_v23 main_v24 ((fun a b => concatenate S8192x512x8 2 [⟨S8192x512x4, a⟩, ⟨S8192x512x4, b⟩] concatenates_S8192x512x4_S8192x512x4_S8192x512x8_d2) : (⟨S8192x512x4, .f32⟩ : BufTy).Contents (Elt F) → (⟨S8192x512x4, .f32⟩ : BufTy).Contents (Elt F) → (⟨S8192x512x8, .f32⟩ : BufTy).Contents (Elt F)),
    reshape main_v24 main_v25 rfl shapeCasts_S8192x512x8_S8192x256x2x8 ]

/-- Stage 3's eight operations. -/
abbrev st3 : List (HloOp τ sig (Elt F)) :=
  [ unary main_v25 main_v26 ((extractStridedSlice S8192x256x1x8 ![0, 0, 0, 0] · slices_S8192x256x2x8_S8192x256x1x8_0_0_0_0) : (⟨S8192x256x2x8, .f32⟩ : BufTy).Contents (Elt F) → (⟨S8192x256x1x8, .f32⟩ : BufTy).Contents (Elt F)),
    reshape main_v26 main_v27 rfl shapeCasts_S8192x256x1x8_S8192x256x8,
    unary main_v25 main_v28 ((extractStridedSlice S8192x256x1x8 ![0, 0, 1, 0] · slices_S8192x256x2x8_S8192x256x1x8_0_0_1_0) : (⟨S8192x256x2x8, .f32⟩ : BufTy).Contents (Elt F) → (⟨S8192x256x1x8, .f32⟩ : BufTy).Contents (Elt F)),
    reshape main_v28 main_v29 rfl shapeCasts_S8192x256x1x8_S8192x256x8,
    binary main_v27 main_v29 main_v30 (addf : (⟨S8192x256x8, .f32⟩ : BufTy).Contents (Elt F) → (⟨S8192x256x8, .f32⟩ : BufTy).Contents (Elt F) → (⟨S8192x256x8, .f32⟩ : BufTy).Contents (Elt F)),
    binary main_v27 main_v29 main_v31 (subf : (⟨S8192x256x8, .f32⟩ : BufTy).Contents (Elt F) → (⟨S8192x256x8, .f32⟩ : BufTy).Contents (Elt F) → (⟨S8192x256x8, .f32⟩ : BufTy).Contents (Elt F)),
    binary main_v30 main_v31 main_v32 ((fun a b => concatenate S8192x256x16 2 [⟨S8192x256x8, a⟩, ⟨S8192x256x8, b⟩] concatenates_S8192x256x8_S8192x256x8_S8192x256x16_d2) : (⟨S8192x256x8, .f32⟩ : BufTy).Contents (Elt F) → (⟨S8192x256x8, .f32⟩ : BufTy).Contents (Elt F) → (⟨S8192x256x16, .f32⟩ : BufTy).Contents (Elt F)),
    reshape main_v32 main_v33 rfl shapeCasts_S8192x256x16_S8192x128x2x16 ]

/-- Stage 4's eight operations. -/
abbrev st4 : List (HloOp τ sig (Elt F)) :=
  [ unary main_v33 main_v34 ((extractStridedSlice S8192x128x1x16 ![0, 0, 0, 0] · slices_S8192x128x2x16_S8192x128x1x16_0_0_0_0) : (⟨S8192x128x2x16, .f32⟩ : BufTy).Contents (Elt F) → (⟨S8192x128x1x16, .f32⟩ : BufTy).Contents (Elt F)),
    reshape main_v34 main_v35 rfl shapeCasts_S8192x128x1x16_S8192x128x16,
    unary main_v33 main_v36 ((extractStridedSlice S8192x128x1x16 ![0, 0, 1, 0] · slices_S8192x128x2x16_S8192x128x1x16_0_0_1_0) : (⟨S8192x128x2x16, .f32⟩ : BufTy).Contents (Elt F) → (⟨S8192x128x1x16, .f32⟩ : BufTy).Contents (Elt F)),
    reshape main_v36 main_v37 rfl shapeCasts_S8192x128x1x16_S8192x128x16,
    binary main_v35 main_v37 main_v38 (addf : (⟨S8192x128x16, .f32⟩ : BufTy).Contents (Elt F) → (⟨S8192x128x16, .f32⟩ : BufTy).Contents (Elt F) → (⟨S8192x128x16, .f32⟩ : BufTy).Contents (Elt F)),
    binary main_v35 main_v37 main_v39 (subf : (⟨S8192x128x16, .f32⟩ : BufTy).Contents (Elt F) → (⟨S8192x128x16, .f32⟩ : BufTy).Contents (Elt F) → (⟨S8192x128x16, .f32⟩ : BufTy).Contents (Elt F)),
    binary main_v38 main_v39 main_v40 ((fun a b => concatenate S8192x128x32 2 [⟨S8192x128x16, a⟩, ⟨S8192x128x16, b⟩] concatenates_S8192x128x16_S8192x128x16_S8192x128x32_d2) : (⟨S8192x128x16, .f32⟩ : BufTy).Contents (Elt F) → (⟨S8192x128x16, .f32⟩ : BufTy).Contents (Elt F) → (⟨S8192x128x32, .f32⟩ : BufTy).Contents (Elt F)),
    reshape main_v40 main_v41 rfl shapeCasts_S8192x128x32_S8192x64x2x32 ]

/-- Stage 5's eight operations. -/
abbrev st5 : List (HloOp τ sig (Elt F)) :=
  [ unary main_v41 main_v42 ((extractStridedSlice S8192x64x1x32 ![0, 0, 0, 0] · slices_S8192x64x2x32_S8192x64x1x32_0_0_0_0) : (⟨S8192x64x2x32, .f32⟩ : BufTy).Contents (Elt F) → (⟨S8192x64x1x32, .f32⟩ : BufTy).Contents (Elt F)),
    reshape main_v42 main_v43 rfl shapeCasts_S8192x64x1x32_S8192x64x32,
    unary main_v41 main_v44 ((extractStridedSlice S8192x64x1x32 ![0, 0, 1, 0] · slices_S8192x64x2x32_S8192x64x1x32_0_0_1_0) : (⟨S8192x64x2x32, .f32⟩ : BufTy).Contents (Elt F) → (⟨S8192x64x1x32, .f32⟩ : BufTy).Contents (Elt F)),
    reshape main_v44 main_v45 rfl shapeCasts_S8192x64x1x32_S8192x64x32,
    binary main_v43 main_v45 main_v46 (addf : (⟨S8192x64x32, .f32⟩ : BufTy).Contents (Elt F) → (⟨S8192x64x32, .f32⟩ : BufTy).Contents (Elt F) → (⟨S8192x64x32, .f32⟩ : BufTy).Contents (Elt F)),
    binary main_v43 main_v45 main_v47 (subf : (⟨S8192x64x32, .f32⟩ : BufTy).Contents (Elt F) → (⟨S8192x64x32, .f32⟩ : BufTy).Contents (Elt F) → (⟨S8192x64x32, .f32⟩ : BufTy).Contents (Elt F)),
    binary main_v46 main_v47 main_v48 ((fun a b => concatenate S8192x64x64 2 [⟨S8192x64x32, a⟩, ⟨S8192x64x32, b⟩] concatenates_S8192x64x32_S8192x64x32_S8192x64x64_d2) : (⟨S8192x64x32, .f32⟩ : BufTy).Contents (Elt F) → (⟨S8192x64x32, .f32⟩ : BufTy).Contents (Elt F) → (⟨S8192x64x64, .f32⟩ : BufTy).Contents (Elt F)),
    reshape main_v48 main_v49 rfl shapeCasts_S8192x64x64_S8192x32x2x64 ]

/-- Stage 6's eight operations. -/
abbrev st6 : List (HloOp τ sig (Elt F)) :=
  [ unary main_v49 main_v50 ((extractStridedSlice S8192x32x1x64 ![0, 0, 0, 0] · slices_S8192x32x2x64_S8192x32x1x64_0_0_0_0) : (⟨S8192x32x2x64, .f32⟩ : BufTy).Contents (Elt F) → (⟨S8192x32x1x64, .f32⟩ : BufTy).Contents (Elt F)),
    reshape main_v50 main_v51 rfl shapeCasts_S8192x32x1x64_S8192x32x64,
    unary main_v49 main_v52 ((extractStridedSlice S8192x32x1x64 ![0, 0, 1, 0] · slices_S8192x32x2x64_S8192x32x1x64_0_0_1_0) : (⟨S8192x32x2x64, .f32⟩ : BufTy).Contents (Elt F) → (⟨S8192x32x1x64, .f32⟩ : BufTy).Contents (Elt F)),
    reshape main_v52 main_v53 rfl shapeCasts_S8192x32x1x64_S8192x32x64,
    binary main_v51 main_v53 main_v54 (addf : (⟨S8192x32x64, .f32⟩ : BufTy).Contents (Elt F) → (⟨S8192x32x64, .f32⟩ : BufTy).Contents (Elt F) → (⟨S8192x32x64, .f32⟩ : BufTy).Contents (Elt F)),
    binary main_v51 main_v53 main_v55 (subf : (⟨S8192x32x64, .f32⟩ : BufTy).Contents (Elt F) → (⟨S8192x32x64, .f32⟩ : BufTy).Contents (Elt F) → (⟨S8192x32x64, .f32⟩ : BufTy).Contents (Elt F)),
    binary main_v54 main_v55 main_v56 ((fun a b => concatenate S8192x32x128 2 [⟨S8192x32x64, a⟩, ⟨S8192x32x64, b⟩] concatenates_S8192x32x64_S8192x32x64_S8192x32x128_d2) : (⟨S8192x32x64, .f32⟩ : BufTy).Contents (Elt F) → (⟨S8192x32x64, .f32⟩ : BufTy).Contents (Elt F) → (⟨S8192x32x128, .f32⟩ : BufTy).Contents (Elt F)),
    reshape main_v56 main_v57 rfl shapeCasts_S8192x32x128_S8192x16x2x128 ]

/-- Stage 7's eight operations. -/
abbrev st7 : List (HloOp τ sig (Elt F)) :=
  [ unary main_v57 main_v58 ((extractStridedSlice S8192x16x1x128 ![0, 0, 0, 0] · slices_S8192x16x2x128_S8192x16x1x128_0_0_0_0) : (⟨S8192x16x2x128, .f32⟩ : BufTy).Contents (Elt F) → (⟨S8192x16x1x128, .f32⟩ : BufTy).Contents (Elt F)),
    reshape main_v58 main_v59 rfl shapeCasts_S8192x16x1x128_S8192x16x128,
    unary main_v57 main_v60 ((extractStridedSlice S8192x16x1x128 ![0, 0, 1, 0] · slices_S8192x16x2x128_S8192x16x1x128_0_0_1_0) : (⟨S8192x16x2x128, .f32⟩ : BufTy).Contents (Elt F) → (⟨S8192x16x1x128, .f32⟩ : BufTy).Contents (Elt F)),
    reshape main_v60 main_v61 rfl shapeCasts_S8192x16x1x128_S8192x16x128,
    binary main_v59 main_v61 main_v62 (addf : (⟨S8192x16x128, .f32⟩ : BufTy).Contents (Elt F) → (⟨S8192x16x128, .f32⟩ : BufTy).Contents (Elt F) → (⟨S8192x16x128, .f32⟩ : BufTy).Contents (Elt F)),
    binary main_v59 main_v61 main_v63 (subf : (⟨S8192x16x128, .f32⟩ : BufTy).Contents (Elt F) → (⟨S8192x16x128, .f32⟩ : BufTy).Contents (Elt F) → (⟨S8192x16x128, .f32⟩ : BufTy).Contents (Elt F)),
    binary main_v62 main_v63 main_v64 ((fun a b => concatenate S8192x16x256 2 [⟨S8192x16x128, a⟩, ⟨S8192x16x128, b⟩] concatenates_S8192x16x128_S8192x16x128_S8192x16x256_d2) : (⟨S8192x16x128, .f32⟩ : BufTy).Contents (Elt F) → (⟨S8192x16x128, .f32⟩ : BufTy).Contents (Elt F) → (⟨S8192x16x256, .f32⟩ : BufTy).Contents (Elt F)),
    reshape main_v64 main_v65 rfl shapeCasts_S8192x16x256_S8192x8x2x256 ]

/-- Stage 8's eight operations. -/
abbrev st8 : List (HloOp τ sig (Elt F)) :=
  [ unary main_v65 main_v66 ((extractStridedSlice S8192x8x1x256 ![0, 0, 0, 0] · slices_S8192x8x2x256_S8192x8x1x256_0_0_0_0) : (⟨S8192x8x2x256, .f32⟩ : BufTy).Contents (Elt F) → (⟨S8192x8x1x256, .f32⟩ : BufTy).Contents (Elt F)),
    reshape main_v66 main_v67 rfl shapeCasts_S8192x8x1x256_S8192x8x256,
    unary main_v65 main_v68 ((extractStridedSlice S8192x8x1x256 ![0, 0, 1, 0] · slices_S8192x8x2x256_S8192x8x1x256_0_0_1_0) : (⟨S8192x8x2x256, .f32⟩ : BufTy).Contents (Elt F) → (⟨S8192x8x1x256, .f32⟩ : BufTy).Contents (Elt F)),
    reshape main_v68 main_v69 rfl shapeCasts_S8192x8x1x256_S8192x8x256,
    binary main_v67 main_v69 main_v70 (addf : (⟨S8192x8x256, .f32⟩ : BufTy).Contents (Elt F) → (⟨S8192x8x256, .f32⟩ : BufTy).Contents (Elt F) → (⟨S8192x8x256, .f32⟩ : BufTy).Contents (Elt F)),
    binary main_v67 main_v69 main_v71 (subf : (⟨S8192x8x256, .f32⟩ : BufTy).Contents (Elt F) → (⟨S8192x8x256, .f32⟩ : BufTy).Contents (Elt F) → (⟨S8192x8x256, .f32⟩ : BufTy).Contents (Elt F)),
    binary main_v70 main_v71 main_v72 ((fun a b => concatenate S8192x8x512 2 [⟨S8192x8x256, a⟩, ⟨S8192x8x256, b⟩] concatenates_S8192x8x256_S8192x8x256_S8192x8x512_d2) : (⟨S8192x8x256, .f32⟩ : BufTy).Contents (Elt F) → (⟨S8192x8x256, .f32⟩ : BufTy).Contents (Elt F) → (⟨S8192x8x512, .f32⟩ : BufTy).Contents (Elt F)),
    reshape main_v72 main_v73 rfl shapeCasts_S8192x8x512_S8192x4x2x512 ]

/-- Stage 9's eight operations. -/
abbrev st9 : List (HloOp τ sig (Elt F)) :=
  [ unary main_v73 main_v74 ((extractStridedSlice S8192x4x1x512 ![0, 0, 0, 0] · slices_S8192x4x2x512_S8192x4x1x512_0_0_0_0) : (⟨S8192x4x2x512, .f32⟩ : BufTy).Contents (Elt F) → (⟨S8192x4x1x512, .f32⟩ : BufTy).Contents (Elt F)),
    reshape main_v74 main_v75 rfl shapeCasts_S8192x4x1x512_S8192x4x512,
    unary main_v73 main_v76 ((extractStridedSlice S8192x4x1x512 ![0, 0, 1, 0] · slices_S8192x4x2x512_S8192x4x1x512_0_0_1_0) : (⟨S8192x4x2x512, .f32⟩ : BufTy).Contents (Elt F) → (⟨S8192x4x1x512, .f32⟩ : BufTy).Contents (Elt F)),
    reshape main_v76 main_v77 rfl shapeCasts_S8192x4x1x512_S8192x4x512,
    binary main_v75 main_v77 main_v78 (addf : (⟨S8192x4x512, .f32⟩ : BufTy).Contents (Elt F) → (⟨S8192x4x512, .f32⟩ : BufTy).Contents (Elt F) → (⟨S8192x4x512, .f32⟩ : BufTy).Contents (Elt F)),
    binary main_v75 main_v77 main_v79 (subf : (⟨S8192x4x512, .f32⟩ : BufTy).Contents (Elt F) → (⟨S8192x4x512, .f32⟩ : BufTy).Contents (Elt F) → (⟨S8192x4x512, .f32⟩ : BufTy).Contents (Elt F)),
    binary main_v78 main_v79 main_v80 ((fun a b => concatenate S8192x4x1024 2 [⟨S8192x4x512, a⟩, ⟨S8192x4x512, b⟩] concatenates_S8192x4x512_S8192x4x512_S8192x4x1024_d2) : (⟨S8192x4x512, .f32⟩ : BufTy).Contents (Elt F) → (⟨S8192x4x512, .f32⟩ : BufTy).Contents (Elt F) → (⟨S8192x4x1024, .f32⟩ : BufTy).Contents (Elt F)),
    reshape main_v80 main_v81 rfl shapeCasts_S8192x4x1024_S8192x2x2x1024 ]

/-- Stage 10's eight operations. -/
abbrev st10 : List (HloOp τ sig (Elt F)) :=
  [ unary main_v81 main_v82 ((extractStridedSlice S8192x2x1x1024 ![0, 0, 0, 0] · slices_S8192x2x2x1024_S8192x2x1x1024_0_0_0_0) : (⟨S8192x2x2x1024, .f32⟩ : BufTy).Contents (Elt F) → (⟨S8192x2x1x1024, .f32⟩ : BufTy).Contents (Elt F)),
    reshape main_v82 main_v83 rfl shapeCasts_S8192x2x1x1024_S8192x2x1024,
    unary main_v81 main_v84 ((extractStridedSlice S8192x2x1x1024 ![0, 0, 1, 0] · slices_S8192x2x2x1024_S8192x2x1x1024_0_0_1_0) : (⟨S8192x2x2x1024, .f32⟩ : BufTy).Contents (Elt F) → (⟨S8192x2x1x1024, .f32⟩ : BufTy).Contents (Elt F)),
    reshape main_v84 main_v85 rfl shapeCasts_S8192x2x1x1024_S8192x2x1024,
    binary main_v83 main_v85 main_v86 (addf : (⟨S8192x2x1024, .f32⟩ : BufTy).Contents (Elt F) → (⟨S8192x2x1024, .f32⟩ : BufTy).Contents (Elt F) → (⟨S8192x2x1024, .f32⟩ : BufTy).Contents (Elt F)),
    binary main_v83 main_v85 main_v87 (subf : (⟨S8192x2x1024, .f32⟩ : BufTy).Contents (Elt F) → (⟨S8192x2x1024, .f32⟩ : BufTy).Contents (Elt F) → (⟨S8192x2x1024, .f32⟩ : BufTy).Contents (Elt F)),
    binary main_v86 main_v87 main_v88 ((fun a b => concatenate S8192x2x2048 2 [⟨S8192x2x1024, a⟩, ⟨S8192x2x1024, b⟩] concatenates_S8192x2x1024_S8192x2x1024_S8192x2x2048_d2) : (⟨S8192x2x1024, .f32⟩ : BufTy).Contents (Elt F) → (⟨S8192x2x1024, .f32⟩ : BufTy).Contents (Elt F) → (⟨S8192x2x2048, .f32⟩ : BufTy).Contents (Elt F)),
    reshape main_v88 main_v89 rfl shapeCasts_S8192x2x2048_S8192x1x2x2048 ]

/-- Stage 11's eight operations. -/
abbrev st11 : List (HloOp τ sig (Elt F)) :=
  [ unary main_v89 main_v90 ((extractStridedSlice S8192x1x1x2048 ![0, 0, 0, 0] · slices_S8192x1x2x2048_S8192x1x1x2048_0_0_0_0) : (⟨S8192x1x2x2048, .f32⟩ : BufTy).Contents (Elt F) → (⟨S8192x1x1x2048, .f32⟩ : BufTy).Contents (Elt F)),
    reshape main_v90 main_v91 rfl shapeCasts_S8192x1x1x2048_S8192x1x2048,
    unary main_v89 main_v92 ((extractStridedSlice S8192x1x1x2048 ![0, 0, 1, 0] · slices_S8192x1x2x2048_S8192x1x1x2048_0_0_1_0) : (⟨S8192x1x2x2048, .f32⟩ : BufTy).Contents (Elt F) → (⟨S8192x1x1x2048, .f32⟩ : BufTy).Contents (Elt F)),
    reshape main_v92 main_v93 rfl shapeCasts_S8192x1x1x2048_S8192x1x2048,
    binary main_v91 main_v93 main_v94 (addf : (⟨S8192x1x2048, .f32⟩ : BufTy).Contents (Elt F) → (⟨S8192x1x2048, .f32⟩ : BufTy).Contents (Elt F) → (⟨S8192x1x2048, .f32⟩ : BufTy).Contents (Elt F)),
    binary main_v91 main_v93 main_v95 (subf : (⟨S8192x1x2048, .f32⟩ : BufTy).Contents (Elt F) → (⟨S8192x1x2048, .f32⟩ : BufTy).Contents (Elt F) → (⟨S8192x1x2048, .f32⟩ : BufTy).Contents (Elt F)),
    binary main_v94 main_v95 main_v96 ((fun a b => concatenate S8192x1x4096 2 [⟨S8192x1x2048, a⟩, ⟨S8192x1x2048, b⟩] concatenates_S8192x1x2048_S8192x1x2048_S8192x1x4096_d2) : (⟨S8192x1x2048, .f32⟩ : BufTy).Contents (Elt F) → (⟨S8192x1x2048, .f32⟩ : BufTy).Contents (Elt F) → (⟨S8192x1x4096, .f32⟩ : BufTy).Contents (Elt F)),
    reshape main_v96 main_v97 rfl shapeCasts_S8192x1x4096_S8192x4096 ]

/-- The closing's three operations. -/
abbrev opsPost : List (HloOp τ sig (Elt F)) :=
  [ nullary main_cst (constant S_ .f32 0x3C800000#32),
    unary main_cst main_v98 (broadcastInDim S8192x4096 ![] bcast_S_S8192x4096 : (⟨S_, .f32⟩ : BufTy).Contents (Elt F) → (⟨S8192x4096, .f32⟩ : BufTy).Contents (Elt F)),
    binary main_v97 main_v98 main_v99 (mulf : (⟨S8192x4096, .f32⟩ : BufTy).Contents (Elt F) → (⟨S8192x4096, .f32⟩ : BufTy).Contents (Elt F) → (⟨S8192x4096, .f32⟩ : BufTy).Contents (Elt F)) ]

/-- The list of operations is the blocks in order. -/
theorem ops_blocks : (ops : List (HloOp τ sig (Elt F)))
    = opsPre ++ (st0 ++ (st1 ++ (st2 ++ (st3 ++ (st4 ++ (st5 ++ (st6 ++ (st7 ++ (st8 ++ (st9 ++ (st10 ++ (st11 ++ opsPost)))))))))))) := rfl

/-! ## One block at a time, over an arbitrary valuation

Each block's result buffer holds the block's function of its input buffer (every operation's result read at its own
buffer, every other buffer as it was), and the argument's buffer, which no operation writes, is as it was. -/

theorem pre_val (W : Valuation τ sig (Elt F)) :
    after opsPre W (Proc.devRef .tc main_v1) = pre (W (Proc.devRef .tc main_arg0))
      ∧ after opsPre W (Proc.devRef .tc main_arg0) = W (Proc.devRef .tc main_arg0) := by
  constructor
  · after_results
    rfl
  · after_results

theorem st0_val (W : Valuation τ sig (Elt F)) :
    after st0 W (Proc.devRef .tc main_v9) = stage0 (W (Proc.devRef .tc main_v1))
      ∧ after st0 W (Proc.devRef .tc main_arg0) = W (Proc.devRef .tc main_arg0) := by
  constructor
  · after_results
    rfl
  · after_results

theorem st1_val (W : Valuation τ sig (Elt F)) :
    after st1 W (Proc.devRef .tc main_v17) = stage1 (W (Proc.devRef .tc main_v9))
      ∧ after st1 W (Proc.devRef .tc main_arg0) = W (Proc.devRef .tc main_arg0) := by
  constructor
  · after_results
    rfl
  · after_results

theorem st2_val (W : Valuation τ sig (Elt F)) :
    after st2 W (Proc.devRef .tc main_v25) = stage2 (W (Proc.devRef .tc main_v17))
      ∧ after st2 W (Proc.devRef .tc main_arg0) = W (Proc.devRef .tc main_arg0) := by
  constructor
  · after_results
    rfl
  · after_results

theorem st3_val (W : Valuation τ sig (Elt F)) :
    after st3 W (Proc.devRef .tc main_v33) = stage3 (W (Proc.devRef .tc main_v25))
      ∧ after st3 W (Proc.devRef .tc main_arg0) = W (Proc.devRef .tc main_arg0) := by
  constructor
  · after_results
    rfl
  · after_results

theorem st4_val (W : Valuation τ sig (Elt F)) :
    after st4 W (Proc.devRef .tc main_v41) = stage4 (W (Proc.devRef .tc main_v33))
      ∧ after st4 W (Proc.devRef .tc main_arg0) = W (Proc.devRef .tc main_arg0) := by
  constructor
  · after_results
    rfl
  · after_results

theorem st5_val (W : Valuation τ sig (Elt F)) :
    after st5 W (Proc.devRef .tc main_v49) = stage5 (W (Proc.devRef .tc main_v41))
      ∧ after st5 W (Proc.devRef .tc main_arg0) = W (Proc.devRef .tc main_arg0) := by
  constructor
  · after_results
    rfl
  · after_results

theorem st6_val (W : Valuation τ sig (Elt F)) :
    after st6 W (Proc.devRef .tc main_v57) = stage6 (W (Proc.devRef .tc main_v49))
      ∧ after st6 W (Proc.devRef .tc main_arg0) = W (Proc.devRef .tc main_arg0) := by
  constructor
  · after_results
    rfl
  · after_results

theorem st7_val (W : Valuation τ sig (Elt F)) :
    after st7 W (Proc.devRef .tc main_v65) = stage7 (W (Proc.devRef .tc main_v57))
      ∧ after st7 W (Proc.devRef .tc main_arg0) = W (Proc.devRef .tc main_arg0) := by
  constructor
  · after_results
    rfl
  · after_results

theorem st8_val (W : Valuation τ sig (Elt F)) :
    after st8 W (Proc.devRef .tc main_v73) = stage8 (W (Proc.devRef .tc main_v65))
      ∧ after st8 W (Proc.devRef .tc main_arg0) = W (Proc.devRef .tc main_arg0) := by
  constructor
  · after_results
    rfl
  · after_results

theorem st9_val (W : Valuation τ sig (Elt F)) :
    after st9 W (Proc.devRef .tc main_v81) = stage9 (W (Proc.devRef .tc main_v73))
      ∧ after st9 W (Proc.devRef .tc main_arg0) = W (Proc.devRef .tc main_arg0) := by
  constructor
  · after_results
    rfl
  · after_results

theorem st10_val (W : Valuation τ sig (Elt F)) :
    after st10 W (Proc.devRef .tc main_v89) = stage10 (W (Proc.devRef .tc main_v81))
      ∧ after st10 W (Proc.devRef .tc main_arg0) = W (Proc.devRef .tc main_arg0) := by
  constructor
  · after_results
    rfl
  · after_results

theorem st11_val (W : Valuation τ sig (Elt F)) :
    after st11 W (Proc.devRef .tc main_v97) = stage11 (W (Proc.devRef .tc main_v89))
      ∧ after st11 W (Proc.devRef .tc main_arg0) = W (Proc.devRef .tc main_arg0) := by
  constructor
  · after_results
    rfl
  · after_results

theorem post_val (W : Valuation τ sig (Elt F)) :
    after opsPost W (Proc.devRef .tc main_v99) = post (W (Proc.devRef .tc main_v97))
      ∧ after opsPost W (Proc.devRef .tc main_arg0) = W (Proc.devRef .tc main_arg0) := by
  constructor
  · after_results
    rfl
  · after_results

/-! ## The whole line -/

/-- Two lines run one after the other: the second from where the first ends. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- After the 101 operations the result buffer holds `composed` of the argument, and the argument's buffer is unchanged. -/
theorem after_ops (V0 : Valuation τ sig (Elt F)) :
    after ops V0 (Proc.devRef .tc main_v99) = composed (V0 (Proc.devRef .tc main_arg0))
      ∧ after ops V0 (Proc.devRef .tc main_arg0) = V0 (Proc.devRef .tc main_arg0) := by
  rw [ops_blocks]
  simp only [after_app]
  constructor
  · unfold composed
    refine (post_val _).1.trans (congrArg post ?_)
    refine (st11_val _).1.trans (congrArg stage11 ?_)
    refine (st10_val _).1.trans (congrArg stage10 ?_)
    refine (st9_val _).1.trans (congrArg stage9 ?_)
    refine (st8_val _).1.trans (congrArg stage8 ?_)
    refine (st7_val _).1.trans (congrArg stage7 ?_)
    refine (st6_val _).1.trans (congrArg stage6 ?_)
    refine (st5_val _).1.trans (congrArg stage5 ?_)
    refine (st4_val _).1.trans (congrArg stage4 ?_)
    refine (st3_val _).1.trans (congrArg stage3 ?_)
    refine (st2_val _).1.trans (congrArg stage2 ?_)
    refine (st1_val _).1.trans (congrArg stage1 ?_)
    refine (st0_val _).1.trans (congrArg stage0 ?_)
    exact (pre_val _).1
  · refine (post_val _).2.trans ?_
    refine (st11_val _).2.trans ?_
    refine (st10_val _).2.trans ?_
    refine (st9_val _).2.trans ?_
    refine (st8_val _).2.trans ?_
    refine (st7_val _).2.trans ?_
    refine (st6_val _).2.trans ?_
    refine (st5_val _).2.trans ?_
    refine (st4_val _).2.trans ?_
    refine (st3_val _).2.trans ?_
    refine (st2_val _).2.trans ?_
    refine (st1_val _).2.trans ?_
    refine (st0_val _).2.trans ?_
    exact (pre_val _).2

/-- At the ideal instance, from any memory with zero counters: every weakly fair execution of @main terminates with the
    result at `composed` of the argument as launched, and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v99) = composed (F := Ideal) (m ((c.tc : Thread nD τ).loc main_arg0))
      ∧ r.2.mem ((c.tc : Thread nD τ).loc main_arg0) = m ((c.tc : Thread nD τ).loc main_arg0) :=
  (θ_run defs _ _).mono (fun _ h c => ⟨(h c main_v99).trans (after_ops (launchContents m c)).1,
      (h c main_arg0).trans (after_ops (launchContents m c)).2⟩)
    (run_seq scopedRefs_eq scopedSems_eq defs main (fun _ => ops) main_eq (fun _ => ops_sub) m ρ)

end Cert.Fwht.RefRun

end
-- ==== Proof.RefButterfly.lean ====
/-
  One butterfly stage of the fast Walsh–Hadamard transform, read at an index, over arbitrary extents.

  A stage takes an array U of shape [B, m, 2, k] — row b, block pair i, position e in the pair, column j — whose
  entry is the product of the slice of row b of length k starting at (2i+e)·k with the column j of the 2^s × 2^s
  Sylvester matrix (k = 2^s).  It cuts U into its two halves along the pair axis, A = U[:, :, 0, :] and
  B = U[:, :, 1, :], and writes (A + B, A − B) side by side along the column axis: an array of shape [B, m, 2k]
  whose entry (b, i, j) is, by the butterfly law, the product of the slice of length 2k starting at i·2k with the
  column j of the 2^(s+1) × 2^(s+1) Sylvester matrix.  Reading that array under the shape [B, m/2, 2, 2k] (the same
  row-major order) gives the next stage's U.

  Everything here is stated for natural-number extents, so that one proof serves every stage.
-/
import Idealize.ShloMosaic.Lib.Pipeline.Value
import Idealize.ShloMosaic.Lib.ValueIdx
import proofs.«106674_j83476984365427_1_alg».proof.Proof.Spec

noncomputable section

namespace Cert.Fwht.Ref

open Idealize.ShloMosaic Idealize.ShloMosaic.ValueIdx

/-- The invariant of a stage's input, shape [B, m, 2, k] with k = 2^s: entry (b, i, e, j) is the product of the
    length-k slice of row b that starts at (2i+e)·k with column j of the Sylvester matrix of order 2^s. -/
def Inv4 (xr : ℕ → ℕ → ℝ) (s : ℕ) {B m k : ℕ} (U : FVec Ideal ⟨4, ![B, m, 2, k]⟩ .f32) : Prop :=
  ∀ (b : Fin B) (i : Fin m) (e : Fin 2) (j : Fin k),
    U (ix4 b i e j) = ((∑ t ∈ Finset.range k, xr b.val ((2 * i.val + e.val) * k + t) * had s t j.val : ℝ) : EReal)

/-- The invariant of one half (position e of the pair axis), shape [B, m, k]. -/
def InvH (xr : ℕ → ℕ → ℝ) (s e : ℕ) {B m k : ℕ} (A : FVec Ideal ⟨3, ![B, m, k]⟩ .f32) : Prop :=
  ∀ (b : Fin B) (i : Fin m) (j : Fin k),
    A (ix3 b i j) = ((∑ t ∈ Finset.range k, xr b.val ((2 * i.val + e) * k + t) * had s t j.val : ℝ) : EReal)

/-- The invariant of a stage's output before it is cut in pairs again, shape [B, m, k] with k = 2^s: entry (b, i, j) is
    the product of the length-k slice of row b that starts at i·k with column j of the Sylvester matrix of order 2^s. -/
def Inv3 (xr : ℕ → ℕ → ℝ) (s : ℕ) {B m k : ℕ} (u : FVec Ideal ⟨3, ![B, m, k]⟩ .f32) : Prop :=
  ∀ (b : Fin B) (i : Fin m) (j : Fin k),
    u (ix3 b i j) = ((∑ t ∈ Finset.range k, xr b.val (i.val * k + t) * had s t j.val : ℝ) : EReal)

section Stage
variable {B m m' k k2 : ℕ}

/-- A half of a stage's input, as the program writes it — the slice at position `e` of the pair axis with the unit
    axis dropped — read at (b, i, j) is the input at (b, i, e, j). -/
theorem half_apply (U : FVec Ideal ⟨4, ![B, m, 2, k]⟩ .f32) (e : ℕ) (he : e < 2)
    (hs : (⟨4, ![B, m, 2, k]⟩ : Shape).Slices ![0, 0, e, 0] ⟨4, ![B, m, 1, k]⟩)
    (hc : (⟨4, ![B, m, 1, k]⟩ : Shape).ShapeCasts ⟨3, ![B, m, k]⟩)
    (b : Fin B) (i : Fin m) (j : Fin k) :
    shapeCast ⟨3, ![B, m, k]⟩ (extractStridedSlice ⟨4, ![B, m, 1, k]⟩ ![0, 0, e, 0] U hs) hc (ix3 b i j)
      = U (ix4 b i ⟨e, he⟩ j) := by
  refine (shapeCast_apply _ hc (ix3 b i j) (ix4 b i (0 : Fin 1) j) ?_).trans ?_
  · rw [Shape.rowMajor_val_four, Shape.rowMajor_val_three]
    show ((b.val * m + i.val) * 1 + 0) * k + j.val = (b.val * m + i.val) * k + j.val
    simp
  · refine extractStridedSlice_apply _ U hs (ix4 b i (0 : Fin 1) j) (ix4 b i ⟨e, he⟩ j) ?_
    intro a
    match a with
    | ⟨0, _⟩ => show b.val = 0 + b.val; omega
    | ⟨1, _⟩ => show i.val = 0 + i.val; omega
    | ⟨2, _⟩ => show e = e + 0; omega
    | ⟨3, _⟩ => show j.val = 0 + j.val; omega

/-- So a half inherits the input's invariant. -/
theorem inv_half {xr : ℕ → ℕ → ℝ} {s : ℕ} {U : FVec Ideal ⟨4, ![B, m, 2, k]⟩ .f32} (hU : Inv4 xr s U) (e : ℕ) (he : e < 2)
    (hs : (⟨4, ![B, m, 2, k]⟩ : Shape).Slices ![0, 0, e, 0] ⟨4, ![B, m, 1, k]⟩)
    (hc : (⟨4, ![B, m, 1, k]⟩ : Shape).ShapeCasts ⟨3, ![B, m, k]⟩) :
    InvH xr s e (shapeCast ⟨3, ![B, m, k]⟩ (extractStridedSlice ⟨4, ![B, m, 1, k]⟩ ![0, 0, e, 0] U hs) hc) := by
  intro b i j
  rw [half_apply U e he hs hc b i j]
  exact hU b i ⟨e, he⟩ j

/-- (A + B, A − B) side by side, read in the LEFT half of the columns: the sum. -/
theorem cat_apply_lt (A Bv : FVec Ideal ⟨3, ![B, m, k]⟩ .f32)
    (hcat : Shape.Concatenates [⟨3, ![B, m, k]⟩, ⟨3, ![B, m, k]⟩] ⟨3, ![B, m, k2]⟩ 2)
    (b : Fin B) (i : Fin m) (j : Fin k2) (hj : j.val < k) :
    concatenate ⟨3, ![B, m, k2]⟩ 2 [⟨⟨3, ![B, m, k]⟩, addf A Bv⟩, ⟨⟨3, ![B, m, k]⟩, subf A Bv⟩] hcat (ix3 b i j)
      = A (ix3 b i ⟨j.val, hj⟩) + Bv (ix3 b i ⟨j.val, hj⟩) := by
  refine (concatenate_pair_apply_left (2 : Fin 3) (addf A Bv) (subf A Bv) hcat (ix3 b i j) rfl (ix3 b i ⟨j.val, hj⟩) ?_).trans rfl
  intro a
  match a with
  | ⟨0, _⟩ => rfl
  | ⟨1, _⟩ => rfl
  | ⟨2, _⟩ => rfl

/-- … and in the RIGHT half of the columns: the difference. -/
theorem cat_apply_ge (A Bv : FVec Ideal ⟨3, ![B, m, k]⟩ .f32)
    (hcat : Shape.Concatenates [⟨3, ![B, m, k]⟩, ⟨3, ![B, m, k]⟩] ⟨3, ![B, m, k2]⟩ 2) (hk2 : k2 = 2 * k)
    (b : Fin B) (i : Fin m) (j : Fin k2) (hj : k ≤ j.val) :
    concatenate ⟨3, ![B, m, k2]⟩ 2 [⟨⟨3, ![B, m, k]⟩, addf A Bv⟩, ⟨⟨3, ![B, m, k]⟩, subf A Bv⟩] hcat (ix3 b i j)
      = A (ix3 b i ⟨j.val - k, by have := j.isLt; omega⟩) - Bv (ix3 b i ⟨j.val - k, by have := j.isLt; omega⟩) := by
  refine (concatenate_pair_apply_right (2 : Fin 3) (addf A Bv) (subf A Bv) hcat (ix3 b i j) rfl rfl
    (ix3 b i ⟨j.val - k, by have := j.isLt; omega⟩) ?_ ?_).trans rfl
  · intro a ha
    match a, ha with
    | ⟨0, _⟩, _ => rfl
    | ⟨1, _⟩, _ => rfl
    | ⟨2, _⟩, ha => exact absurd rfl ha
  · show j.val - k + k = j.val
    omega

/-- THE BUTTERFLY: from the two halves' invariants at order 2^s, the concatenation (A + B, A − B) has the invariant
    at order 2^(s+1). -/
theorem inv_cat {xr : ℕ → ℕ → ℝ} {s : ℕ} {A Bv : FVec Ideal ⟨3, ![B, m, k]⟩ .f32}
    (hA : InvH xr s 0 A) (hB : InvH xr s 1 Bv) (hk : k = 2 ^ s) (hk2 : k2 = 2 * k)
    (hcat : Shape.Concatenates [⟨3, ![B, m, k]⟩, ⟨3, ![B, m, k]⟩] ⟨3, ![B, m, k2]⟩ 2) :
    Inv3 xr (s + 1) (concatenate ⟨3, ![B, m, k2]⟩ 2 [⟨⟨3, ![B, m, k]⟩, addf A Bv⟩, ⟨⟨3, ![B, m, k]⟩, subf A Bv⟩] hcat) := by
  intro b i j
  have e2 : k2 = 2 ^ (s + 1) := by rw [hk2, hk, pow_succ]; ring
  by_cases hj : j.val < k
  · rw [cat_apply_lt A Bv hcat b i j hj, hA b i ⟨j.val, hj⟩, hB b i ⟨j.val, hj⟩, ← EReal.coe_add]
    congr 1
    show (∑ t ∈ Finset.range k, xr b.val ((2 * i.val + 0) * k + t) * had s t j.val)
        + (∑ t ∈ Finset.range k, xr b.val ((2 * i.val + 1) * k + t) * had s t j.val)
      = ∑ t ∈ Finset.range k2, xr b.val (i.val * k2 + t) * had (s + 1) t j.val
    have key := butterfly_add s (xr b.val) i.val j.val (hk ▸ hj)
    rw [← hk, ← e2] at key
    exact key
  · have hj' : k ≤ j.val := Nat.not_lt.1 hj
    rw [cat_apply_ge A Bv hcat hk2 b i j hj', hA b i _, hB b i _, ← EReal.coe_sub]
    congr 1
    show (∑ t ∈ Finset.range k, xr b.val ((2 * i.val + 0) * k + t) * had s t (j.val - k))
        - (∑ t ∈ Finset.range k, xr b.val ((2 * i.val + 1) * k + t) * had s t (j.val - k))
      = ∑ t ∈ Finset.range k2, xr b.val (i.val * k2 + t) * had (s + 1) t j.val
    have hlt : j.val - k < 2 ^ s := by have := j.isLt; omega
    have key := butterfly_sub s (xr b.val) i.val (j.val - k) hlt
    rw [← hk, ← e2, Nat.sub_add_cancel hj'] at key
    exact key

/-- The output of a stage, read under the shape that pairs its blocks again, is the next stage's input. -/
theorem inv_pair {xr : ℕ → ℕ → ℝ} {s : ℕ} {u : FVec Ideal ⟨3, ![B, m, k]⟩ .f32} (hu : Inv3 xr s u) (hm : m = 2 * m')
    (hr : (⟨3, ![B, m, k]⟩ : Shape).ShapeCasts ⟨4, ![B, m', 2, k]⟩) :
    Inv4 xr s (shapeCast ⟨4, ![B, m', 2, k]⟩ u hr) := by
  intro b i e j
  have hlt : 2 * i.val + e.val < m := by have := i.isLt; have := e.isLt; omega
  rw [shapeCast_apply u hr (ix4 b i e j) (ix3 b ⟨2 * i.val + e.val, hlt⟩ j) ?_]
  · exact hu b ⟨2 * i.val + e.val, hlt⟩ j
  · rw [Shape.rowMajor_val_four, Shape.rowMajor_val_three]
    show (b.val * m + (2 * i.val + e.val)) * k + j.val = ((b.val * m' + i.val) * 2 + e.val) * k + j.val
    subst hm
    ring

/-- ONE STAGE, as the program writes it: from the halves' invariants to the next input's. -/
theorem inv_stage {xr : ℕ → ℕ → ℝ} {s : ℕ} {A Bv : FVec Ideal ⟨3, ![B, m, k]⟩ .f32}
    (hA : InvH xr s 0 A) (hB : InvH xr s 1 Bv) (hk : k = 2 ^ s) (hk2 : k2 = 2 * k) (hm : m = 2 * m')
    (hcat : Shape.Concatenates [⟨3, ![B, m, k]⟩, ⟨3, ![B, m, k]⟩] ⟨3, ![B, m, k2]⟩ 2)
    (hr : (⟨3, ![B, m, k2]⟩ : Shape).ShapeCasts ⟨4, ![B, m', 2, k2]⟩) :
    Inv4 xr (s + 1) (shapeCast ⟨4, ![B, m', 2, k2]⟩
      (concatenate ⟨3, ![B, m, k2]⟩ 2 [⟨⟨3, ![B, m, k]⟩, addf A Bv⟩, ⟨⟨3, ![B, m, k]⟩, subf A Bv⟩] hcat) hr) :=
  inv_pair (inv_cat hA hB hk hk2 hcat) hm hr

end Stage

end Cert.Fwht.Ref

end
-- ==== Proof.RefValue.lean ====
/-
  The reference as a composition of pure functions — the argument read under the first stage's shape, twelve butterfly
  stages, the closing multiplication by the constant — read at an index.

  Stage s + 1 (s = 0, …, 11) takes the array of shape [8192, 4096 / 2^(s+1), 2, 2^s], cuts it in its two halves along
  the pair axis, writes (sum, difference) side by side and reads the result under the shape
  [8192, 4096 / 2^(s+2), 2, 2^(s+1)] (the last stage under [8192, 4096]).  The invariant: the entry (b, i, e, j) of the
  input of stage s + 1 is the product of the slice of row b of x of length 2^s that starts at (2i + e)·2^s with column j
  of the Sylvester matrix of order 2^s.  It holds of the first input because the Sylvester matrix of order 1 is (1);
  one generic stage lemma carries it from each stage to the next; after twelve stages the slice is the whole row and the
  matrix has order 4096.  The closing multiplication by the constant is elementwise.

  The stages below are one table of instances of the generic stage lemma at the program's literal extents.
-/
import proofs.«106674_j83476984365427_1_alg».proof.Proof.RefStages
import proofs.«106674_j83476984365427_1_alg».proof.Proof.RefButterfly

noncomputable section

namespace Cert.Fwht.RefValue

open Cert.ReferenceIdeal Cert.ReferenceIdeal.Gen Idealize.ShloMosaic Idealize.ShloMosaic.ValueIdx
open Cert.Fwht Cert.Fwht.Ref Cert.Fwht.RefRun

section Invariant
variable (xr : ℕ → ℕ → ℝ)

/-- The first input: the argument read under the shape [8192, 2048, 2, 1]. Its entry (b, i, e, 0) is x[b, 2i + e],
    a one-term sum against the Sylvester matrix of order 1. -/
theorem inv_pre (x : FVec Ideal S8192x4096 .f32)
    (hx : ∀ (b : Fin 8192) (n : Fin 4096), x (ValueIdx.ix2 b n) = ((xr b.val n.val : ℝ) : EReal)) :
    Inv4 xr 0 (B := 8192) (m := 2048) (k := 1) (pre (F := Ideal) x) := by
  intro b i e j
  unfold pre
  have hn : 2 * i.val + e.val < 4096 := by have := i.isLt; have := e.isLt; omega
  refine (shapeCast_apply _ shapeCasts_S8192x4096x1_S8192x2048x2x1 (ix4 b i e j)
    (ix3 b (⟨2 * i.val + e.val, hn⟩ : Fin 4096) (0 : Fin 1)) ?_).trans ?_
  · rw [Shape.rowMajor_val_four, Shape.rowMajor_val_three]
    show (b.val * 4096 + (2 * i.val + e.val)) * 1 + 0 = ((b.val * 2048 + i.val) * 2 + e.val) * 1 + j.val
    have := j.isLt
    omega
  · refine (broadcastInDim_apply _ bcast_S8192x4096_S8192x4096x1_0_1 _
      (ix3 b (⟨2 * i.val + e.val, hn⟩ : Fin 4096) (0 : Fin 1)) (ix2 b (⟨2 * i.val + e.val, hn⟩ : Fin 4096)) ?_).trans ?_
    · intro a
      match a with
      | ⟨0, _⟩ => rfl
      | ⟨1, _⟩ => rfl
    · rw [hx b ⟨2 * i.val + e.val, hn⟩]
      congr 1
      rw [Finset.sum_range_one, had_zero]
      simp

/-- Stage 1: blocks of 1 to blocks of 2. -/
theorem inv_stage0 (U : FVec Ideal S8192x2048x2x1 .f32) (hU : Inv4 xr 0 (B := 8192) (m := 2048) (k := 1) U) :
    Inv4 xr 1 (B := 8192) (m := 1024) (k := 2) (stage0 (F := Ideal) U) :=
  inv_stage
    (inv_half hU 0 (by decide) slices_S8192x2048x2x1_S8192x2048x1x1_0_0_0_0 shapeCasts_S8192x2048x1x1_S8192x2048x1)
    (inv_half hU 1 (by decide) slices_S8192x2048x2x1_S8192x2048x1x1_0_0_1_0 shapeCasts_S8192x2048x1x1_S8192x2048x1)
    (by norm_num) (by norm_num) (by norm_num)
    concatenates_S8192x2048x1_S8192x2048x1_S8192x2048x2_d2 shapeCasts_S8192x2048x2_S8192x1024x2x2

/-- Stage 2: blocks of 2 to blocks of 4. -/
theorem inv_stage1 (U : FVec Ideal S8192x1024x2x2 .f32) (hU : Inv4 xr 1 (B := 8192) (m := 1024) (k := 2) U) :
    Inv4 xr 2 (B := 8192) (m := 512) (k := 4) (stage1 (F := Ideal) U) :=
  inv_stage
    (inv_half hU 0 (by decide) slices_S8192x1024x2x2_S8192x1024x1x2_0_0_0_0 shapeCasts_S8192x1024x1x2_S8192x1024x2)
    (inv_half hU 1 (by decide) slices_S8192x1024x2x2_S8192x1024x1x2_0_0_1_0 shapeCasts_S8192x1024x1x2_S8192x1024x2)
    (by norm_num) (by norm_num) (by norm_num)
    concatenates_S8192x1024x2_S8192x1024x2_S8192x1024x4_d2 shapeCasts_S8192x1024x4_S8192x512x2x4

/-- Stage 3: blocks of 4 to blocks of 8. -/
theorem inv_stage2 (U : FVec Ideal S8192x512x2x4 .f32) (hU : Inv4 xr 2 (B := 8192) (m := 512) (k := 4) U) :
    Inv4 xr 3 (B := 8192) (m := 256) (k := 8) (stage2 (F := Ideal) U) :=
  inv_stage
    (inv_half hU 0 (by decide) slices_S8192x512x2x4_S8192x512x1x4_0_0_0_0 shapeCasts_S8192x512x1x4_S8192x512x4)
    (inv_half hU 1 (by decide) slices_S8192x512x2x4_S8192x512x1x4_0_0_1_0 shapeCasts_S8192x512x1x4_S8192x512x4)
    (by norm_num) (by norm_num) (by norm_num)
    concatenates_S8192x512x4_S8192x512x4_S8192x512x8_d2 shapeCasts_S8192x512x8_S8192x256x2x8

/-- Stage 4: blocks of 8 to blocks of 16. -/
theorem inv_stage3 (U : FVec Ideal S8192x256x2x8 .f32) (hU : Inv4 xr 3 (B := 8192) (m := 256) (k := 8) U) :
    Inv4 xr 4 (B := 8192) (m := 128) (k := 16) (stage3 (F := Ideal) U) :=
  inv_stage
    (inv_half hU 0 (by decide) slices_S8192x256x2x8_S8192x256x1x8_0_0_0_0 shapeCasts_S8192x256x1x8_S8192x256x8)
    (inv_half hU 1 (by decide) slices_S8192x256x2x8_S8192x256x1x8_0_0_1_0 shapeCasts_S8192x256x1x8_S8192x256x8)
    (by norm_num) (by norm_num) (by norm_num)
    concatenates_S8192x256x8_S8192x256x8_S8192x256x16_d2 shapeCasts_S8192x256x16_S8192x128x2x16

/-- Stage 5: blocks of 16 to blocks of 32. -/
theorem inv_stage4 (U : FVec Ideal S8192x128x2x16 .f32) (hU : Inv4 xr 4 (B := 8192) (m := 128) (k := 16) U) :
    Inv4 xr 5 (B := 8192) (m := 64) (k := 32) (stage4 (F := Ideal) U) :=
  inv_stage
    (inv_half hU 0 (by decide) slices_S8192x128x2x16_S8192x128x1x16_0_0_0_0 shapeCasts_S8192x128x1x16_S8192x128x16)
    (inv_half hU 1 (by decide) slices_S8192x128x2x16_S8192x128x1x16_0_0_1_0 shapeCasts_S8192x128x1x16_S8192x128x16)
    (by norm_num) (by norm_num) (by norm_num)
    concatenates_S8192x128x16_S8192x128x16_S8192x128x32_d2 shapeCasts_S8192x128x32_S8192x64x2x32

/-- Stage 6: blocks of 32 to blocks of 64. -/
theorem inv_stage5 (U : FVec Ideal S8192x64x2x32 .f32) (hU : Inv4 xr 5 (B := 8192) (m := 64) (k := 32) U) :
    Inv4 xr 6 (B := 8192) (m := 32) (k := 64) (stage5 (F := Ideal) U) :=
  inv_stage
    (inv_half hU 0 (by decide) slices_S8192x64x2x32_S8192x64x1x32_0_0_0_0 shapeCasts_S8192x64x1x32_S8192x64x32)
    (inv_half hU 1 (by decide) slices_S8192x64x2x32_S8192x64x1x32_0_0_1_0 shapeCasts_S8192x64x1x32_S8192x64x32)
    (by norm_num) (by norm_num) (by norm_num)
    concatenates_S8192x64x32_S8192x64x32_S8192x64x64_d2 shapeCasts_S8192x64x64_S8192x32x2x64

/-- Stage 7: blocks of 64 to blocks of 128. -/
theorem inv_stage6 (U : FVec Ideal S8192x32x2x64 .f32) (hU : Inv4 xr 6 (B := 8192) (m := 32) (k := 64) U) :
    Inv4 xr 7 (B := 8192) (m := 16) (k := 128) (stage6 (F := Ideal) U) :=
  inv_stage
    (inv_half hU 0 (by decide) slices_S8192x32x2x64_S8192x32x1x64_0_0_0_0 shapeCasts_S8192x32x1x64_S8192x32x64)
    (inv_half hU 1 (by decide) slices_S8192x32x2x64_S8192x32x1x64_0_0_1_0 shapeCasts_S8192x32x1x64_S8192x32x64)
    (by norm_num) (by norm_num) (by norm_num)
    concatenates_S8192x32x64_S8192x32x64_S8192x32x128_d2 shapeCasts_S8192x32x128_S8192x16x2x128

/-- Stage 8: blocks of 128 to blocks of 256. -/
theorem inv_stage7 (U : FVec Ideal S8192x16x2x128 .f32) (hU : Inv4 xr 7 (B := 8192) (m := 16) (k := 128) U) :
    Inv4 xr 8 (B := 8192) (m := 8) (k := 256) (stage7 (F := Ideal) U) :=
  inv_stage
    (inv_half hU 0 (by decide) slices_S8192x16x2x128_S8192x16x1x128_0_0_0_0 shapeCasts_S8192x16x1x128_S8192x16x128)
    (inv_half hU 1 (by decide) slices_S8192x16x2x128_S8192x16x1x128_0_0_1_0 shapeCasts_S8192x16x1x128_S8192x16x128)
    (by norm_num) (by norm_num) (by norm_num)
    concatenates_S8192x16x128_S8192x16x128_S8192x16x256_d2 shapeCasts_S8192x16x256_S8192x8x2x256

/-- Stage 9: blocks of 256 to blocks of 512. -/
theorem inv_stage8 (U : FVec Ideal S8192x8x2x256 .f32) (hU : Inv4 xr 8 (B := 8192) (m := 8) (k := 256) U) :
    Inv4 xr 9 (B := 8192) (m := 4) (k := 512) (stage8 (F := Ideal) U) :=
  inv_stage
    (inv_half hU 0 (by decide) slices_S8192x8x2x256_S8192x8x1x256_0_0_0_0 shapeCasts_S8192x8x1x256_S8192x8x256)
    (inv_half hU 1 (by decide) slices_S8192x8x2x256_S8192x8x1x256_0_0_1_0 shapeCasts_S8192x8x1x256_S8192x8x256)
    (by norm_num) (by norm_num) (by norm_num)
    concatenates_S8192x8x256_S8192x8x256_S8192x8x512_d2 shapeCasts_S8192x8x512_S8192x4x2x512

/-- Stage 10: blocks of 512 to blocks of 1024. -/
theorem inv_stage9 (U : FVec Ideal S8192x4x2x512 .f32) (hU : Inv4 xr 9 (B := 8192) (m := 4) (k := 512) U) :
    Inv4 xr 10 (B := 8192) (m := 2) (k := 1024) (stage9 (F := Ideal) U) :=
  inv_stage
    (inv_half hU 0 (by decide) slices_S8192x4x2x512_S8192x4x1x512_0_0_0_0 shapeCasts_S8192x4x1x512_S8192x4x512)
    (inv_half hU 1 (by decide) slices_S8192x4x2x512_S8192x4x1x512_0_0_1_0 shapeCasts_S8192x4x1x512_S8192x4x512)
    (by norm_num) (by norm_num) (by norm_num)
    concatenates_S8192x4x512_S8192x4x512_S8192x4x1024_d2 shapeCasts_S8192x4x1024_S8192x2x2x1024

/-- Stage 11: blocks of 1024 to blocks of 2048. -/
theorem inv_stage10 (U : FVec Ideal S8192x2x2x1024 .f32) (hU : Inv4 xr 10 (B := 8192) (m := 2) (k := 1024) U) :
    Inv4 xr 11 (B := 8192) (m := 1) (k := 2048) (stage10 (F := Ideal) U) :=
  inv_stage
    (inv_half hU 0 (by decide) slices_S8192x2x2x1024_S8192x2x1x1024_0_0_0_0 shapeCasts_S8192x2x1x1024_S8192x2x1024)
    (inv_half hU 1 (by decide) slices_S8192x2x2x1024_S8192x2x1x1024_0_0_1_0 shapeCasts_S8192x2x1x1024_S8192x2x1024)
    (by norm_num) (by norm_num) (by norm_num)
    concatenates_S8192x2x1024_S8192x2x1024_S8192x2x2048_d2 shapeCasts_S8192x2x2048_S8192x1x2x2048

/-- Stage 12: blocks of 2048 to the whole row; the output is read under the shape [8192, 4096]. -/
theorem entry_stage11 (U : FVec Ideal S8192x1x2x2048 .f32) (hU : Inv4 xr 11 (B := 8192) (m := 1) (k := 2048) U)
    (b : Fin 8192) (q : Fin 4096) :
    stage11 (F := Ideal) U (ix2 b q) = ((∑ t ∈ Finset.range 4096, xr b.val t * had 12 t q.val : ℝ) : EReal) := by
  have hc : Inv3 xr 12 (B := 8192) (m := 1) (k := 4096) _ :=
    inv_cat
      (inv_half hU 0 (by decide) slices_S8192x1x2x2048_S8192x1x1x2048_0_0_0_0 shapeCasts_S8192x1x1x2048_S8192x1x2048)
      (inv_half hU 1 (by decide) slices_S8192x1x2x2048_S8192x1x1x2048_0_0_1_0 shapeCasts_S8192x1x1x2048_S8192x1x2048)
      (by norm_num) (by norm_num) concatenates_S8192x1x2048_S8192x1x2048_S8192x1x4096_d2
  unfold stage11
  refine (shapeCast_apply _ shapeCasts_S8192x1x4096_S8192x4096 (ix2 b q) (ix3 b (0 : Fin 1) q) ?_).trans ?_
  · rw [Shape.rowMajor_val_three, Shape.rowMajor_val_two]
    show (b.val * 1 + 0) * 4096 + q.val = b.val * 4096 + q.val
    omega
  · rw [hc b 0 q]
    refine congrArg Real.toEReal (Finset.sum_congr rfl fun t _ => ?_)
    show xr b.val (0 * 4096 + t) * _ = _
    rw [Nat.zero_mul, Nat.zero_add]

end Invariant

/-- THE COMPOSED FUNCTION AT AN INDEX: row b of x times column q of the Sylvester matrix of order 4096, times the
    constant. -/
theorem composed_entry (x : FVec Ideal S8192x4096 .f32) (xr : ℕ → ℕ → ℝ)
    (hx : ∀ (b : Fin 8192) (n : Fin 4096), x (ValueIdx.ix2 b n) = ((xr b.val n.val : ℝ) : EReal))
    (b : Fin 8192) (q : Fin 4096) :
    (composed (F := Ideal) x : S8192x4096.Idx → EReal) (ValueIdx.ix2 b q)
      = ((∑ t ∈ Finset.range 4096, xr b.val t * Cert.Fwht.had 12 t q.val : ℝ) : EReal) * Ideal.ofBits .f32 0x3C800000#32 := by
  have h11 : Inv4 xr 11 (B := 8192) (m := 1) (k := 2048) _ :=
    inv_stage10 xr _ (inv_stage9 xr _ (inv_stage8 xr _ (inv_stage7 xr _ (inv_stage6 xr _ (inv_stage5 xr _
      (inv_stage4 xr _ (inv_stage3 xr _ (inv_stage2 xr _ (inv_stage1 xr _ (inv_stage0 xr _ (inv_pre xr x hx)))))))))))
  unfold composed Cert.Fwht.RefRun.post
  refine (mulf_apply _ _ (ix2 b q)).trans ?_
  rw [entry_stage11 xr _ h11 b q]
  rfl

end Cert.Fwht.RefValue

end
-- ==== Proof.lean ====
/-
  The normalized Walsh–Hadamard transform as one matrix product (the kernel) against its fast butterfly form
  (the reference), over the extended reals.

  Both programs compute, for every row b of x and every column q,
      ( Σ_t x (b, t) · had 12 t q ) · c,        c the value of the f32 word of 2^-6,
  with had the Sylvester sign pattern (Spec.lean). The kernel reaches it as x · (H · c): the host code builds H
  by twelve doublings [[h, h], [h, −h]] and scales it (HadArray.lean), and the body multiplies 64 rows of x at a
  time by the whole matrix; the 128 row blocks tile the array (KernelValue.lean). The reference reaches it as
  twelve butterfly stages — sum and difference of the two halves of each group — followed by the scaling
  (RefStages.lean, RefChunks.lean, RefValue.lean): by the butterfly law each stage is one more doubling of the
  sign matrix. The scale moves across the finite sum because every entry is finite (Join.lean), which is where
  the finite-inputs precondition is used (Finite.lean). The idealization rewrote nothing, so the preservation
  claim is trivial; the kernels' frames are their runs with the results dropped, and so is the reference's.
-/
import proofs.«106674_j83476984365427_1_alg».proof.Defs
import proofs.«106674_j83476984365427_1_alg».proof.Proof.Gen.Kernel
import proofs.«106674_j83476984365427_1_alg».proof.Proof.Gen.Kernel.Skeleton
import proofs.«106674_j83476984365427_1_alg».proof.Proof.Gen.Kernel.Launch
import proofs.«106674_j83476984365427_1_alg».proof.Proof.Gen.Kernel.Points
import proofs.«106674_j83476984365427_1_alg».proof.Proof.Gen.Kernel.Frame
import proofs.«106674_j83476984365427_1_alg».proof.Proof.Gen.KernelIdeal
import proofs.«106674_j83476984365427_1_alg».proof.Proof.Gen.KernelIdeal.Skeleton
import proofs.«106674_j83476984365427_1_alg».proof.Proof.Gen.KernelIdeal.Launch
import proofs.«106674_j83476984365427_1_alg».proof.Proof.Gen.KernelIdeal.Points
import proofs.«106674_j83476984365427_1_alg».proof.Proof.Gen.KernelIdeal.Frame
import proofs.«106674_j83476984365427_1_alg».proof.Proof.Gen.ReferenceIdeal
import proofs.«106674_j83476984365427_1_alg».proof.Proof.Gen.KernelIdeal.Value
import proofs.«106674_j83476984365427_1_alg».proof.Proof.Gen.Pre_finite_inputs
import proofs.«106674_j83476984365427_1_alg».proof.Proof.Finite
import proofs.«106674_j83476984365427_1_alg».proof.Proof.Join
import proofs.«106674_j83476984365427_1_alg».proof.Proof.KernelValue
import proofs.«106674_j83476984365427_1_alg».proof.Proof.HadArray
import proofs.«106674_j83476984365427_1_alg».proof.Proof.RefChunks
import proofs.«106674_j83476984365427_1_alg».proof.Proof.RefValue
import Idealize.ShloMosaic.Adequacy
import Idealize.ShloMosaic.Init

noncomputable section

namespace Cert.Proof

open Idealize.ShloMosaic Idealize.SL.Sem Idealize.ShloMosaic.TcCoe Idealize.ShloMosaic.ValueIdx Cert.Finite

section Claims

variable [hK : Cert.Kernel.Facts] [hKI : Cert.KernelIdeal.Facts] [hRI : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.Fwht.RefRun.run m ρ)

theorem preserves : Cert.preserves_Kernel_KernelIdeal := trivial

/-- Both runs end at the product X · (H · c) = (X · H) · c, entry by entry. -/
theorem algebraic : Cert.algebraic_KernelIdeal_ReferenceIdeal := by
  intro m ρ m' ρ' hpre hagree
  refine ⟨fun c => Cert.Fwht.Kern.prodArr (m ((c.tc : Thread Cert.KernelIdeal.nD Cert.KernelIdeal.τ).loc Cert.KernelIdeal.main_arg0))
      (Cert.KernelIdeal.Gen.V m c Cert.KernelIdeal.main_v51), Cert.Fwht.Kern.run m ρ, ?_⟩
  refine (θ_run Cert.ReferenceIdeal.defs _ _).mono (fun _ h c => ⟨(h c).1.trans ?_, (h c).2⟩)
    (Cert.Fwht.RefRun.run m' ρ')
  have hreal : ∀ i, IsReal ((m ((c.tc : Thread Cert.KernelIdeal.nD Cert.KernelIdeal.τ).loc Cert.KernelIdeal.main_arg0)
      : Cert.KernelIdeal.S8192x4096.Idx → EReal) i) := fun i => Cert.Fwht.entry_real _ (hpre c) i
  rw [hagree c]
  funext i
  obtain ⟨b, q, rfl⟩ : ∃ (b : Fin 8192) (q : Fin 4096), i = ix2 b q := ⟨i 0, i 1, eq_ix2 i⟩
  rw [Cert.Fwht.RefValue.composed_entry _
    (Cert.Fwht.realsOf (m ((c.tc : Thread Cert.KernelIdeal.nD Cert.KernelIdeal.τ).loc Cert.KernelIdeal.main_arg0)))
    (Cert.Fwht.realsOf_spec _ hreal) b q]
  unfold Cert.Fwht.Kern.prodArr
  refine ((Finset.sum_congr rfl fun k _ => ?_).trans
    (Cert.Fwht.scale_out 4096 (Cert.Fwht.realsOf _ b.val) (fun t => Cert.Fwht.had 12 t q.val) _ Cert.Fwht.scale_real)).symm
  rw [Cert.Fwht.realsOf_spec _ hreal b k, Cert.Fwht.Kern.hmat_entry m c k q]

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
